-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x128 : Shape := ⟨2, ![3, 128]⟩
abbrev S128 : Shape := ⟨1, ![128]⟩
abbrev S128x128 : Shape := ⟨2, ![128, 128]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part10 {F : FTy → Type} [FloatOps F] (main_v168 : IVec S_ 1) (main_v169 : FVec F S128 .f32) (main_v170 : FVec F S128 .f32) : IVec S_ 1 :=
  let main_v171 : IVec S128 1 := cmpf .olt main_v169 main_v170
  let main_c_67 : IVec S_ 1 := constantI S_ 1 1#1
  let main_v172 : IVec S_ 1 := (fun x v => Host.reduce IntOp.andi x v reducesTo_S128_S_d0 h_S_) main_v171 main_c_67
  let main_v173 : IVec S_ 1 := andi main_v168 main_v172
  main_v173

def fn_part9 {F : FTy → Type} [FloatOps F] (main_arg32 : FVec F S128x128 .f32) (main_arg33 : FVec F S128 .f32) (main_arg34 : FVec F S128x128 .f32) (main_arg35 : FVec F S128 .f32) (main_v153 : IVec S_ 1) : IVec S_ 1 :=
  let main_v154 : FVec F S128x128 .f32 := Host.absf main_arg32
  let main_cst_60 : FVec F S_ .f32 := constant S_ .f32 0x7F800000#32
  let main_v155 : FVec F S128x128 .f32 := broadcastInDim S128x128 ![] bcast_S_S128x128 main_cst_60
  let main_v156 : IVec S128x128 1 := cmpf .olt main_v154 main_v155
  let main_c_61 : IVec S_ 1 := constantI S_ 1 1#1
  let main_v157 : IVec S_ 1 := (fun x v => Host.reduce IntOp.andi x v reducesTo_S128x128_S_d0_1 h_S_) main_v156 main_c_61
  let main_v158 : IVec S_ 1 := andi main_v153 main_v157
  let main_v159 : FVec F S128 .f32 := Host.absf main_arg33
  let main_cst_62 : FVec F S_ .f32 := constant S_ .f32 0x7F800000#32
  let main_v160 : FVec F S128 .f32 := broadcastInDim S128 ![] bcast_S_S128 main_cst_62
  let main_v161 : IVec S128 1 := cmpf .olt main_v159 main_v160
  let main_c_63 : IVec S_ 1 := constantI S_ 1 1#1
  let main_v162 : IVec S_ 1 := (fun x v => Host.reduce IntOp.andi x v reducesTo_S128_S_d0 h_S_) main_v161 main_c_63
  let main_v163 : IVec S_ 1 := andi main_v158 main_v162
  let main_v164 : FVec F S128x128 .f32 := Host.absf main_arg34
  let main_cst_64 : FVec F S_ .f32 := constant S_ .f32 0x7F800000#32
  let main_v165 : FVec F S128x128 .f32 := broadcastInDim S128x128 ![] bcast_S_S128x128 main_cst_64
  let main_v166 : IVec S128x128 1 := cmpf .olt main_v164 main_v165
  let main_c_65 : IVec S_ 1 := constantI S_ 1 1#1
  let main_v167 : IVec S_ 1 := (fun x v => Host.reduce IntOp.andi x v reducesTo_S128x128_S_d0_1 h_S_) main_v166 main_c_65
  let main_v168 : IVec S_ 1 := andi main_v163 main_v167
  let main_v169 : FVec F S128 .f32 := Host.absf main_arg35
  let main_cst_66 : FVec F S_ .f32 := constant S_ .f32 0x7F800000#32
  let main_v170 : FVec F S128 .f32 := broadcastInDim S128 ![] bcast_S_S128 main_cst_66
  fn_part10 (F := F) main_v168 main_v169 main_v170

def fn_part8 {F : FTy → Type} [FloatOps F] (main_arg29 : FVec F S128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg29
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x128 .f32 := Host.absf main_arg30
  let main_cst_56 : FVec F S_ .f32 := constant S_ .f32 0x7F800000#32
  let main_v145 : FVec F S128x128 .f32 := broadcastInDim S128x128 ![] bcast_S_S128x128 main_cst_56
  let main_v146 : IVec S128x128 1 := cmpf .olt main_v144 main_v145
  let main_c_57 : IVec S_ 1 := constantI S_ 1 1#1
  let main_v147 : IVec S_ 1 := (fun x v => Host.reduce IntOp.andi x v reducesTo_S128x128_S_d0_1 h_S_) main_v146 main_c_57
  let main_v148 : IVec S_ 1 := andi main_v143 main_v147
  let main_v149 : FVec F S128 .f32 := Host.absf main_arg31
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg32 main_arg33 main_arg34 main_arg35 main_v153

def fn_part7 {F : FTy → Type} [FloatOps F] (main_arg26 : FVec F S128 .f32) (main_arg27 : FVec F S128 .f32) (main_arg28 : FVec F S128 .f32) (main_arg29 : FVec F S128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg26
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg28
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg29 main_arg30 main_arg31 main_arg32 main_arg33 main_arg34 main_arg35 main_v133 main_v136

def fn_part6 {F : FTy → Type} [FloatOps F] (main_arg22 : FVec F S128 .f32) (main_arg23 : FVec F S128x128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg23
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg25
  fn_part7 (F := F) main_arg26 main_arg27 main_arg28 main_arg29 main_arg30 main_arg31 main_arg32 main_arg33 main_arg34 main_arg35 main_v118 main_v119

def fn_part5 {F : FTy → Type} [FloatOps F] (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S100000x3 .f32) (main_arg1 : IVec S2x1600000 32) (main_arg2 : FVec F S3x128 .f32) (main_arg3 : FVec F S128 .f32) (main_arg4 : FVec F S3x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x128 .f32) (main_arg26 : FVec F S128 .f32) (main_arg27 : FVec F S128 .f32) (main_arg28 : FVec F S128 .f32) (main_arg29 : FVec F S128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S100000x3 : Shape := ⟨2, ![100000, 3]⟩
abbrev S2x1600000 : Shape := ⟨2, ![2, 1600000]⟩
abbrev S3x128 : Shape := ⟨2, ![3, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x3 : Shape := ⟨2, ![1600000, 3]⟩
abbrev S1x128 : Shape := ⟨2, ![1, 128]⟩
abbrev S100000x128 : Shape := ⟨2, ![100000, 128]⟩
abbrev S5000x3 : Shape := ⟨2, ![5000, 3]⟩
abbrev S5000x128 : Shape := ⟨2, ![5000, 128]⟩
abbrev S1600000x128 : Shape := ⟨2, ![1600000, 128]⟩

abbrev nBuf : Space → Nat
  | .hbm => 137
  | .vmem => 62
  | .smem => 0
  | _ => 0

abbrev hbmTy0_0 (i : Nat) : BufTy := match i % 128 with
  | 0 => ⟨S100000x3, .f32⟩
  | 1 => ⟨S2x1600000, .i32⟩
  | 2 => ⟨S3x128, .f32⟩
  | 3 => ⟨S128, .f32⟩
  | 4 => ⟨S3x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128, .f32⟩
  | 28 => ⟨S128, .f32⟩
  | 29 => ⟨S128, .f32⟩
  | 30 => ⟨S128x128, .f32⟩
  | 31 => ⟨S128, .f32⟩
  | 32 => ⟨S128x128, .f32⟩
  | 33 => ⟨S128, .f32⟩
  | 34 => ⟨S128x128, .f32⟩
  | 35 => ⟨S128, .f32⟩
  | 36 => ⟨S1x1600000, .i32⟩
  | 37 => ⟨S1600000, .i32⟩
  | 38 => ⟨S1x1600000, .i32⟩
  | 39 => ⟨S1600000, .i32⟩
  | 40 => ⟨S_, .f32⟩
  | 41 => ⟨S1600000x1, .f32⟩
  | 42 => ⟨S_, .f32⟩
  | 43 => ⟨S100000x1, .f32⟩
  | 44 => ⟨S1600000x1, .i32⟩
  | 45 => ⟨S100000x1, .f32⟩
  | 46 => ⟨S_, .f32⟩
  | 47 => ⟨S100000x1, .f32⟩
  | 48 => ⟨S100000x1, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x3, .f32⟩
  | 58 => ⟨S_, .f32⟩
  | 59 => ⟨S100000x3, .f32⟩
  | 60 => ⟨S1600000x1, .i32⟩
  | 61 => ⟨S100000x3, .f32⟩
  | 62 => ⟨S100000x3, .f32⟩
  | 63 => ⟨S100000x3, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x128, .f32⟩
  | 84 => ⟨S100000x128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x128, .f32⟩
  | 105 => ⟨S100000x128, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x128, .f32⟩
  | 126 => ⟨S100000x128, .f32⟩
  | 127 => ⟨S1x128, .f32⟩
  | _ => ⟨S100000x3, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S100000x128, .f32⟩
  | 5 => ⟨S1x128, .f32⟩
  | 6 => ⟨S1x128, .f32⟩
  | 7 => ⟨S1x128, .f32⟩
  | 8 => ⟨S100000x128, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S3x128, .f32⟩
  | .local _ .vmem, ⟨5, _⟩ => ⟨S1x128, .f32⟩
  | .local _ .vmem, ⟨6, _⟩ => ⟨S3x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_cst : Ref sig .tc := ⟨.hbm, 40, rfl⟩
abbrev main_v4 : Ref sig .tc := ⟨.hbm, 41, rfl⟩
abbrev main_cst_0 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst_1 : Ref sig .tc := ⟨.hbm, 46, rfl⟩
abbrev main_v8 : Ref sig .tc := ⟨.hbm, 47, rfl⟩
abbrev main_v9 : Ref sig .tc := ⟨.hbm, 48, rfl⟩
abbrev main_c : Ref sig .tc := ⟨.hbm, 49, rfl⟩
abbrev main_v10 : Ref sig .tc := ⟨.hbm, 50, rfl⟩
abbrev main_v11 : Ref sig .tc := ⟨.hbm, 51, rfl⟩
abbrev main_c_2 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_3 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_4 : Ref sig .tc := ⟨.hbm, 70, rfl⟩
abbrev main_v28 : Ref sig .tc := ⟨.hbm, 71, rfl⟩
abbrev main_v29 : Ref sig .tc := ⟨.hbm, 72, rfl⟩
abbrev main_c_5 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_6 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_7 : Ref sig .tc := ⟨.hbm, 91, rfl⟩
abbrev main_v46 : Ref sig .tc := ⟨.hbm, 92, rfl⟩
abbrev main_v47 : Ref sig .tc := ⟨.hbm, 93, rfl⟩
abbrev main_c_8 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_9 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_10 : Ref sig .tc := ⟨.hbm, 112, rfl⟩
abbrev main_v64 : Ref sig .tc := ⟨.hbm, 113, rfl⟩
abbrev main_v65 : Ref sig .tc := ⟨.hbm, 114, rfl⟩
abbrev main_c_11 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_12 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc4_stg7_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51
abbrev cc4_sem0_0 : DmaSem sig := 52
abbrev cc4_sem0_1 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem7_1 : DmaSem sig := 61

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x3 : S_.BroadcastsInDim S100000x3 (![] : Fin 0 → Fin S100000x3.rank)
  bcast_S100000x1_S100000x3_0_1 : S100000x1.BroadcastsInDim S100000x3 (![0, 1] : Fin 2 → Fin S100000x3.rank)
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  scatter_S100000x1_S1600000x1_S1600000x1_1_0_0_1_wf : ScatterDims.WF S100000x1 S1600000x1 S1600000x1 [1] [0] [0] 1
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  dot_S5000x3_S3x128_S5000x128_1_0_0_1_n_n_wf : DotDims.WF S5000x3 S3x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .f32 = 32 ∨ (Rect.block (s := S100000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg23) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg25) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v79) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v80) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v81) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v81) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg30) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg32) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg34) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v84) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v85) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x128 : Shape := ⟨2, ![3, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 251
  | .vmem => 0
  | .smem => 0
  | _ => 0

abbrev hbmTy0_0 (i : Nat) : BufTy := match i % 128 with
  | 0 => ⟨S100000x3, .f32⟩
  | 1 => ⟨S2x1600000, .i32⟩
  | 2 => ⟨S3x128, .f32⟩
  | 3 => ⟨S128, .f32⟩
  | 4 => ⟨S3x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128x128, .f32⟩
  | 24 => ⟨S128, .f32⟩
  | 25 => ⟨S128x128, .f32⟩
  | 26 => ⟨S128, .f32⟩
  | 27 => ⟨S128, .f32⟩
  | 28 => ⟨S128, .f32⟩
  | 29 => ⟨S128, .f32⟩
  | 30 => ⟨S128x128, .f32⟩
  | 31 => ⟨S128, .f32⟩
  | 32 => ⟨S128x128, .f32⟩
  | 33 => ⟨S128, .f32⟩
  | 34 => ⟨S128x128, .f32⟩
  | 35 => ⟨S128, .f32⟩
  | 36 => ⟨S1x1600000, .i32⟩
  | 37 => ⟨S1600000, .i32⟩
  | 38 => ⟨S1x1600000, .i32⟩
  | 39 => ⟨S1600000, .i32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x3, .f32⟩
  | 49 => ⟨S_, .f32⟩
  | 50 => ⟨S100000x3, .f32⟩
  | 51 => ⟨S1600000x1, .i32⟩
  | 52 => ⟨S100000x3, .f32⟩
  | 53 => ⟨S_, .f32⟩
  | 54 => ⟨S1600000x1, .f32⟩
  | 55 => ⟨S_, .f32⟩
  | 56 => ⟨S100000x1, .f32⟩
  | 57 => ⟨S1600000x1, .i32⟩
  | 58 => ⟨S100000x1, .f32⟩
  | 59 => ⟨S_, .f32⟩
  | 60 => ⟨S100000x1, .f32⟩
  | 61 => ⟨S100000x1, .f32⟩
  | 62 => ⟨S100000x3, .f32⟩
  | 63 => ⟨S100000x3, .f32⟩
  | 64 => ⟨S100000x128, .f32⟩
  | 65 => ⟨S1x128, .f32⟩
  | 66 => ⟨S100000x128, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S_, .f32⟩
  | 103 => ⟨S1600000x1, .f32⟩
  | 104 => ⟨S_, .f32⟩
  | 105 => ⟨S100000x1, .f32⟩
  | 106 => ⟨S1600000x1, .i32⟩
  | 107 => ⟨S100000x1, .f32⟩
  | 108 => ⟨S_, .f32⟩
  | 109 => ⟨S100000x1, .f32⟩
  | 110 => ⟨S100000x1, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S128, .f32⟩
  | 127 => ⟨S128, .f32⟩
  | _ => ⟨S100000x3, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S_, .f32⟩
  | 24 => ⟨S1600000x1, .f32⟩
  | 25 => ⟨S_, .f32⟩
  | 26 => ⟨S100000x1, .f32⟩
  | 27 => ⟨S1600000x1, .i32⟩
  | 28 => ⟨S100000x1, .f32⟩
  | 29 => ⟨S_, .f32⟩
  | 30 => ⟨S100000x1, .f32⟩
  | 31 => ⟨S100000x1, .f32⟩
  | 32 => ⟨S100000x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S_, .f32⟩
  | 73 => ⟨S1600000x1, .f32⟩
  | 74 => ⟨S_, .f32⟩
  | 75 => ⟨S100000x1, .f32⟩
  | 76 => ⟨S1600000x1, .i32⟩
  | 77 => ⟨S100000x1, .f32⟩
  | 78 => ⟨S_, .f32⟩
  | 79 => ⟨S100000x1, .f32⟩
  | 80 => ⟨S100000x1, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_c : Ref sig .tc := ⟨.hbm, 40, rfl⟩
abbrev main_v4 : Ref sig .tc := ⟨.hbm, 41, rfl⟩
abbrev main_v5 : Ref sig .tc := ⟨.hbm, 42, rfl⟩
abbrev main_c_0 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst_1 : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_3 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_4 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_call0_cst : Ref sig .tc := ⟨.hbm, 86, rfl⟩
abbrev main_call0_v0 : Ref sig .tc := ⟨.hbm, 87, rfl⟩
abbrev main_v43 : Ref sig .tc := ⟨.hbm, 88, rfl⟩
abbrev main_c_5 : Ref sig .tc := ⟨.hbm, 89, rfl⟩
abbrev main_v44 : Ref sig .tc := ⟨.hbm, 90, rfl⟩
abbrev main_v45 : Ref sig .tc := ⟨.hbm, 91, rfl⟩
abbrev main_c_6 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_7 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_8 : Ref sig .tc := ⟨.hbm, 102, rfl⟩
abbrev main_v54 : Ref sig .tc := ⟨.hbm, 103, rfl⟩
abbrev main_cst_9 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_10 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_11 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_call1_cst : Ref sig .tc := ⟨.hbm, 135, rfl⟩
abbrev main_call1_v0 : Ref sig .tc := ⟨.hbm, 136, rfl⟩
abbrev main_v83 : Ref sig .tc := ⟨.hbm, 137, rfl⟩
abbrev main_c_12 : Ref sig .tc := ⟨.hbm, 138, rfl⟩
abbrev main_v84 : Ref sig .tc := ⟨.hbm, 139, rfl⟩
abbrev main_v85 : Ref sig .tc := ⟨.hbm, 140, rfl⟩
abbrev main_c_13 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_14 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_15 : Ref sig .tc := ⟨.hbm, 151, rfl⟩
abbrev main_v94 : Ref sig .tc := ⟨.hbm, 152, rfl⟩
abbrev main_cst_16 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_17 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_18 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_call2_cst : Ref sig .tc := ⟨.hbm, 184, rfl⟩
abbrev main_call2_v0 : Ref sig .tc := ⟨.hbm, 185, rfl⟩
abbrev main_v123 : Ref sig .tc := ⟨.hbm, 186, rfl⟩
abbrev main_c_19 : Ref sig .tc := ⟨.hbm, 187, rfl⟩
abbrev main_v124 : Ref sig .tc := ⟨.hbm, 188, rfl⟩
abbrev main_v125 : Ref sig .tc := ⟨.hbm, 189, rfl⟩
abbrev main_c_20 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_cst_21 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_cst_22 : Ref sig .tc := ⟨.hbm, 200, rfl⟩
abbrev main_v134 : Ref sig .tc := ⟨.hbm, 201, rfl⟩
abbrev main_cst_23 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_24 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_cst_25 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_call3_cst : Ref sig .tc := ⟨.hbm, 233, rfl⟩
abbrev main_call3_v0 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_call4_cst : Ref sig .tc := ⟨.hbm, 240, rfl⟩
abbrev main_call4_v0 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000x1_S1600000x1_S1600000x1_1_0_0_1_wf : ScatterDims.WF S100000x1 S1600000x1 S1600000x1 [1] [0] [0] 1
  dot_S100000x3_S3x128_S100000x128_1_0_0_1_n_n_wf : DotDims.WF S100000x3 S3x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with every buffer named.

  The program is five pipelined launches among stretches of host operations.  Its generated frame certificate folds
  the buffer contents through the ten segments — a stretch of host operations applies its operations to the contents it
  is entered with, a launch leaves each of its arrays at what the pipeline's write-backs leave and every other buffer
  alone — down to the contents `W10` at the return, and concludes only that the argument arrays are unchanged.  Here the
  same run is concluded with ALL of `W10`: every unscoped buffer of every core ends at `W10`'s contents, the result
  buffer among them.
-/
import proofs.«125825_j33397665694044_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The result buffer after the run. -/
theorem run_result : θ_run defs (onTc (τ := τ) (main (F := F))) ⟨m, fun _ => 0, ρ⟩ (fun r => ∀ c : Dev nD,
      r.2.mem ((c : Thread nD τ).loc main_v85) = W10 m ρ c (Proc.devRef .tc main_v85)) :=
  (θ_run defs _ _).mono (fun r h c => h c _ (mem_uc main_v85 (by decide))) (run_all m ρ)

end Cert.KernelIdeal.Whole

end
-- ==== Proof.LibLayer.lean ====
/-
  The layer's mathematics over the extended reals, one row at a time.

  A dense layer takes a row x of k numbers to the d numbers  (∑ q, x q · W q c) + b c ; the gated unit is
  silu y = y · (1 / (1 + e^(−y))). Each of the program's four two-layer perceptrons is a function of ONE row of
  its input matrix: an edge's message and positional message are functions of that edge's state rows, a node's
  update and positional update of that node's rows. So a tile of rows computed by itself is the same rows of the
  whole matrix computed at once — nothing else joins the two programs, and no law of arithmetic beyond
  reading each sum where it is written is used.
-/
import Idealize.ShloMosaic.PureOps.Ideal
import Idealize.ShloMosaic.Lib.ValueIdx

noncomputable section

open scoped BigOperators

namespace Cert.Layer

open Idealize.ShloMosaic Idealize.ShloMosaic.ValueIdx

variable {k h d : ℕ}

/-- One output of a dense layer on a row: the row against a column of the weights, plus the bias. -/
def lin (x : Fin k → EReal) (W : Fin k → Fin d → EReal) (b : Fin d → EReal) (c : Fin d) : EReal :=
  (∑ q : Fin k, x q * W q c) + b c

/-- The gated unit y · σ(y), σ the logistic function. -/
def silu (y : EReal) : EReal := y * Ideal.logistic y

/-- Two dense layers on a row with activations `f` after the first and `g` after the second. -/
def mlp (f g : EReal → EReal) (x : Fin k → EReal) (W₁ : Fin k → Fin h → EReal) (b₁ : Fin h → EReal)
    (W₂ : Fin h → Fin d → EReal) (b₂ : Fin d → EReal) (c : Fin d) : EReal :=
  g (lin (fun j => f (lin x W₁ b₁ j)) W₂ b₂ c)

/-- Row `p` of an [n, k] array. -/
def rows {n : ℕ} (X : (⟨2, ![n, k]⟩ : Shape).Idx → EReal) (p : Fin n) : Fin k → EReal := fun q => X (ix2 p q)

/-- A [k, d] array as a matrix of numbers. -/
def mat (W : (⟨2, ![k, d]⟩ : Shape).Idx → EReal) : Fin k → Fin d → EReal := fun q j => W (ix2 q j)

/-- A length-d array as a vector of numbers. -/
def vec (b : (⟨1, ![d]⟩ : Shape).Idx → EReal) : Fin d → EReal := fun j => b (ix1 j)

end Cert.Layer

end
-- ==== Proof.LibSageLayer.lean ====
/-
  The mathematics of one graph-convolution layer and of the perceptron head, over the extended reals, one
  row at a time.

  A layer takes, for node p, the row a of averaged neighbour features and the node's own row x to the d numbers

      max ( g c · ((∑ q, a q · Wl q c) + (∑ q, x q · Wr q c) + bl c − μ c) · rsqrt (σ² c + ε) + β c , 0 ),

  an affine map of both rows, a normalisation by stored statistics and a clamp at zero.  The head takes a row x to
  ((max (x·W₁ + b₁, 0))·W₂ + b₂)·W₃ + b₃.  Every output row is a function of the SAME row of the inputs alone, so a
  tile of rows computed by itself is the same rows of the whole matrix computed at once.  The one law of arithmetic
  used is that a sum of three extended reals does not depend on the order in which the bias and the second product
  are added (addition of extended reals is commutative and associative, infinities included).

  General, for any number of rows n and any widths: `sagePt` / `sage` (one layer: entry (p, c) of the whole-array map is
  `sagePt` of row p, `sage_apply`), `sagePt_bias_first` (the bias added before the second product gives the same number),
  `headPt` / `head` (three dense layers with one clamp, `head_apply`), and `sage_rows` / `head_rows` (parameter vectors
  that arrive as [1, d] rows cast from [d] vectors give the layer / the head of the vectors).
-/
import Idealize.ShloMosaic.PureOps.Ideal
import Idealize.ShloMosaic.Lib.ValueIdx
import Idealize.ShloMosaic.Lib.ValueLayout
import proofs.«125825_j33397665694044_1_alg».proof.Proof.LibLayer

noncomputable section

open scoped BigOperators

namespace Cert.Sage

open Cert.Layer
open Idealize.ShloMosaic Idealize.ShloMosaic.ValueIdx

variable {n k d : ℕ}

/-- The small constant added to the stored variance: the number the 32-bit pattern 0x3727C5AC denotes. -/
def eps : EReal := Ideal.ofBits .f32 0x3727C5AC#32

/-- The stored-statistics normalisation and the clamp at zero, on one number `h`. -/
def normRelu (ε g β μ σ2 h : EReal) : EReal := max (g * (h - μ) * Ideal.rsqrt (σ2 + ε) + β) 0

/-- One output of a layer on node `p`'s two rows, the bias added LAST. -/
def sagePt (ε : EReal) (a x : Fin k → EReal) (Wl Wr : Fin k → Fin d → EReal) (bl g β μ σ2 : Fin d → EReal) (c : Fin d) : EReal :=
  normRelu ε (g c) (β c) (μ c) (σ2 c) (((∑ q : Fin k, a q * Wl q c) + (∑ q : Fin k, x q * Wr q c)) + bl c)

/-- The same output with the bias added BEFORE the node's own product. -/
theorem sagePt_bias_first (ε : EReal) (a x : Fin k → EReal) (Wl Wr : Fin k → Fin d → EReal) (bl g β μ σ2 : Fin d → EReal) (c : Fin d) :
    normRelu ε (g c) (β c) (μ c) (σ2 c) (((∑ q : Fin k, a q * Wl q c) + bl c) + (∑ q : Fin k, x q * Wr q c))
      = sagePt ε a x Wl Wr bl g β μ σ2 c := by
  unfold sagePt
  rw [add_right_comm]

/-- The layer on whole arrays: entry (p, c) from row p of the two inputs. -/
def sage (ε : EReal) (A X : (⟨2, ![n, k]⟩ : Shape).Idx → EReal) (wl wr : (⟨2, ![k, d]⟩ : Shape).Idx → EReal)
    (bl g β μ σ2 : Fin d → EReal) : (⟨2, ![n, d]⟩ : Shape).Idx → EReal :=
  fun i => sagePt ε (rows A ⟨(i 0).val, (i 0).isLt⟩) (rows X ⟨(i 0).val, (i 0).isLt⟩) (mat wl) (mat wr) bl g β μ σ2
    ⟨(i 1).val, (i 1).isLt⟩

theorem sage_apply (ε : EReal) (A X : (⟨2, ![n, k]⟩ : Shape).Idx → EReal) (wl wr : (⟨2, ![k, d]⟩ : Shape).Idx → EReal)
    (bl g β μ σ2 : Fin d → EReal) (p : Fin n) (c : Fin d) :
    sage ε A X wl wr bl g β μ σ2 (ix2 p c)
      = sagePt ε (rows A p) (rows X p) (mat wl) (mat wr) bl g β μ σ2 c := rfl

/-- One output of the head on a row. -/
def headPt {h₁ h₂ : ℕ} (x : Fin k → EReal) (W₁ : Fin k → Fin h₁ → EReal) (b₁ : Fin h₁ → EReal)
    (W₂ : Fin h₁ → Fin h₂ → EReal) (b₂ : Fin h₂ → EReal) (W₃ : Fin h₂ → Fin d → EReal) (b₃ : Fin d → EReal) (c : Fin d) : EReal :=
  lin (fun j => lin (fun r => max (lin x W₁ b₁ r) 0) W₂ b₂ j) W₃ b₃ c

/-- The head on whole arrays. -/
def head {h₁ h₂ : ℕ} (X : (⟨2, ![n, k]⟩ : Shape).Idx → EReal) (w₁ : (⟨2, ![k, h₁]⟩ : Shape).Idx → EReal) (b₁ : Fin h₁ → EReal)
    (w₂ : (⟨2, ![h₁, h₂]⟩ : Shape).Idx → EReal) (b₂ : Fin h₂ → EReal)
    (w₃ : (⟨2, ![h₂, d]⟩ : Shape).Idx → EReal) (b₃ : Fin d → EReal) : (⟨2, ![n, d]⟩ : Shape).Idx → EReal :=
  fun i => headPt (rows X ⟨(i 0).val, (i 0).isLt⟩) (mat w₁) b₁ (mat w₂) b₂ (mat w₃) b₃ ⟨(i 1).val, (i 1).isLt⟩

theorem head_apply {h₁ h₂ : ℕ} (X : (⟨2, ![n, k]⟩ : Shape).Idx → EReal) (w₁ : (⟨2, ![k, h₁]⟩ : Shape).Idx → EReal) (b₁ : Fin h₁ → EReal)
    (w₂ : (⟨2, ![h₁, h₂]⟩ : Shape).Idx → EReal) (b₂ : Fin h₂ → EReal)
    (w₃ : (⟨2, ![h₂, d]⟩ : Shape).Idx → EReal) (b₃ : Fin d → EReal) (p : Fin n) (c : Fin d) :
    head X w₁ b₁ w₂ b₂ w₃ b₃ (ix2 p c) = headPt (rows X p) (mat w₁) b₁ (mat w₂) b₂ (mat w₃) b₃ c := rfl

/-! ## Parameter vectors laid out as single rows -/

/-- A layer whose five parameter vectors arrive as [1, d] rows cast from [d] vectors is the layer of the vectors. -/
theorem sage_rows {n k d : ℕ} (ε : EReal) {A A' X X' : (⟨2, ![n, k]⟩ : Shape).Idx → EReal} {wl wl' wr wr' : (⟨2, ![k, d]⟩ : Shape).Idx → EReal}
    {B G Be Mu Va : (⟨2, ![1, d]⟩ : Shape).Idx → EReal} {b g be mu va : (⟨1, ![d]⟩ : Shape).Idx → EReal}
    (h : (⟨1, ![d]⟩ : Shape).ShapeCasts ⟨2, ![1, d]⟩)
    (hA : A = A') (hX : X = X') (hwl : wl = wl') (hwr : wr = wr')
    (hB : B = shapeCast ⟨2, ![1, d]⟩ b h) (hG : G = shapeCast ⟨2, ![1, d]⟩ g h) (hBe : Be = shapeCast ⟨2, ![1, d]⟩ be h)
    (hMu : Mu = shapeCast ⟨2, ![1, d]⟩ mu h) (hVa : Va = shapeCast ⟨2, ![1, d]⟩ va h) :
    Cert.Sage.sage ε A X wl wr (fun j => B (ix2 0 j)) (fun j => G (ix2 0 j)) (fun j => Be (ix2 0 j)) (fun j => Mu (ix2 0 j)) (fun j => Va (ix2 0 j))
      = Cert.Sage.sage ε A' X' wl' wr' (vec b) (vec g) (vec be) (vec mu) (vec va) := by
  subst hA hX hwl hwr hB hG hBe hMu hVa
  have e : ∀ v : (⟨1, ![d]⟩ : Shape).Idx → EReal, (fun j : Fin d => shapeCast ⟨2, ![1, d]⟩ v h (ix2 0 j)) = vec v :=
    fun v => funext fun j => shapeCast_a_1a_apply v h 0 j
  rw [e, e, e, e, e]

/-- The head whose three bias vectors arrive as [1, d] rows cast from [d] vectors is the head of the vectors. -/
theorem head_rows {n k h₁ h₂ d : ℕ} {X X' : (⟨2, ![n, k]⟩ : Shape).Idx → EReal}
    {w₁ w₁' : (⟨2, ![k, h₁]⟩ : Shape).Idx → EReal} {w₂ w₂' : (⟨2, ![h₁, h₂]⟩ : Shape).Idx → EReal} {w₃ w₃' : (⟨2, ![h₂, d]⟩ : Shape).Idx → EReal}
    {B₁ : (⟨2, ![1, h₁]⟩ : Shape).Idx → EReal} {B₂ : (⟨2, ![1, h₂]⟩ : Shape).Idx → EReal} {B₃ : (⟨2, ![1, d]⟩ : Shape).Idx → EReal}
    {b₁ : (⟨1, ![h₁]⟩ : Shape).Idx → EReal} {b₂ : (⟨1, ![h₂]⟩ : Shape).Idx → EReal} {b₃ : (⟨1, ![d]⟩ : Shape).Idx → EReal}
    (c₁ : (⟨1, ![h₁]⟩ : Shape).ShapeCasts ⟨2, ![1, h₁]⟩) (c₂ : (⟨1, ![h₂]⟩ : Shape).ShapeCasts ⟨2, ![1, h₂]⟩) (c₃ : (⟨1, ![d]⟩ : Shape).ShapeCasts ⟨2, ![1, d]⟩)
    (hX : X = X') (hw₁ : w₁ = w₁') (hw₂ : w₂ = w₂') (hw₃ : w₃ = w₃')
    (hB₁ : B₁ = shapeCast ⟨2, ![1, h₁]⟩ b₁ c₁) (hB₂ : B₂ = shapeCast ⟨2, ![1, h₂]⟩ b₂ c₂) (hB₃ : B₃ = shapeCast ⟨2, ![1, d]⟩ b₃ c₃) :
    Cert.Sage.head X w₁ (fun j => B₁ (ix2 0 j)) w₂ (fun j => B₂ (ix2 0 j)) w₃ (fun j => B₃ (ix2 0 j))
      = Cert.Sage.head X' w₁' (vec b₁) w₂' (vec b₂) w₃' (vec b₃) := by
  subst hX hw₁ hw₂ hw₃ hB₁ hB₂ hB₃
  rw [show (fun j : Fin h₁ => shapeCast ⟨2, ![1, h₁]⟩ b₁ c₁ (ix2 0 j)) = vec b₁ from funext fun j => shapeCast_a_1a_apply b₁ c₁ 0 j,
    show (fun j : Fin h₂ => shapeCast ⟨2, ![1, h₂]⟩ b₂ c₂ (ix2 0 j)) = vec b₂ from funext fun j => shapeCast_a_1a_apply b₂ c₂ 0 j,
    show (fun j : Fin d => shapeCast ⟨2, ![1, d]⟩ b₃ c₃ (ix2 0 j)) = vec b₃ from funext fun j => shapeCast_a_1a_apply b₃ c₃ 0 j]

end Cert.Sage

end
-- ==== Proof.Aggregate.lean ====
/-
  The neighbour average, as one function of the edge list and the node features.

  Both programs compute, for every layer, the same chain of host operations: the edge list's first row are source
  nodes (a negative index wrapped once by the node count), its second row destination nodes; the features of each
  edge's source are gathered, added into the row of its destination, and each row is divided by the number of edges
  that arrive at the node, at least one.  Nothing in this certificate looks inside the chain: it is carried as the one
  function `agg3` (three features per node) or `agg128` (128 features per node) of the edge list and the feature
  array, and the two programs apply it to equal arguments.
-/
import proofs.«125825_j33397665694044_1_alg».proof.KernelIdeal

noncomputable section

namespace Cert.Agg

open Cert.KernelIdeal Idealize.ShloMosaic

variable {F : FTy → Type} [FloatOps F] [Cert.KernelIdeal.Facts₀]

open Cert.KernelIdeal.Facts₀

/-- The source node of every edge: row 0 of the edge list. -/
def src (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The destination node of every edge: row 1 of the edge list. -/
def dst (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The number of edges arriving at each node, at least one. -/
def deg (ei : (⟨S2x1600000, .i32⟩ : BufTy).Contents (Elt F)) : (⟨S100000x1, .f32⟩ : BufTy).Contents (Elt F) :=
  maximumf
    (Host.scatterAdd scatter_S100000x1_S1600000x1_S1600000x1_1_0_0_1
      (broadcastInDim S100000x1 ![] bcast_S_S100000x1 (constant (F := F) S_ .f32 0x00000000#32))
      (broadcastInDim S1600000x1 ![0] bcast_S1600000_S1600000x1_0 (dst ei))
      (broadcastInDim S1600000x1 ![] bcast_S_S1600000x1 (constant (F := F) S_ .f32 0x3F800000#32)))
    (broadcastInDim S100000x1 ![] bcast_S_S100000x1 (constant (F := F) S_ .f32 0x3F800000#32))

/-- The source indices as the gather takes them: a negative index wrapped by the node count, one column. -/
def srcIdx (ei : (⟨S2x1600000, .i32⟩ : BufTy).Contents (Elt F)) : (⟨S1600000x1, .i32⟩ : BufTy).Contents (Elt F) :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32)))
      (src ei))

/-- The neighbour average of a three-feature array. -/
def agg3 (ei : (⟨S2x1600000, .i32⟩ : BufTy).Contents (Elt F)) (x : (⟨S100000x3, .f32⟩ : BufTy).Contents (Elt F)) :
    (⟨S100000x3, .f32⟩ : BufTy).Contents (Elt F) :=
  Host.divf
    (Host.scatterAdd scatter_S100000x3_S1600000x1_S1600000x3_1_0_0_1
      (broadcastInDim S100000x3 ![] bcast_S_S100000x3 (constant (F := F) S_ .f32 0x00000000#32))
      (broadcastInDim S1600000x1 ![0] bcast_S1600000_S1600000x1_0 (dst ei))
      (Host.gather gather_S100000x3_S1600000x1_S1600000x3_1_0_n_n_0_1_13 x (srcIdx ei)))
    (broadcastInDim S100000x3 ![0, 1] bcast_S100000x1_S100000x3_0_1 (deg ei))

/-- The neighbour average of a 128-feature array. -/
def agg128 (ei : (⟨S2x1600000, .i32⟩ : BufTy).Contents (Elt F)) (x : (⟨S100000x128, .f32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 (dst ei))
      (Host.gather gather_S100000x128_S1600000x1_S1600000x128_1_0_n_n_0_1_1128 x (srcIdx ei)))
    (broadcastInDim S100000x128 ![0, 1] bcast_S100000x1_S100000x128_0_1 (deg ei))

end Cert.Agg

end
-- ==== Proof.Net.lean ====
/-
  The whole network as one function of the argument arrays.

  Four layers, each the layer map (LibSageLayer) of the neighbour average (Aggregate) of the previous layer's output and of
  that output itself, then the perceptron head.  Both programs are shown to end with their result array at this one
  function of their arguments.
-/
import proofs.«125825_j33397665694044_1_alg».proof.Proof.LibSageLayer
import proofs.«125825_j33397665694044_1_alg».proof.Proof.Aggregate

noncomputable section

namespace Cert.Net

open Cert.KernelIdeal Cert.Layer Idealize.ShloMosaic

variable [Cert.KernelIdeal.Facts₀]

/-- The first layer: three features per node in, 128 out. -/
def layer1 (a0 : (⟨S100000x3, .f32⟩ : BufTy).Contents (Elt Ideal)) (a1 : (⟨S2x1600000, .i32⟩ : BufTy).Contents (Elt Ideal)) (a2 : (⟨S3x128, .f32⟩ : BufTy).Contents (Elt Ideal)) (a3 : (⟨S128, .f32⟩ : BufTy).Contents (Elt Ideal)) (a4 : (⟨S3x128, .f32⟩ : BufTy).Contents (Elt Ideal)) (a5 : (⟨S128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) : (⟨S100000x128, .f32⟩ : BufTy).Contents (Elt Ideal) :=
  Cert.Sage.sage Cert.Sage.eps (Cert.Agg.agg3 (F := Ideal) a1 a0) (a0) a2 a4 (vec a3) (vec a5) (vec a6) (vec a7) (vec a8)

/-- A later layer on the previous layer's output `x`. -/
def layerN (a1 : (⟨S2x1600000, .i32⟩ : BufTy).Contents (Elt Ideal)) (x : (⟨S100000x128, .f32⟩ : BufTy).Contents (Elt Ideal))
    (wl : (⟨S128x128, .f32⟩ : BufTy).Contents (Elt Ideal)) (bl : (⟨S128, .f32⟩ : BufTy).Contents (Elt Ideal)) (wr : (⟨S128x128, .f32⟩ : BufTy).Contents (Elt Ideal)) (g β μ σ2 : (⟨S128, .f32⟩ : BufTy).Contents (Elt Ideal)) : (⟨S100000x128, .f32⟩ : BufTy).Contents (Elt Ideal) :=
  Cert.Sage.sage Cert.Sage.eps (Cert.Agg.agg128 (F := Ideal) a1 x) x wl wr (vec bl) (vec g) (vec β) (vec μ) (vec σ2)

/-- The perceptron head on the last layer's output `x`. -/
def headOf (x : (⟨S100000x128, .f32⟩ : BufTy).Contents (Elt Ideal)) (w₁ : (⟨S128x128, .f32⟩ : BufTy).Contents (Elt Ideal)) (b₁ : (⟨S128, .f32⟩ : BufTy).Contents (Elt Ideal)) (w₂ : (⟨S128x128, .f32⟩ : BufTy).Contents (Elt Ideal)) (b₂ : (⟨S128, .f32⟩ : BufTy).Contents (Elt Ideal))
    (w₃ : (⟨S128x128, .f32⟩ : BufTy).Contents (Elt Ideal)) (b₃ : (⟨S128, .f32⟩ : BufTy).Contents (Elt Ideal)) : (⟨S100000x128, .f32⟩ : BufTy).Contents (Elt Ideal) :=
  Cert.Sage.head x w₁ (vec b₁) w₂ (vec b₂) w₃ (vec b₃)

/-- The network. -/
def net (a0 : (⟨S100000x3, .f32⟩ : BufTy).Contents (Elt Ideal)) (a1 : (⟨S2x1600000, .i32⟩ : BufTy).Contents (Elt Ideal)) (a2 : (⟨S3x128, .f32⟩ : BufTy).Contents (Elt Ideal)) (a3 : (⟨S128, .f32⟩ : BufTy).Contents (Elt Ideal)) (a4 : (⟨S3x128, .f32⟩ : BufTy).Contents (Elt Ideal)) (a5 : (⟨S128, .f32⟩ : BufTy).Contents (Elt Ideal)) (a6 : (⟨S128, .f32⟩ : BufTy).Contents (Elt Ideal)) (a7 : (⟨S128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128, .f32⟩ : BufTy).Contents (Elt Ideal)) (a14 : (⟨S128, .f32⟩ : BufTy).Contents (Elt Ideal)) (a15 : (⟨S128, .f32⟩ : BufTy).Contents (Elt Ideal)) (a16 : (⟨S128x128, .f32⟩ : BufTy).Contents (Elt Ideal)) (a17 : (⟨S128, .f32⟩ : BufTy).Contents (Elt Ideal)) (a18 : (⟨S128x128, .f32⟩ : BufTy).Contents (Elt Ideal)) (a19 : (⟨S128, .f32⟩ : BufTy).Contents (Elt Ideal)) (a20 : (⟨S128, .f32⟩ : BufTy).Contents (Elt Ideal)) (a21 : (⟨S128, .f32⟩ : BufTy).Contents (Elt Ideal)) (a22 : (⟨S128, .f32⟩ : BufTy).Contents (Elt Ideal)) (a23 : (⟨S128x128, .f32⟩ : BufTy).Contents (Elt Ideal)) (a24 : (⟨S128, .f32⟩ : BufTy).Contents (Elt Ideal)) (a25 : (⟨S128x128, .f32⟩ : BufTy).Contents (Elt Ideal)) (a26 : (⟨S128, .f32⟩ : BufTy).Contents (Elt Ideal)) (a27 : (⟨S128, .f32⟩ : BufTy).Contents (Elt Ideal)) (a28 : (⟨S128, .f32⟩ : BufTy).Contents (Elt Ideal)) (a29 : (⟨S128, .f32⟩ : BufTy).Contents (Elt Ideal)) (a30 : (⟨S128x128, .f32⟩ : BufTy).Contents (Elt Ideal)) (a31 : (⟨S128, .f32⟩ : BufTy).Contents (Elt Ideal)) (a32 : (⟨S128x128, .f32⟩ : BufTy).Contents (Elt Ideal)) (a33 : (⟨S128, .f32⟩ : BufTy).Contents (Elt Ideal)) (a34 : (⟨S128x128, .f32⟩ : BufTy).Contents (Elt Ideal)) (a35 : (⟨S128, .f32⟩ : BufTy).Contents (Elt Ideal)) : (⟨S100000x128, .f32⟩ : BufTy).Contents (Elt Ideal) :=
  headOf
    (layerN a1 (layerN a1 (layerN a1 (layer1 a0 a1 a2 a3 a4 a5 a6 a7 a8) a9 a10 a11 a12 a13 a14 a15) a16 a17 a18 a19 a20 a21 a22)
      a23 a24 a25 a26 a27 a28 a29)
    a30 a31 a32 a33 a34 a35

end Cert.Net

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«125825_j33397665694044_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.RegionSage0.lean ====
/-
  The value of layer one of the graph network as the tiled program computes it.

  The program walks 20 grid points; at point t it holds rows 5000·t … 5000·t + 4999 of the averaged-neighbour matrix
  and of the node matrix, the two 3 × 128 weight matrices and the five row vectors (bias, scale, shift, stored mean,
  stored variance) whole, and writes rows 5000·t … 5000·t + 4999 of the output. Entry (p, c) of what it writes is

      max ( g c · ((∑ q, a (p, q) · Wl (q, c)) + (∑ q, x (p, q) · Wr (q, c)) + bl c − μ c) · rsqrt (σ² c + ε) + β c , 0 ),

  a function of row p of the two tiles alone. Row p of a tile at point t is row 5000·t + p of its matrix, so the tile
  the point writes is the same rows of the layer computed on the whole matrices at once; the 20 tiles cover the
  100000 rows, so after the last point the output array is that layer of the arrays the program found. No law of
  arithmetic is used: every sum and product is read where it is written.
-/
import proofs.«125825_j33397665694044_1_alg».proof.Proof.Gen.KernelIdeal.Frame
import proofs.«125825_j33397665694044_1_alg».proof.Proof.LibSageLayer
import proofs.«125825_j33397665694044_1_alg».proof.Proof.LibPlainDot
import Idealize.ShloMosaic.Lib.Pipeline.Value
import Idealize.ShloMosaic.Lib.ValueIdx
import Idealize.ShloMosaic.Lib.ValueLayout

noncomputable section
namespace Cert.KernelIdeal.RegionValue
open Cert.KernelIdeal Cert.KernelIdeal.Gen Idealize.ShloMosaic Idealize.ShloMosaic.TcCoe Idealize.SL.Sem Idealize.ShloMosaic.ValueIdx
open Cert.Layer

variable (V : (c : Dev nD) → (b : Ref sig .tc) → Buf (Elt Ideal) ((c : Thread nD τ).loc b))

/-- The offsets of a whole-buffer access, however they are spelt, are zero on both axes. -/
theorem zero_offsets0 : (![0, 0] : Fin 2 → Nat) = fun _ => 0 := funext fun a => by fin_cases a <;> rfl

/-- The layer's number at a column depends on its nine arguments only through their values. -/
theorem sagePt_congr0 {k d : ℕ} (ε : EReal) {a a' x x' : Fin k → EReal} {Wl Wl' Wr Wr' : Fin k → Fin d → EReal}
    {bl bl' g g' β β' μ μ' σ2 σ2' : Fin d → EReal} (c : Fin d) (ha : a = a') (hx : x = x') (hWl : Wl = Wl') (hWr : Wr = Wr')
    (hbl : bl = bl') (hg : g = g') (hβ : β = β') (hμ : μ = μ') (hσ : σ2 = σ2') :
    Cert.Sage.sagePt ε a x Wl Wr bl g β μ σ2 c = Cert.Sage.sagePt ε a' x' Wl' Wr' bl' g' β' μ' σ2' c := by
  subst ha hx hWl hWr hbl hg hβ hμ hσ; rfl

/-- THE BODY AT AN ENTRY. On a tile of 5000 rows the body computes, at row p and column c, the layer's number
    for row p of the two input tiles: each of the two matrix products into the zero accumulator is the sum over
    the inner index of the products of the entries (the conversion to the narrower format is the identity on
    extended reals), the five row vectors are read at column c whatever the row, the added constant is the
    number the specification calls its small constant and the clamp's constant is zero. The body adds the
    bias after both products, as the specification writes it. -/
theorem layerPay0_apply (a x : Vec Ideal S5000x3 .f32) (wl wr : Vec Ideal S3x128 .f32)
    (bl g μ σ2 β : Vec Ideal S1x128 .f32) (p : Fin 5000) (c : Fin 128) :
    k0_pay1 a x wl wr bl g μ σ2 β (ix2 p c)
      = Cert.Sage.sagePt Cert.Sage.eps (rows a p) (rows x p) (mat wl) (mat wr) (fun j => bl (ix2 0 j))
          (fun j => g (ix2 0 j)) (fun j => β (ix2 0 j)) (fun j => μ (ix2 0 j)) (fun j => σ2 (ix2 0 j)) c := by
  unfold k0_pay1
  simp only [maximumf_apply, addf_apply, mulf_apply, subf_apply, broadcast_apply, shapeCast_self, broadcastTo_1b_ab_apply,
    Cert.LibPlainDot.matmul_zero_apply dot_S5000x3_S3x128_S5000x128_1_0_0_1_n_n rfl, truncf_apply]
  show max _ (Ideal.ofBits .f32 0x00000000#32) = _
  rw [Ideal.ofBits_zero_f32]
  rfl

/-! ## Where each window's block sits at a grid point

The two input matrices and the output are cut into 20 tiles of 5000 rows, tile t at grid point t; the two weight
matrices and the five row vectors are whole at every point. -/

theorem rowIdx0_0 : ∀ t : Fin cfg0.N, win0_0.index t (0 : Fin 2) = t.val ∧ win0_0.index t (1 : Fin 2) = 0 :=
  (by decide +kernel : ∀ t : Fin grid0.N, _)
theorem rowIdx0_1 : ∀ t : Fin cfg0.N, win0_1.index t (0 : Fin 2) = t.val ∧ win0_1.index t (1 : Fin 2) = 0 :=
  (by decide +kernel : ∀ t : Fin grid0.N, _)
theorem rowIdx0_9 : ∀ t : Fin cfg0.N, win0_9.index t (0 : Fin 2) = t.val ∧ win0_9.index t (1 : Fin 2) = 0 :=
  (by decide +kernel : ∀ t : Fin grid0.N, _)
theorem wholeIdx0_2 : ∀ t : Fin cfg0.N, win0_2.index t (0 : Fin 2) = 0 ∧ win0_2.index t (1 : Fin 2) = 0 :=
  (by decide +kernel : ∀ t : Fin grid0.N, _)
theorem wholeIdx0_3 : ∀ t : Fin cfg0.N, win0_3.index t (0 : Fin 2) = 0 ∧ win0_3.index t (1 : Fin 2) = 0 :=
  (by decide +kernel : ∀ t : Fin grid0.N, _)
theorem wholeIdx0_4 : ∀ t : Fin cfg0.N, win0_4.index t (0 : Fin 2) = 0 ∧ win0_4.index t (1 : Fin 2) = 0 :=
  (by decide +kernel : ∀ t : Fin grid0.N, _)
theorem wholeIdx0_5 : ∀ t : Fin cfg0.N, win0_5.index t (0 : Fin 2) = 0 ∧ win0_5.index t (1 : Fin 2) = 0 :=
  (by decide +kernel : ∀ t : Fin grid0.N, _)
theorem wholeIdx0_6 : ∀ t : Fin cfg0.N, win0_6.index t (0 : Fin 2) = 0 ∧ win0_6.index t (1 : Fin 2) = 0 :=
  (by decide +kernel : ∀ t : Fin grid0.N, _)
theorem wholeIdx0_7 : ∀ t : Fin cfg0.N, win0_7.index t (0 : Fin 2) = 0 ∧ win0_7.index t (1 : Fin 2) = 0 :=
  (by decide +kernel : ∀ t : Fin grid0.N, _)
theorem wholeIdx0_8 : ∀ t : Fin cfg0.N, win0_8.index t (0 : Fin 2) = 0 ∧ win0_8.index t (1 : Fin 2) = 0 :=
  (by decide +kernel : ∀ t : Fin grid0.N, _)

/-- Entry (p, q) of input 0's tile at point t is entry (5000·t + p, q) of the array. -/
theorem rowTile0_0 (c : Dev nD) (t : Fin cfg0.N) (p : Fin 5000) (q : Fin 3) (r : Fin 100000)
    (hr : r.val = 5000 * t.val + p.val) :
    (iblk0 V c 0 t : Vec Ideal S5000x3 .f32) (ix2 p q)
      = (V c (Pipeline.arrRef spec0 0) : S100000x3.Idx → EReal) (ix2 r q) := by
  obtain ⟨e0, e1⟩ := rowIdx0_0 t
  unfold iblk0
  rw [View.read_apply]
  show V c (Pipeline.arrRef spec0 0) _ = V c (Pipeline.arrRef spec0 0) _
  refine congrArg _ (funext fun a => Fin.ext ?_)
  match a with
  | ⟨0, _⟩ => show win0_0.index t 0 * 5000 + 1 * p.val = r.val; rw [e0, hr]; omega
  | ⟨1, _⟩ => show win0_0.index t 1 * 3 + 1 * q.val = q.val; rw [e1]; omega

/-- Entry (p, q) of input 1's tile at point t is entry (5000·t + p, q) of the array. -/
theorem rowTile0_1 (c : Dev nD) (t : Fin cfg0.N) (p : Fin 5000) (q : Fin 3) (r : Fin 100000)
    (hr : r.val = 5000 * t.val + p.val) :
    (iblk0 V c 1 t : Vec Ideal S5000x3 .f32) (ix2 p q)
      = (V c (Pipeline.arrRef spec0 1) : S100000x3.Idx → EReal) (ix2 r q) := by
  obtain ⟨e0, e1⟩ := rowIdx0_1 t
  unfold iblk0
  rw [View.read_apply]
  show V c (Pipeline.arrRef spec0 1) _ = V c (Pipeline.arrRef spec0 1) _
  refine congrArg _ (funext fun a => Fin.ext ?_)
  match a with
  | ⟨0, _⟩ => show win0_1.index t 0 * 5000 + 1 * p.val = r.val; rw [e0, hr]; omega
  | ⟨1, _⟩ => show win0_1.index t 1 * 3 + 1 * q.val = q.val; rw [e1]; omega

/-- Weight matrix 2's block at any point is the matrix. -/
theorem wholeMat0_2 (c : Dev nD) (t : Fin cfg0.N) (p : Fin 3) (q : Fin 128) :
    (iblk0 V c 2 t : Vec Ideal S3x128 .f32) (ix2 p q)
      = (V c (Pipeline.arrRef spec0 2) : S3x128.Idx → EReal) (ix2 p q) := by
  obtain ⟨e0, e1⟩ := wholeIdx0_2 t
  unfold iblk0
  rw [View.read_apply]
  show V c (Pipeline.arrRef spec0 2) _ = V c (Pipeline.arrRef spec0 2) _
  refine congrArg _ (funext fun a => Fin.ext ?_)
  match a with
  | ⟨0, _⟩ => show win0_2.index t 0 * 3 + 1 * p.val = p.val; rw [e0]; omega
  | ⟨1, _⟩ => show win0_2.index t 1 * 128 + 1 * q.val = q.val; rw [e1]; omega

/-- Weight matrix 4's block at any point is the matrix. -/
theorem wholeMat0_4 (c : Dev nD) (t : Fin cfg0.N) (p : Fin 3) (q : Fin 128) :
    (iblk0 V c 4 t : Vec Ideal S3x128 .f32) (ix2 p q)
      = (V c (Pipeline.arrRef spec0 4) : S3x128.Idx → EReal) (ix2 p q) := by
  obtain ⟨e0, e1⟩ := wholeIdx0_4 t
  unfold iblk0
  rw [View.read_apply]
  show V c (Pipeline.arrRef spec0 4) _ = V c (Pipeline.arrRef spec0 4) _
  refine congrArg _ (funext fun a => Fin.ext ?_)
  match a with
  | ⟨0, _⟩ => show win0_4.index t 0 * 3 + 1 * p.val = p.val; rw [e0]; omega
  | ⟨1, _⟩ => show win0_4.index t 1 * 128 + 1 * q.val = q.val; rw [e1]; omega

/-- Row vector 3's block at any point is the vector. -/
theorem wholeVec0_3 (c : Dev nD) (t : Fin cfg0.N) (q : Fin 128) :
    (iblk0 V c 3 t : Vec Ideal S1x128 .f32) (ix2 0 q)
      = (V c (Pipeline.arrRef spec0 3) : S1x128.Idx → EReal) (ix2 0 q) := by
  obtain ⟨e0, e1⟩ := wholeIdx0_3 t
  unfold iblk0
  rw [View.read_apply]
  show V c (Pipeline.arrRef spec0 3) _ = V c (Pipeline.arrRef spec0 3) _
  refine congrArg _ (funext fun a => Fin.ext ?_)
  match a with
  | ⟨0, _⟩ => show win0_3.index t 0 * 1 + 1 * 0 = 0; rw [e0]
  | ⟨1, _⟩ => show win0_3.index t 1 * 128 + 1 * q.val = q.val; rw [e1]; omega

/-- Row vector 5's block at any point is the vector. -/
theorem wholeVec0_5 (c : Dev nD) (t : Fin cfg0.N) (q : Fin 128) :
    (iblk0 V c 5 t : Vec Ideal S1x128 .f32) (ix2 0 q)
      = (V c (Pipeline.arrRef spec0 5) : S1x128.Idx → EReal) (ix2 0 q) := by
  obtain ⟨e0, e1⟩ := wholeIdx0_5 t
  unfold iblk0
  rw [View.read_apply]
  show V c (Pipeline.arrRef spec0 5) _ = V c (Pipeline.arrRef spec0 5) _
  refine congrArg _ (funext fun a => Fin.ext ?_)
  match a with
  | ⟨0, _⟩ => show win0_5.index t 0 * 1 + 1 * 0 = 0; rw [e0]
  | ⟨1, _⟩ => show win0_5.index t 1 * 128 + 1 * q.val = q.val; rw [e1]; omega

/-- Row vector 6's block at any point is the vector. -/
theorem wholeVec0_6 (c : Dev nD) (t : Fin cfg0.N) (q : Fin 128) :
    (iblk0 V c 6 t : Vec Ideal S1x128 .f32) (ix2 0 q)
      = (V c (Pipeline.arrRef spec0 6) : S1x128.Idx → EReal) (ix2 0 q) := by
  obtain ⟨e0, e1⟩ := wholeIdx0_6 t
  unfold iblk0
  rw [View.read_apply]
  show V c (Pipeline.arrRef spec0 6) _ = V c (Pipeline.arrRef spec0 6) _
  refine congrArg _ (funext fun a => Fin.ext ?_)
  match a with
  | ⟨0, _⟩ => show win0_6.index t 0 * 1 + 1 * 0 = 0; rw [e0]
  | ⟨1, _⟩ => show win0_6.index t 1 * 128 + 1 * q.val = q.val; rw [e1]; omega

/-- Row vector 7's block at any point is the vector. -/
theorem wholeVec0_7 (c : Dev nD) (t : Fin cfg0.N) (q : Fin 128) :
    (iblk0 V c 7 t : Vec Ideal S1x128 .f32) (ix2 0 q)
      = (V c (Pipeline.arrRef spec0 7) : S1x128.Idx → EReal) (ix2 0 q) := by
  obtain ⟨e0, e1⟩ := wholeIdx0_7 t
  unfold iblk0
  rw [View.read_apply]
  show V c (Pipeline.arrRef spec0 7) _ = V c (Pipeline.arrRef spec0 7) _
  refine congrArg _ (funext fun a => Fin.ext ?_)
  match a with
  | ⟨0, _⟩ => show win0_7.index t 0 * 1 + 1 * 0 = 0; rw [e0]
  | ⟨1, _⟩ => show win0_7.index t 1 * 128 + 1 * q.val = q.val; rw [e1]; omega

/-- Row vector 8's block at any point is the vector. -/
theorem wholeVec0_8 (c : Dev nD) (t : Fin cfg0.N) (q : Fin 128) :
    (iblk0 V c 8 t : Vec Ideal S1x128 .f32) (ix2 0 q)
      = (V c (Pipeline.arrRef spec0 8) : S1x128.Idx → EReal) (ix2 0 q) := by
  obtain ⟨e0, e1⟩ := wholeIdx0_8 t
  unfold iblk0
  rw [View.read_apply]
  show V c (Pipeline.arrRef spec0 8) _ = V c (Pipeline.arrRef spec0 8) _
  refine congrArg _ (funext fun a => Fin.ext ?_)
  match a with
  | ⟨0, _⟩ => show win0_8.index t 0 * 1 + 1 * 0 = 0; rw [e0]
  | ⟨1, _⟩ => show win0_8.index t 1 * 128 + 1 * q.val = q.val; rw [e1]; omega

/-! ## From tiles to the array -/

/-- The layer's function of the arrays as the region finds them. -/
def layerOut0 (c : Dev nD) : S100000x128.Idx → EReal :=
  Cert.Sage.sage Cert.Sage.eps (V c (Pipeline.arrRef spec0 0)) (V c (Pipeline.arrRef spec0 1))
      (V c (Pipeline.arrRef spec0 2)) (V c (Pipeline.arrRef spec0 4))
      (fun j => V c (Pipeline.arrRef spec0 3) (ix2 0 j)) (fun j => V c (Pipeline.arrRef spec0 5) (ix2 0 j))
      (fun j => V c (Pipeline.arrRef spec0 6) (ix2 0 j)) (fun j => V c (Pipeline.arrRef spec0 7) (ix2 0 j))
      (fun j => V c (Pipeline.arrRef spec0 8) (ix2 0 j))

/-- The body's result on the windows' blocks at point t. -/
def tileOut0 (c : Dev nD) (t : Fin cfg0.N) : S5000x128.Idx → EReal :=
  k0_pay1 (iblk0 V c 0 t) (iblk0 V c 1 t) (iblk0 V c 2 t) (iblk0 V c 4 t) (iblk0 V c 3 t) (iblk0 V c 5 t) (iblk0 V c 7 t) (iblk0 V c 8 t) (iblk0 V c 6 t)

/-- THE BODY ON THE BLOCKS OF POINT t, at entry (p, q) of its tile, is the layer's number at entry (5000·t + p, q)
    of the whole arrays: that number depends on row 5000·t + p of the two input matrices alone, which is row p of
    their tiles at t, and on the weights and vectors, which every point sees whole. -/
theorem tileEntry0 (c : Dev nD) (t : Fin cfg0.N) (p : Fin 5000) (q : Fin 128) (r : Fin 100000)
    (hr : r.val = 5000 * t.val + p.val) : tileOut0 V c t (ix2 p q) = layerOut0 V c (ix2 r q) := by
  unfold tileOut0 layerOut0
  rw [Cert.Sage.sage_apply]
  refine (layerPay0_apply (iblk0 V c 0 t) (iblk0 V c 1 t) (iblk0 V c 2 t) (iblk0 V c 4 t) (iblk0 V c 3 t) (iblk0 V c 5 t) (iblk0 V c 7 t) (iblk0 V c 8 t) (iblk0 V c 6 t) p q).trans ?_
  exact sagePt_congr0 Cert.Sage.eps q
    (funext fun k => rowTile0_0 V c t p k r hr) (funext fun k => rowTile0_1 V c t p k r hr)
    (funext fun k => funext fun l => wholeMat0_2 V c t k l) (funext fun k => funext fun l => wholeMat0_4 V c t k l)
    (funext fun l => wholeVec0_3 V c t l) (funext fun l => wholeVec0_5 V c t l) (funext fun l => wholeVec0_6 V c t l)
    (funext fun l => wholeVec0_7 V c t l) (funext fun l => wholeVec0_8 V c t l)

/-- WHAT POINT t WRITES BACK is tile t of the layer's function of the arrays as the region finds them. -/
theorem flushed0_eq (c : Dev nD) (t : Fin cfg0.N) :
    (dat0 (F := Ideal) V c).flushed 9 t = ((cfg0.win 9).blk t).view.read (Elt Ideal) (layerOut0 V c) := by
  show (cfg0.win 9).cut (grid0.coords t) ((dat0 V c).after 9 t) = _
  rw [after0_9]
  unfold out0_9
  rw [View.canon_unit_zero zero_offsets0]
  simp only [View.ld_unit_zero (S := S5000x3) zero_offsets0, View.ld_unit_zero (S := S3x128) zero_offsets0,
    View.ld_unit_zero (S := S1x128) zero_offsets0]
  funext j
  show tileOut0 V c t ((cfg0.win 9).xinj (grid0.coords t) j) = layerOut0 V c (((cfg0.win 9).blk t).view.emb j)
  have hN : cfg0.N = 20 := N_0
  have ht : t.val < 20 := by have := t.isLt; omega
  have hp : (j 0).val < 5000 := (j 0).isLt
  have hq : (j 1).val < 128 := (j 1).isLt
  obtain ⟨e0, e1⟩ := rowIdx0_9 t
  have hx : (cfg0.win 9).xinj (grid0.coords t) j = ix2 (⟨(j 0).val, hp⟩ : Fin 5000) (⟨(j 1).val, hq⟩ : Fin 128) :=
    funext fun a => Fin.ext (by match a with | ⟨0, _⟩ => rfl | ⟨1, _⟩ => rfl)
  have hy : ((cfg0.win 9).blk t).view.emb j
      = ix2 (⟨5000 * t.val + (j 0).val, by omega⟩ : Fin 100000) (⟨(j 1).val, hq⟩ : Fin 128) :=
    funext fun a => Fin.ext (by
      match a with
      | ⟨0, _⟩ => show win0_9.index t 0 * 5000 + 1 * (j 0).val = 5000 * t.val + (j 0).val; rw [e0]; omega
      | ⟨1, _⟩ => show win0_9.index t 1 * 128 + 1 * (j 1).val = (j 1).val; rw [e1]; omega)
  exact (congrArg (tileOut0 V c t) hx).trans
    ((tileEntry0 V c t ⟨(j 0).val, hp⟩ ⟨(j 1).val, hq⟩ ⟨5000 * t.val + (j 0).val, by omega⟩ rfl).trans
      (congrArg (layerOut0 V c) hy.symm))

/-- An index of the output array is in point t's tile iff each coordinate is in the tile's range on its axis. -/
theorem mem_tile0 (t : Fin cfg0.N) (i : S100000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v27).slice (win0_9.rect t)).set ↔ _
  rw [View.set_slice_whole, Rect.mem_set_unit]
  exact Iff.rfl

/-- Every entry of the output array is in some point's tile: row r is in the tile of point r / 5000. -/
theorem tiles_cover0 (i : S100000x128.Idx) :
    ∃ t : Fin cfg0.N, (cfg0.win 9).flush t = true ∧ i ∈ ((cfg0.win 9).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨e0, e1⟩ := rowIdx0_9 t
  refine ⟨t, flush0_9 t, ?_⟩
  rw [mem_tile0]
  intro a
  match a with
  | ⟨0, _⟩ => show win0_9.index t 0 * 5000 ≤ (i 0).val ∧ (i 0).val < win0_9.index t 0 * 5000 + 5000; rw [e0, ht]; omega
  | ⟨1, _⟩ => show win0_9.index t 1 * 128 ≤ (i 1).val ∧ (i 1).val < win0_9.index t 1 * 128 + 128; rw [e1]; omega

/-- THE OUTPUT ARRAY after the region is the layer's function of the arrays the region found. -/
theorem final0 (c : Dev nD) :
    (dat0 (F := Ideal) V c).arrAt 9 cfg0.N
      = Cert.Sage.sage Cert.Sage.eps (V c (Pipeline.arrRef spec0 0)) (V c (Pipeline.arrRef spec0 1))
          (V c (Pipeline.arrRef spec0 2)) (V c (Pipeline.arrRef spec0 4))
          (fun j => V c (Pipeline.arrRef spec0 3) (ix2 0 j)) (fun j => V c (Pipeline.arrRef spec0 5) (ix2 0 j))
          (fun j => V c (Pipeline.arrRef spec0 6) (ix2 0 j)) (fun j => V c (Pipeline.arrRef spec0 7) (ix2 0 j))
          (fun j => V c (Pipeline.arrRef spec0 8) (ix2 0 j)) :=
  (dat0 V c).arrAt_eq_of_cover 9 (layerOut0 V c) (fun t _ => flushed0_eq V c t) tiles_cover0

end Cert.KernelIdeal.RegionValue
end
-- ==== Proof.RegionSage1.lean ====
/-
  The value of layer two of the graph network as the tiled program computes it.

  The program walks 20 grid points; at point t it holds rows 5000·t … 5000·t + 4999 of the averaged-neighbour matrix
  and of the node matrix, the two 128 × 128 weight matrices and the five row vectors (bias, scale, shift, stored mean,
  stored variance) whole, and writes rows 5000·t … 5000·t + 4999 of the output. Entry (p, c) of what it writes is

      max ( g c · ((∑ q, a (p, q) · Wl (q, c)) + (∑ q, x (p, q) · Wr (q, c)) + bl c − μ c) · rsqrt (σ² c + ε) + β c , 0 ),

  a function of row p of the two tiles alone. Row p of a tile at point t is row 5000·t + p of its matrix, so the tile
  the point writes is the same rows of the layer computed on the whole matrices at once; the 20 tiles cover the
  100000 rows, so after the last point the output array is that layer of the arrays the program found. No law of
  arithmetic is used: every sum and product is read where it is written.
-/
import proofs.«125825_j33397665694044_1_alg».proof.Proof.Gen.KernelIdeal.Frame
import proofs.«125825_j33397665694044_1_alg».proof.Proof.LibSageLayer
import proofs.«125825_j33397665694044_1_alg».proof.Proof.LibPlainDot
import Idealize.ShloMosaic.Lib.Pipeline.Value
import Idealize.ShloMosaic.Lib.ValueIdx
import Idealize.ShloMosaic.Lib.ValueLayout

noncomputable section
namespace Cert.KernelIdeal.RegionValue
open Cert.KernelIdeal Cert.KernelIdeal.Gen Idealize.ShloMosaic Idealize.ShloMosaic.TcCoe Idealize.SL.Sem Idealize.ShloMosaic.ValueIdx
open Cert.Layer

variable (V : (c : Dev nD) → (b : Ref sig .tc) → Buf (Elt Ideal) ((c : Thread nD τ).loc b))

/-- The offsets of a whole-buffer access, however they are spelt, are zero on both axes. -/
theorem zero_offsets1 : (![0, 0] : Fin 2 → Nat) = fun _ => 0 := funext fun a => by fin_cases a <;> rfl

/-- The layer's number at a column depends on its nine arguments only through their values. -/
theorem sagePt_congr1 {k d : ℕ} (ε : EReal) {a a' x x' : Fin k → EReal} {Wl Wl' Wr Wr' : Fin k → Fin d → EReal}
    {bl bl' g g' β β' μ μ' σ2 σ2' : Fin d → EReal} (c : Fin d) (ha : a = a') (hx : x = x') (hWl : Wl = Wl') (hWr : Wr = Wr')
    (hbl : bl = bl') (hg : g = g') (hβ : β = β') (hμ : μ = μ') (hσ : σ2 = σ2') :
    Cert.Sage.sagePt ε a x Wl Wr bl g β μ σ2 c = Cert.Sage.sagePt ε a' x' Wl' Wr' bl' g' β' μ' σ2' c := by
  subst ha hx hWl hWr hbl hg hβ hμ hσ; rfl

/-- THE BODY AT AN ENTRY. On a tile of 5000 rows the body computes, at row p and column c, the layer's number
    for row p of the two input tiles: each of the two matrix products into the zero accumulator is the sum over
    the inner index of the products of the entries (the conversion to the narrower format is the identity on
    extended reals), the five row vectors are read at column c whatever the row, the added constant is the
    number the specification calls its small constant and the clamp's constant is zero. The body adds the
    bias after both products, as the specification writes it. -/
theorem layerPay1_apply (a x : Vec Ideal S5000x128 .f32) (wl wr : Vec Ideal S128x128 .f32)
    (bl g μ σ2 β : Vec Ideal S1x128 .f32) (p : Fin 5000) (c : Fin 128) :
    k1_pay1 (k1_pay2 a x wl wr bl g μ σ2 β) (k1_pay3 (F := Ideal)) (ix2 p c)
      = Cert.Sage.sagePt Cert.Sage.eps (rows a p) (rows x p) (mat wl) (mat wr) (fun j => bl (ix2 0 j))
          (fun j => g (ix2 0 j)) (fun j => β (ix2 0 j)) (fun j => μ (ix2 0 j)) (fun j => σ2 (ix2 0 j)) c := by
  unfold k1_pay1 k1_pay2 k1_pay3
  simp only [maximumf_apply, addf_apply, mulf_apply, subf_apply, broadcast_apply, shapeCast_self, broadcastTo_1b_ab_apply,
    Cert.LibPlainDot.matmul_zero_apply dot_S5000x128_S128x128_S5000x128_1_0_0_1_n_n rfl, truncf_apply]
  show max _ (Ideal.ofBits .f32 0x00000000#32) = _
  rw [Ideal.ofBits_zero_f32]
  rfl

/-! ## Where each window's block sits at a grid point

The two input matrices and the output are cut into 20 tiles of 5000 rows, tile t at grid point t; the two weight
matrices and the five row vectors are whole at every point. -/

theorem rowIdx1_0 : ∀ t : Fin cfg1.N, win1_0.index t (0 : Fin 2) = t.val ∧ win1_0.index t (1 : Fin 2) = 0 :=
  (by decide +kernel : ∀ t : Fin grid1.N, _)
theorem rowIdx1_1 : ∀ t : Fin cfg1.N, win1_1.index t (0 : Fin 2) = t.val ∧ win1_1.index t (1 : Fin 2) = 0 :=
  (by decide +kernel : ∀ t : Fin grid1.N, _)
theorem rowIdx1_9 : ∀ t : Fin cfg1.N, win1_9.index t (0 : Fin 2) = t.val ∧ win1_9.index t (1 : Fin 2) = 0 :=
  (by decide +kernel : ∀ t : Fin grid1.N, _)
theorem wholeIdx1_2 : ∀ t : Fin cfg1.N, win1_2.index t (0 : Fin 2) = 0 ∧ win1_2.index t (1 : Fin 2) = 0 :=
  (by decide +kernel : ∀ t : Fin grid1.N, _)
theorem wholeIdx1_3 : ∀ t : Fin cfg1.N, win1_3.index t (0 : Fin 2) = 0 ∧ win1_3.index t (1 : Fin 2) = 0 :=
  (by decide +kernel : ∀ t : Fin grid1.N, _)
theorem wholeIdx1_4 : ∀ t : Fin cfg1.N, win1_4.index t (0 : Fin 2) = 0 ∧ win1_4.index t (1 : Fin 2) = 0 :=
  (by decide +kernel : ∀ t : Fin grid1.N, _)
theorem wholeIdx1_5 : ∀ t : Fin cfg1.N, win1_5.index t (0 : Fin 2) = 0 ∧ win1_5.index t (1 : Fin 2) = 0 :=
  (by decide +kernel : ∀ t : Fin grid1.N, _)
theorem wholeIdx1_6 : ∀ t : Fin cfg1.N, win1_6.index t (0 : Fin 2) = 0 ∧ win1_6.index t (1 : Fin 2) = 0 :=
  (by decide +kernel : ∀ t : Fin grid1.N, _)
theorem wholeIdx1_7 : ∀ t : Fin cfg1.N, win1_7.index t (0 : Fin 2) = 0 ∧ win1_7.index t (1 : Fin 2) = 0 :=
  (by decide +kernel : ∀ t : Fin grid1.N, _)
theorem wholeIdx1_8 : ∀ t : Fin cfg1.N, win1_8.index t (0 : Fin 2) = 0 ∧ win1_8.index t (1 : Fin 2) = 0 :=
  (by decide +kernel : ∀ t : Fin grid1.N, _)

/-- Entry (p, q) of input 0's tile at point t is entry (5000·t + p, q) of the array. -/
theorem rowTile1_0 (c : Dev nD) (t : Fin cfg1.N) (p : Fin 5000) (q : Fin 128) (r : Fin 100000)
    (hr : r.val = 5000 * t.val + p.val) :
    (iblk1 V c 0 t : Vec Ideal S5000x128 .f32) (ix2 p q)
      = (V c (Pipeline.arrRef spec1 0) : S100000x128.Idx → EReal) (ix2 r q) := by
  obtain ⟨e0, e1⟩ := rowIdx1_0 t
  unfold iblk1
  rw [View.read_apply]
  show V c (Pipeline.arrRef spec1 0) _ = V c (Pipeline.arrRef spec1 0) _
  refine congrArg _ (funext fun a => Fin.ext ?_)
  match a with
  | ⟨0, _⟩ => show win1_0.index t 0 * 5000 + 1 * p.val = r.val; rw [e0, hr]; omega
  | ⟨1, _⟩ => show win1_0.index t 1 * 128 + 1 * q.val = q.val; rw [e1]; omega

/-- Entry (p, q) of input 1's tile at point t is entry (5000·t + p, q) of the array. -/
theorem rowTile1_1 (c : Dev nD) (t : Fin cfg1.N) (p : Fin 5000) (q : Fin 128) (r : Fin 100000)
    (hr : r.val = 5000 * t.val + p.val) :
    (iblk1 V c 1 t : Vec Ideal S5000x128 .f32) (ix2 p q)
      = (V c (Pipeline.arrRef spec1 1) : S100000x128.Idx → EReal) (ix2 r q) := by
  obtain ⟨e0, e1⟩ := rowIdx1_1 t
  unfold iblk1
  rw [View.read_apply]
  show V c (Pipeline.arrRef spec1 1) _ = V c (Pipeline.arrRef spec1 1) _
  refine congrArg _ (funext fun a => Fin.ext ?_)
  match a with
  | ⟨0, _⟩ => show win1_1.index t 0 * 5000 + 1 * p.val = r.val; rw [e0, hr]; omega
  | ⟨1, _⟩ => show win1_1.index t 1 * 128 + 1 * q.val = q.val; rw [e1]; omega

/-- Weight matrix 2's block at any point is the matrix. -/
theorem wholeMat1_2 (c : Dev nD) (t : Fin cfg1.N) (p : Fin 128) (q : Fin 128) :
    (iblk1 V c 2 t : Vec Ideal S128x128 .f32) (ix2 p q)
      = (V c (Pipeline.arrRef spec1 2) : S128x128.Idx → EReal) (ix2 p q) := by
  obtain ⟨e0, e1⟩ := wholeIdx1_2 t
  unfold iblk1
  rw [View.read_apply]
  show V c (Pipeline.arrRef spec1 2) _ = V c (Pipeline.arrRef spec1 2) _
  refine congrArg _ (funext fun a => Fin.ext ?_)
  match a with
  | ⟨0, _⟩ => show win1_2.index t 0 * 128 + 1 * p.val = p.val; rw [e0]; omega
  | ⟨1, _⟩ => show win1_2.index t 1 * 128 + 1 * q.val = q.val; rw [e1]; omega

/-- Weight matrix 4's block at any point is the matrix. -/
theorem wholeMat1_4 (c : Dev nD) (t : Fin cfg1.N) (p : Fin 128) (q : Fin 128) :
    (iblk1 V c 4 t : Vec Ideal S128x128 .f32) (ix2 p q)
      = (V c (Pipeline.arrRef spec1 4) : S128x128.Idx → EReal) (ix2 p q) := by
  obtain ⟨e0, e1⟩ := wholeIdx1_4 t
  unfold iblk1
  rw [View.read_apply]
  show V c (Pipeline.arrRef spec1 4) _ = V c (Pipeline.arrRef spec1 4) _
  refine congrArg _ (funext fun a => Fin.ext ?_)
  match a with
  | ⟨0, _⟩ => show win1_4.index t 0 * 128 + 1 * p.val = p.val; rw [e0]; omega
  | ⟨1, _⟩ => show win1_4.index t 1 * 128 + 1 * q.val = q.val; rw [e1]; omega

/-- Row vector 3's block at any point is the vector. -/
theorem wholeVec1_3 (c : Dev nD) (t : Fin cfg1.N) (q : Fin 128) :
    (iblk1 V c 3 t : Vec Ideal S1x128 .f32) (ix2 0 q)
      = (V c (Pipeline.arrRef spec1 3) : S1x128.Idx → EReal) (ix2 0 q) := by
  obtain ⟨e0, e1⟩ := wholeIdx1_3 t
  unfold iblk1
  rw [View.read_apply]
  show V c (Pipeline.arrRef spec1 3) _ = V c (Pipeline.arrRef spec1 3) _
  refine congrArg _ (funext fun a => Fin.ext ?_)
  match a with
  | ⟨0, _⟩ => show win1_3.index t 0 * 1 + 1 * 0 = 0; rw [e0]
  | ⟨1, _⟩ => show win1_3.index t 1 * 128 + 1 * q.val = q.val; rw [e1]; omega

/-- Row vector 5's block at any point is the vector. -/
theorem wholeVec1_5 (c : Dev nD) (t : Fin cfg1.N) (q : Fin 128) :
    (iblk1 V c 5 t : Vec Ideal S1x128 .f32) (ix2 0 q)
      = (V c (Pipeline.arrRef spec1 5) : S1x128.Idx → EReal) (ix2 0 q) := by
  obtain ⟨e0, e1⟩ := wholeIdx1_5 t
  unfold iblk1
  rw [View.read_apply]
  show V c (Pipeline.arrRef spec1 5) _ = V c (Pipeline.arrRef spec1 5) _
  refine congrArg _ (funext fun a => Fin.ext ?_)
  match a with
  | ⟨0, _⟩ => show win1_5.index t 0 * 1 + 1 * 0 = 0; rw [e0]
  | ⟨1, _⟩ => show win1_5.index t 1 * 128 + 1 * q.val = q.val; rw [e1]; omega

/-- Row vector 6's block at any point is the vector. -/
theorem wholeVec1_6 (c : Dev nD) (t : Fin cfg1.N) (q : Fin 128) :
    (iblk1 V c 6 t : Vec Ideal S1x128 .f32) (ix2 0 q)
      = (V c (Pipeline.arrRef spec1 6) : S1x128.Idx → EReal) (ix2 0 q) := by
  obtain ⟨e0, e1⟩ := wholeIdx1_6 t
  unfold iblk1
  rw [View.read_apply]
  show V c (Pipeline.arrRef spec1 6) _ = V c (Pipeline.arrRef spec1 6) _
  refine congrArg _ (funext fun a => Fin.ext ?_)
  match a with
  | ⟨0, _⟩ => show win1_6.index t 0 * 1 + 1 * 0 = 0; rw [e0]
  | ⟨1, _⟩ => show win1_6.index t 1 * 128 + 1 * q.val = q.val; rw [e1]; omega

/-- Row vector 7's block at any point is the vector. -/
theorem wholeVec1_7 (c : Dev nD) (t : Fin cfg1.N) (q : Fin 128) :
    (iblk1 V c 7 t : Vec Ideal S1x128 .f32) (ix2 0 q)
      = (V c (Pipeline.arrRef spec1 7) : S1x128.Idx → EReal) (ix2 0 q) := by
  obtain ⟨e0, e1⟩ := wholeIdx1_7 t
  unfold iblk1
  rw [View.read_apply]
  show V c (Pipeline.arrRef spec1 7) _ = V c (Pipeline.arrRef spec1 7) _
  refine congrArg _ (funext fun a => Fin.ext ?_)
  match a with
  | ⟨0, _⟩ => show win1_7.index t 0 * 1 + 1 * 0 = 0; rw [e0]
  | ⟨1, _⟩ => show win1_7.index t 1 * 128 + 1 * q.val = q.val; rw [e1]; omega

/-- Row vector 8's block at any point is the vector. -/
theorem wholeVec1_8 (c : Dev nD) (t : Fin cfg1.N) (q : Fin 128) :
    (iblk1 V c 8 t : Vec Ideal S1x128 .f32) (ix2 0 q)
      = (V c (Pipeline.arrRef spec1 8) : S1x128.Idx → EReal) (ix2 0 q) := by
  obtain ⟨e0, e1⟩ := wholeIdx1_8 t
  unfold iblk1
  rw [View.read_apply]
  show V c (Pipeline.arrRef spec1 8) _ = V c (Pipeline.arrRef spec1 8) _
  refine congrArg _ (funext fun a => Fin.ext ?_)
  match a with
  | ⟨0, _⟩ => show win1_8.index t 0 * 1 + 1 * 0 = 0; rw [e0]
  | ⟨1, _⟩ => show win1_8.index t 1 * 128 + 1 * q.val = q.val; rw [e1]; omega

/-! ## From tiles to the array -/

/-- The layer's function of the arrays as the region finds them. -/
def layerOut1 (c : Dev nD) : S100000x128.Idx → EReal :=
  Cert.Sage.sage Cert.Sage.eps (V c (Pipeline.arrRef spec1 0)) (V c (Pipeline.arrRef spec1 1))
      (V c (Pipeline.arrRef spec1 2)) (V c (Pipeline.arrRef spec1 4))
      (fun j => V c (Pipeline.arrRef spec1 3) (ix2 0 j)) (fun j => V c (Pipeline.arrRef spec1 5) (ix2 0 j))
      (fun j => V c (Pipeline.arrRef spec1 6) (ix2 0 j)) (fun j => V c (Pipeline.arrRef spec1 7) (ix2 0 j))
      (fun j => V c (Pipeline.arrRef spec1 8) (ix2 0 j))

/-- The body's result on the windows' blocks at point t. -/
def tileOut1 (c : Dev nD) (t : Fin cfg1.N) : S5000x128.Idx → EReal :=
  k1_pay1 (k1_pay2 (iblk1 V c 0 t) (iblk1 V c 1 t) (iblk1 V c 2 t) (iblk1 V c 4 t) (iblk1 V c 3 t) (iblk1 V c 5 t) (iblk1 V c 7 t) (iblk1 V c 8 t) (iblk1 V c 6 t)) (k1_pay3 (F := Ideal))

/-- THE BODY ON THE BLOCKS OF POINT t, at entry (p, q) of its tile, is the layer's number at entry (5000·t + p, q)
    of the whole arrays: that number depends on row 5000·t + p of the two input matrices alone, which is row p of
    their tiles at t, and on the weights and vectors, which every point sees whole. -/
theorem tileEntry1 (c : Dev nD) (t : Fin cfg1.N) (p : Fin 5000) (q : Fin 128) (r : Fin 100000)
    (hr : r.val = 5000 * t.val + p.val) : tileOut1 V c t (ix2 p q) = layerOut1 V c (ix2 r q) := by
  unfold tileOut1 layerOut1
  rw [Cert.Sage.sage_apply]
  refine (layerPay1_apply (iblk1 V c 0 t) (iblk1 V c 1 t) (iblk1 V c 2 t) (iblk1 V c 4 t) (iblk1 V c 3 t) (iblk1 V c 5 t) (iblk1 V c 7 t) (iblk1 V c 8 t) (iblk1 V c 6 t) p q).trans ?_
  exact sagePt_congr1 Cert.Sage.eps q
    (funext fun k => rowTile1_0 V c t p k r hr) (funext fun k => rowTile1_1 V c t p k r hr)
    (funext fun k => funext fun l => wholeMat1_2 V c t k l) (funext fun k => funext fun l => wholeMat1_4 V c t k l)
    (funext fun l => wholeVec1_3 V c t l) (funext fun l => wholeVec1_5 V c t l) (funext fun l => wholeVec1_6 V c t l)
    (funext fun l => wholeVec1_7 V c t l) (funext fun l => wholeVec1_8 V c t l)

/-- WHAT POINT t WRITES BACK is tile t of the layer's function of the arrays as the region finds them. -/
theorem flushed1_eq (c : Dev nD) (t : Fin cfg1.N) :
    (dat1 (F := Ideal) V c).flushed 9 t = ((cfg1.win 9).blk t).view.read (Elt Ideal) (layerOut1 V c) := by
  show (cfg1.win 9).cut (grid1.coords t) ((dat1 V c).after 9 t) = _
  rw [after1_9]
  unfold out1_9
  rw [View.canon_unit_zero zero_offsets1]
  simp only [View.ld_unit_zero (S := S5000x128) zero_offsets1, View.ld_unit_zero (S := S128x128) zero_offsets1,
    View.ld_unit_zero (S := S1x128) zero_offsets1]
  funext j
  show tileOut1 V c t ((cfg1.win 9).xinj (grid1.coords t) j) = layerOut1 V c (((cfg1.win 9).blk t).view.emb j)
  have hN : cfg1.N = 20 := N_1
  have ht : t.val < 20 := by have := t.isLt; omega
  have hp : (j 0).val < 5000 := (j 0).isLt
  have hq : (j 1).val < 128 := (j 1).isLt
  obtain ⟨e0, e1⟩ := rowIdx1_9 t
  have hx : (cfg1.win 9).xinj (grid1.coords t) j = ix2 (⟨(j 0).val, hp⟩ : Fin 5000) (⟨(j 1).val, hq⟩ : Fin 128) :=
    funext fun a => Fin.ext (by match a with | ⟨0, _⟩ => rfl | ⟨1, _⟩ => rfl)
  have hy : ((cfg1.win 9).blk t).view.emb j
      = ix2 (⟨5000 * t.val + (j 0).val, by omega⟩ : Fin 100000) (⟨(j 1).val, hq⟩ : Fin 128) :=
    funext fun a => Fin.ext (by
      match a with
      | ⟨0, _⟩ => show win1_9.index t 0 * 5000 + 1 * (j 0).val = 5000 * t.val + (j 0).val; rw [e0]; omega
      | ⟨1, _⟩ => show win1_9.index t 1 * 128 + 1 * (j 1).val = (j 1).val; rw [e1]; omega)
  exact (congrArg (tileOut1 V c t) hx).trans
    ((tileEntry1 V c t ⟨(j 0).val, hp⟩ ⟨(j 1).val, hq⟩ ⟨5000 * t.val + (j 0).val, by omega⟩ rfl).trans
      (congrArg (layerOut1 V c) hy.symm))

/-- An index of the output array is in point t's tile iff each coordinate is in the tile's range on its axis. -/
theorem mem_tile1 (t : Fin cfg1.N) (i : S100000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v45).slice (win1_9.rect t)).set ↔ _
  rw [View.set_slice_whole, Rect.mem_set_unit]
  exact Iff.rfl

/-- Every entry of the output array is in some point's tile: row r is in the tile of point r / 5000. -/
theorem tiles_cover1 (i : S100000x128.Idx) :
    ∃ t : Fin cfg1.N, (cfg1.win 9).flush t = true ∧ i ∈ ((cfg1.win 9).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨e0, e1⟩ := rowIdx1_9 t
  refine ⟨t, flush1_9 t, ?_⟩
  rw [mem_tile1]
  intro a
  match a with
  | ⟨0, _⟩ => show win1_9.index t 0 * 5000 ≤ (i 0).val ∧ (i 0).val < win1_9.index t 0 * 5000 + 5000; rw [e0, ht]; omega
  | ⟨1, _⟩ => show win1_9.index t 1 * 128 ≤ (i 1).val ∧ (i 1).val < win1_9.index t 1 * 128 + 128; rw [e1]; omega

/-- THE OUTPUT ARRAY after the region is the layer's function of the arrays the region found. -/
theorem final1 (c : Dev nD) :
    (dat1 (F := Ideal) V c).arrAt 9 cfg1.N
      = Cert.Sage.sage Cert.Sage.eps (V c (Pipeline.arrRef spec1 0)) (V c (Pipeline.arrRef spec1 1))
          (V c (Pipeline.arrRef spec1 2)) (V c (Pipeline.arrRef spec1 4))
          (fun j => V c (Pipeline.arrRef spec1 3) (ix2 0 j)) (fun j => V c (Pipeline.arrRef spec1 5) (ix2 0 j))
          (fun j => V c (Pipeline.arrRef spec1 6) (ix2 0 j)) (fun j => V c (Pipeline.arrRef spec1 7) (ix2 0 j))
          (fun j => V c (Pipeline.arrRef spec1 8) (ix2 0 j)) :=
  (dat1 V c).arrAt_eq_of_cover 9 (layerOut1 V c) (fun t _ => flushed1_eq V c t) tiles_cover1

end Cert.KernelIdeal.RegionValue
end
-- ==== Proof.RegionSage2.lean ====
/-
  The value of layer three of the graph network as the tiled program computes it.

  The program walks 20 grid points; at point t it holds rows 5000·t … 5000·t + 4999 of the averaged-neighbour matrix
  and of the node matrix, the two 128 × 128 weight matrices and the five row vectors (bias, scale, shift, stored mean,
  stored variance) whole, and writes rows 5000·t … 5000·t + 4999 of the output. Entry (p, c) of what it writes is

      max ( g c · ((∑ q, a (p, q) · Wl (q, c)) + (∑ q, x (p, q) · Wr (q, c)) + bl c − μ c) · rsqrt (σ² c + ε) + β c , 0 ),

  a function of row p of the two tiles alone. Row p of a tile at point t is row 5000·t + p of its matrix, so the tile
  the point writes is the same rows of the layer computed on the whole matrices at once; the 20 tiles cover the
  100000 rows, so after the last point the output array is that layer of the arrays the program found. No law of
  arithmetic is used: every sum and product is read where it is written.
-/
import proofs.«125825_j33397665694044_1_alg».proof.Proof.Gen.KernelIdeal.Frame
import proofs.«125825_j33397665694044_1_alg».proof.Proof.LibSageLayer
import proofs.«125825_j33397665694044_1_alg».proof.Proof.LibPlainDot
import Idealize.ShloMosaic.Lib.Pipeline.Value
import Idealize.ShloMosaic.Lib.ValueIdx
import Idealize.ShloMosaic.Lib.ValueLayout

noncomputable section
namespace Cert.KernelIdeal.RegionValue
open Cert.KernelIdeal Cert.KernelIdeal.Gen Idealize.ShloMosaic Idealize.ShloMosaic.TcCoe Idealize.SL.Sem Idealize.ShloMosaic.ValueIdx
open Cert.Layer

variable (V : (c : Dev nD) → (b : Ref sig .tc) → Buf (Elt Ideal) ((c : Thread nD τ).loc b))

/-- The offsets of a whole-buffer access, however they are spelt, are zero on both axes. -/
theorem zero_offsets2 : (![0, 0] : Fin 2 → Nat) = fun _ => 0 := funext fun a => by fin_cases a <;> rfl

/-- The layer's number at a column depends on its nine arguments only through their values. -/
theorem sagePt_congr2 {k d : ℕ} (ε : EReal) {a a' x x' : Fin k → EReal} {Wl Wl' Wr Wr' : Fin k → Fin d → EReal}
    {bl bl' g g' β β' μ μ' σ2 σ2' : Fin d → EReal} (c : Fin d) (ha : a = a') (hx : x = x') (hWl : Wl = Wl') (hWr : Wr = Wr')
    (hbl : bl = bl') (hg : g = g') (hβ : β = β') (hμ : μ = μ') (hσ : σ2 = σ2') :
    Cert.Sage.sagePt ε a x Wl Wr bl g β μ σ2 c = Cert.Sage.sagePt ε a' x' Wl' Wr' bl' g' β' μ' σ2' c := by
  subst ha hx hWl hWr hbl hg hβ hμ hσ; rfl

/-- THE BODY AT AN ENTRY. On a tile of 5000 rows the body computes, at row p and column c, the layer's number
    for row p of the two input tiles: each of the two matrix products into the zero accumulator is the sum over
    the inner index of the products of the entries (the conversion to the narrower format is the identity on
    extended reals), the five row vectors are read at column c whatever the row, the added constant is the
    number the specification calls its small constant and the clamp's constant is zero. The body adds the
    bias after both products, as the specification writes it. -/
theorem layerPay2_apply (a x : Vec Ideal S5000x128 .f32) (wl wr : Vec Ideal S128x128 .f32)
    (bl g μ σ2 β : Vec Ideal S1x128 .f32) (p : Fin 5000) (c : Fin 128) :
    k2_pay1 (k2_pay2 a x wl wr bl g μ σ2 β) (k2_pay3 (F := Ideal)) (ix2 p c)
      = Cert.Sage.sagePt Cert.Sage.eps (rows a p) (rows x p) (mat wl) (mat wr) (fun j => bl (ix2 0 j))
          (fun j => g (ix2 0 j)) (fun j => β (ix2 0 j)) (fun j => μ (ix2 0 j)) (fun j => σ2 (ix2 0 j)) c := by
  unfold k2_pay1 k2_pay2 k2_pay3
  simp only [maximumf_apply, addf_apply, mulf_apply, subf_apply, broadcast_apply, shapeCast_self, broadcastTo_1b_ab_apply,
    Cert.LibPlainDot.matmul_zero_apply dot_S5000x128_S128x128_S5000x128_1_0_0_1_n_n rfl, truncf_apply]
  show max _ (Ideal.ofBits .f32 0x00000000#32) = _
  rw [Ideal.ofBits_zero_f32]
  rfl

/-! ## Where each window's block sits at a grid point

The two input matrices and the output are cut into 20 tiles of 5000 rows, tile t at grid point t; the two weight
matrices and the five row vectors are whole at every point. -/

theorem rowIdx2_0 : ∀ t : Fin cfg2.N, win2_0.index t (0 : Fin 2) = t.val ∧ win2_0.index t (1 : Fin 2) = 0 :=
  (by decide +kernel : ∀ t : Fin grid2.N, _)
theorem rowIdx2_1 : ∀ t : Fin cfg2.N, win2_1.index t (0 : Fin 2) = t.val ∧ win2_1.index t (1 : Fin 2) = 0 :=
  (by decide +kernel : ∀ t : Fin grid2.N, _)
theorem rowIdx2_9 : ∀ t : Fin cfg2.N, win2_9.index t (0 : Fin 2) = t.val ∧ win2_9.index t (1 : Fin 2) = 0 :=
  (by decide +kernel : ∀ t : Fin grid2.N, _)
theorem wholeIdx2_2 : ∀ t : Fin cfg2.N, win2_2.index t (0 : Fin 2) = 0 ∧ win2_2.index t (1 : Fin 2) = 0 :=
  (by decide +kernel : ∀ t : Fin grid2.N, _)
theorem wholeIdx2_3 : ∀ t : Fin cfg2.N, win2_3.index t (0 : Fin 2) = 0 ∧ win2_3.index t (1 : Fin 2) = 0 :=
  (by decide +kernel : ∀ t : Fin grid2.N, _)
theorem wholeIdx2_4 : ∀ t : Fin cfg2.N, win2_4.index t (0 : Fin 2) = 0 ∧ win2_4.index t (1 : Fin 2) = 0 :=
  (by decide +kernel : ∀ t : Fin grid2.N, _)
theorem wholeIdx2_5 : ∀ t : Fin cfg2.N, win2_5.index t (0 : Fin 2) = 0 ∧ win2_5.index t (1 : Fin 2) = 0 :=
  (by decide +kernel : ∀ t : Fin grid2.N, _)
theorem wholeIdx2_6 : ∀ t : Fin cfg2.N, win2_6.index t (0 : Fin 2) = 0 ∧ win2_6.index t (1 : Fin 2) = 0 :=
  (by decide +kernel : ∀ t : Fin grid2.N, _)
theorem wholeIdx2_7 : ∀ t : Fin cfg2.N, win2_7.index t (0 : Fin 2) = 0 ∧ win2_7.index t (1 : Fin 2) = 0 :=
  (by decide +kernel : ∀ t : Fin grid2.N, _)
theorem wholeIdx2_8 : ∀ t : Fin cfg2.N, win2_8.index t (0 : Fin 2) = 0 ∧ win2_8.index t (1 : Fin 2) = 0 :=
  (by decide +kernel : ∀ t : Fin grid2.N, _)

/-- Entry (p, q) of input 0's tile at point t is entry (5000·t + p, q) of the array. -/
theorem rowTile2_0 (c : Dev nD) (t : Fin cfg2.N) (p : Fin 5000) (q : Fin 128) (r : Fin 100000)
    (hr : r.val = 5000 * t.val + p.val) :
    (iblk2 V c 0 t : Vec Ideal S5000x128 .f32) (ix2 p q)
      = (V c (Pipeline.arrRef spec2 0) : S100000x128.Idx → EReal) (ix2 r q) := by
  obtain ⟨e0, e1⟩ := rowIdx2_0 t
  unfold iblk2
  rw [View.read_apply]
  show V c (Pipeline.arrRef spec2 0) _ = V c (Pipeline.arrRef spec2 0) _
  refine congrArg _ (funext fun a => Fin.ext ?_)
  match a with
  | ⟨0, _⟩ => show win2_0.index t 0 * 5000 + 1 * p.val = r.val; rw [e0, hr]; omega
  | ⟨1, _⟩ => show win2_0.index t 1 * 128 + 1 * q.val = q.val; rw [e1]; omega

/-- Entry (p, q) of input 1's tile at point t is entry (5000·t + p, q) of the array. -/
theorem rowTile2_1 (c : Dev nD) (t : Fin cfg2.N) (p : Fin 5000) (q : Fin 128) (r : Fin 100000)
    (hr : r.val = 5000 * t.val + p.val) :
    (iblk2 V c 1 t : Vec Ideal S5000x128 .f32) (ix2 p q)
      = (V c (Pipeline.arrRef spec2 1) : S100000x128.Idx → EReal) (ix2 r q) := by
  obtain ⟨e0, e1⟩ := rowIdx2_1 t
  unfold iblk2
  rw [View.read_apply]
  show V c (Pipeline.arrRef spec2 1) _ = V c (Pipeline.arrRef spec2 1) _
  refine congrArg _ (funext fun a => Fin.ext ?_)
  match a with
  | ⟨0, _⟩ => show win2_1.index t 0 * 5000 + 1 * p.val = r.val; rw [e0, hr]; omega
  | ⟨1, _⟩ => show win2_1.index t 1 * 128 + 1 * q.val = q.val; rw [e1]; omega

/-- Weight matrix 2's block at any point is the matrix. -/
theorem wholeMat2_2 (c : Dev nD) (t : Fin cfg2.N) (p : Fin 128) (q : Fin 128) :
    (iblk2 V c 2 t : Vec Ideal S128x128 .f32) (ix2 p q)
      = (V c (Pipeline.arrRef spec2 2) : S128x128.Idx → EReal) (ix2 p q) := by
  obtain ⟨e0, e1⟩ := wholeIdx2_2 t
  unfold iblk2
  rw [View.read_apply]
  show V c (Pipeline.arrRef spec2 2) _ = V c (Pipeline.arrRef spec2 2) _
  refine congrArg _ (funext fun a => Fin.ext ?_)
  match a with
  | ⟨0, _⟩ => show win2_2.index t 0 * 128 + 1 * p.val = p.val; rw [e0]; omega
  | ⟨1, _⟩ => show win2_2.index t 1 * 128 + 1 * q.val = q.val; rw [e1]; omega

/-- Weight matrix 4's block at any point is the matrix. -/
theorem wholeMat2_4 (c : Dev nD) (t : Fin cfg2.N) (p : Fin 128) (q : Fin 128) :
    (iblk2 V c 4 t : Vec Ideal S128x128 .f32) (ix2 p q)
      = (V c (Pipeline.arrRef spec2 4) : S128x128.Idx → EReal) (ix2 p q) := by
  obtain ⟨e0, e1⟩ := wholeIdx2_4 t
  unfold iblk2
  rw [View.read_apply]
  show V c (Pipeline.arrRef spec2 4) _ = V c (Pipeline.arrRef spec2 4) _
  refine congrArg _ (funext fun a => Fin.ext ?_)
  match a with
  | ⟨0, _⟩ => show win2_4.index t 0 * 128 + 1 * p.val = p.val; rw [e0]; omega
  | ⟨1, _⟩ => show win2_4.index t 1 * 128 + 1 * q.val = q.val; rw [e1]; omega

/-- Row vector 3's block at any point is the vector. -/
theorem wholeVec2_3 (c : Dev nD) (t : Fin cfg2.N) (q : Fin 128) :
    (iblk2 V c 3 t : Vec Ideal S1x128 .f32) (ix2 0 q)
      = (V c (Pipeline.arrRef spec2 3) : S1x128.Idx → EReal) (ix2 0 q) := by
  obtain ⟨e0, e1⟩ := wholeIdx2_3 t
  unfold iblk2
  rw [View.read_apply]
  show V c (Pipeline.arrRef spec2 3) _ = V c (Pipeline.arrRef spec2 3) _
  refine congrArg _ (funext fun a => Fin.ext ?_)
  match a with
  | ⟨0, _⟩ => show win2_3.index t 0 * 1 + 1 * 0 = 0; rw [e0]
  | ⟨1, _⟩ => show win2_3.index t 1 * 128 + 1 * q.val = q.val; rw [e1]; omega

/-- Row vector 5's block at any point is the vector. -/
theorem wholeVec2_5 (c : Dev nD) (t : Fin cfg2.N) (q : Fin 128) :
    (iblk2 V c 5 t : Vec Ideal S1x128 .f32) (ix2 0 q)
      = (V c (Pipeline.arrRef spec2 5) : S1x128.Idx → EReal) (ix2 0 q) := by
  obtain ⟨e0, e1⟩ := wholeIdx2_5 t
  unfold iblk2
  rw [View.read_apply]
  show V c (Pipeline.arrRef spec2 5) _ = V c (Pipeline.arrRef spec2 5) _
  refine congrArg _ (funext fun a => Fin.ext ?_)
  match a with
  | ⟨0, _⟩ => show win2_5.index t 0 * 1 + 1 * 0 = 0; rw [e0]
  | ⟨1, _⟩ => show win2_5.index t 1 * 128 + 1 * q.val = q.val; rw [e1]; omega

/-- Row vector 6's block at any point is the vector. -/
theorem wholeVec2_6 (c : Dev nD) (t : Fin cfg2.N) (q : Fin 128) :
    (iblk2 V c 6 t : Vec Ideal S1x128 .f32) (ix2 0 q)
      = (V c (Pipeline.arrRef spec2 6) : S1x128.Idx → EReal) (ix2 0 q) := by
  obtain ⟨e0, e1⟩ := wholeIdx2_6 t
  unfold iblk2
  rw [View.read_apply]
  show V c (Pipeline.arrRef spec2 6) _ = V c (Pipeline.arrRef spec2 6) _
  refine congrArg _ (funext fun a => Fin.ext ?_)
  match a with
  | ⟨0, _⟩ => show win2_6.index t 0 * 1 + 1 * 0 = 0; rw [e0]
  | ⟨1, _⟩ => show win2_6.index t 1 * 128 + 1 * q.val = q.val; rw [e1]; omega

/-- Row vector 7's block at any point is the vector. -/
theorem wholeVec2_7 (c : Dev nD) (t : Fin cfg2.N) (q : Fin 128) :
    (iblk2 V c 7 t : Vec Ideal S1x128 .f32) (ix2 0 q)
      = (V c (Pipeline.arrRef spec2 7) : S1x128.Idx → EReal) (ix2 0 q) := by
  obtain ⟨e0, e1⟩ := wholeIdx2_7 t
  unfold iblk2
  rw [View.read_apply]
  show V c (Pipeline.arrRef spec2 7) _ = V c (Pipeline.arrRef spec2 7) _
  refine congrArg _ (funext fun a => Fin.ext ?_)
  match a with
  | ⟨0, _⟩ => show win2_7.index t 0 * 1 + 1 * 0 = 0; rw [e0]
  | ⟨1, _⟩ => show win2_7.index t 1 * 128 + 1 * q.val = q.val; rw [e1]; omega

/-- Row vector 8's block at any point is the vector. -/
theorem wholeVec2_8 (c : Dev nD) (t : Fin cfg2.N) (q : Fin 128) :
    (iblk2 V c 8 t : Vec Ideal S1x128 .f32) (ix2 0 q)
      = (V c (Pipeline.arrRef spec2 8) : S1x128.Idx → EReal) (ix2 0 q) := by
  obtain ⟨e0, e1⟩ := wholeIdx2_8 t
  unfold iblk2
  rw [View.read_apply]
  show V c (Pipeline.arrRef spec2 8) _ = V c (Pipeline.arrRef spec2 8) _
  refine congrArg _ (funext fun a => Fin.ext ?_)
  match a with
  | ⟨0, _⟩ => show win2_8.index t 0 * 1 + 1 * 0 = 0; rw [e0]
  | ⟨1, _⟩ => show win2_8.index t 1 * 128 + 1 * q.val = q.val; rw [e1]; omega

/-! ## From tiles to the array -/

/-- The layer's function of the arrays as the region finds them. -/
def layerOut2 (c : Dev nD) : S100000x128.Idx → EReal :=
  Cert.Sage.sage Cert.Sage.eps (V c (Pipeline.arrRef spec2 0)) (V c (Pipeline.arrRef spec2 1))
      (V c (Pipeline.arrRef spec2 2)) (V c (Pipeline.arrRef spec2 4))
      (fun j => V c (Pipeline.arrRef spec2 3) (ix2 0 j)) (fun j => V c (Pipeline.arrRef spec2 5) (ix2 0 j))
      (fun j => V c (Pipeline.arrRef spec2 6) (ix2 0 j)) (fun j => V c (Pipeline.arrRef spec2 7) (ix2 0 j))
      (fun j => V c (Pipeline.arrRef spec2 8) (ix2 0 j))

/-- The body's result on the windows' blocks at point t. -/
def tileOut2 (c : Dev nD) (t : Fin cfg2.N) : S5000x128.Idx → EReal :=
  k2_pay1 (k2_pay2 (iblk2 V c 0 t) (iblk2 V c 1 t) (iblk2 V c 2 t) (iblk2 V c 4 t) (iblk2 V c 3 t) (iblk2 V c 5 t) (iblk2 V c 7 t) (iblk2 V c 8 t) (iblk2 V c 6 t)) (k2_pay3 (F := Ideal))

/-- THE BODY ON THE BLOCKS OF POINT t, at entry (p, q) of its tile, is the layer's number at entry (5000·t + p, q)
    of the whole arrays: that number depends on row 5000·t + p of the two input matrices alone, which is row p of
    their tiles at t, and on the weights and vectors, which every point sees whole. -/
theorem tileEntry2 (c : Dev nD) (t : Fin cfg2.N) (p : Fin 5000) (q : Fin 128) (r : Fin 100000)
    (hr : r.val = 5000 * t.val + p.val) : tileOut2 V c t (ix2 p q) = layerOut2 V c (ix2 r q) := by
  unfold tileOut2 layerOut2
  rw [Cert.Sage.sage_apply]
  refine (layerPay2_apply (iblk2 V c 0 t) (iblk2 V c 1 t) (iblk2 V c 2 t) (iblk2 V c 4 t) (iblk2 V c 3 t) (iblk2 V c 5 t) (iblk2 V c 7 t) (iblk2 V c 8 t) (iblk2 V c 6 t) p q).trans ?_
  exact sagePt_congr2 Cert.Sage.eps q
    (funext fun k => rowTile2_0 V c t p k r hr) (funext fun k => rowTile2_1 V c t p k r hr)
    (funext fun k => funext fun l => wholeMat2_2 V c t k l) (funext fun k => funext fun l => wholeMat2_4 V c t k l)
    (funext fun l => wholeVec2_3 V c t l) (funext fun l => wholeVec2_5 V c t l) (funext fun l => wholeVec2_6 V c t l)
    (funext fun l => wholeVec2_7 V c t l) (funext fun l => wholeVec2_8 V c t l)

/-- WHAT POINT t WRITES BACK is tile t of the layer's function of the arrays as the region finds them. -/
theorem flushed2_eq (c : Dev nD) (t : Fin cfg2.N) :
    (dat2 (F := Ideal) V c).flushed 9 t = ((cfg2.win 9).blk t).view.read (Elt Ideal) (layerOut2 V c) := by
  show (cfg2.win 9).cut (grid2.coords t) ((dat2 V c).after 9 t) = _
  rw [after2_9]
  unfold out2_9
  rw [View.canon_unit_zero zero_offsets2]
  simp only [View.ld_unit_zero (S := S5000x128) zero_offsets2, View.ld_unit_zero (S := S128x128) zero_offsets2,
    View.ld_unit_zero (S := S1x128) zero_offsets2]
  funext j
  show tileOut2 V c t ((cfg2.win 9).xinj (grid2.coords t) j) = layerOut2 V c (((cfg2.win 9).blk t).view.emb j)
  have hN : cfg2.N = 20 := N_2
  have ht : t.val < 20 := by have := t.isLt; omega
  have hp : (j 0).val < 5000 := (j 0).isLt
  have hq : (j 1).val < 128 := (j 1).isLt
  obtain ⟨e0, e1⟩ := rowIdx2_9 t
  have hx : (cfg2.win 9).xinj (grid2.coords t) j = ix2 (⟨(j 0).val, hp⟩ : Fin 5000) (⟨(j 1).val, hq⟩ : Fin 128) :=
    funext fun a => Fin.ext (by match a with | ⟨0, _⟩ => rfl | ⟨1, _⟩ => rfl)
  have hy : ((cfg2.win 9).blk t).view.emb j
      = ix2 (⟨5000 * t.val + (j 0).val, by omega⟩ : Fin 100000) (⟨(j 1).val, hq⟩ : Fin 128) :=
    funext fun a => Fin.ext (by
      match a with
      | ⟨0, _⟩ => show win2_9.index t 0 * 5000 + 1 * (j 0).val = 5000 * t.val + (j 0).val; rw [e0]; omega
      | ⟨1, _⟩ => show win2_9.index t 1 * 128 + 1 * (j 1).val = (j 1).val; rw [e1]; omega)
  exact (congrArg (tileOut2 V c t) hx).trans
    ((tileEntry2 V c t ⟨(j 0).val, hp⟩ ⟨(j 1).val, hq⟩ ⟨5000 * t.val + (j 0).val, by omega⟩ rfl).trans
      (congrArg (layerOut2 V c) hy.symm))

/-- An index of the output array is in point t's tile iff each coordinate is in the tile's range on its axis. -/
theorem mem_tile2 (t : Fin cfg2.N) (i : S100000x128.Idx) :
    i ∈ ((cfg2.win 9).blk t).view.set ↔ ∀ a : Fin 2, win2_9.index t a * S5000x128.size a ≤ (i a).val
      ∧ (i a).val < win2_9.index t a * S5000x128.size a + S5000x128.size a := by
  show i ∈ ((View.whole main_v63).slice (win2_9.rect t)).set ↔ _
  rw [View.set_slice_whole, Rect.mem_set_unit]
  exact Iff.rfl

/-- Every entry of the output array is in some point's tile: row r is in the tile of point r / 5000. -/
theorem tiles_cover2 (i : S100000x128.Idx) :
    ∃ t : Fin cfg2.N, (cfg2.win 9).flush t = true ∧ i ∈ ((cfg2.win 9).blk t).view.set := by
  have hN : cfg2.N = 20 := N_2
  have hi0 : (i 0).val < 100000 := (i 0).isLt
  have hi1 : (i 1).val < 128 := (i 1).isLt
  obtain ⟨t, ht⟩ : ∃ t : Fin cfg2.N, t.val = (i 0).val / 5000 := ⟨⟨(i 0).val / 5000, by omega⟩, rfl⟩
  obtain ⟨e0, e1⟩ := rowIdx2_9 t
  refine ⟨t, flush2_9 t, ?_⟩
  rw [mem_tile2]
  intro a
  match a with
  | ⟨0, _⟩ => show win2_9.index t 0 * 5000 ≤ (i 0).val ∧ (i 0).val < win2_9.index t 0 * 5000 + 5000; rw [e0, ht]; omega
  | ⟨1, _⟩ => show win2_9.index t 1 * 128 ≤ (i 1).val ∧ (i 1).val < win2_9.index t 1 * 128 + 128; rw [e1]; omega

/-- THE OUTPUT ARRAY after the region is the layer's function of the arrays the region found. -/
theorem final2 (c : Dev nD) :
    (dat2 (F := Ideal) V c).arrAt 9 cfg2.N
      = Cert.Sage.sage Cert.Sage.eps (V c (Pipeline.arrRef spec2 0)) (V c (Pipeline.arrRef spec2 1))
          (V c (Pipeline.arrRef spec2 2)) (V c (Pipeline.arrRef spec2 4))
          (fun j => V c (Pipeline.arrRef spec2 3) (ix2 0 j)) (fun j => V c (Pipeline.arrRef spec2 5) (ix2 0 j))
          (fun j => V c (Pipeline.arrRef spec2 6) (ix2 0 j)) (fun j => V c (Pipeline.arrRef spec2 7) (ix2 0 j))
          (fun j => V c (Pipeline.arrRef spec2 8) (ix2 0 j)) :=
  (dat2 V c).arrAt_eq_of_cover 9 (layerOut2 V c) (fun t _ => flushed2_eq V c t) tiles_cover2

end Cert.KernelIdeal.RegionValue
end
-- ==== Proof.RegionSage3.lean ====
/-
  The value of layer four of the graph network as the tiled program computes it.

  The program walks 20 grid points; at point t it holds rows 5000·t … 5000·t + 4999 of the averaged-neighbour matrix
  and of the node matrix, the two 128 × 128 weight matrices and the five row vectors (bias, scale, shift, stored mean,
  stored variance) whole, and writes rows 5000·t … 5000·t + 4999 of the output. Entry (p, c) of what it writes is

      max ( g c · ((∑ q, a (p, q) · Wl (q, c)) + (∑ q, x (p, q) · Wr (q, c)) + bl c − μ c) · rsqrt (σ² c + ε) + β c , 0 ),

  a function of row p of the two tiles alone. Row p of a tile at point t is row 5000·t + p of its matrix, so the tile
  the point writes is the same rows of the layer computed on the whole matrices at once; the 20 tiles cover the
  100000 rows, so after the last point the output array is that layer of the arrays the program found. No law of
  arithmetic is used: every sum and product is read where it is written.
-/
import proofs.«125825_j33397665694044_1_alg».proof.Proof.Gen.KernelIdeal.Frame
import proofs.«125825_j33397665694044_1_alg».proof.Proof.LibSageLayer
import proofs.«125825_j33397665694044_1_alg».proof.Proof.LibPlainDot
import Idealize.ShloMosaic.Lib.Pipeline.Value
import Idealize.ShloMosaic.Lib.ValueIdx
import Idealize.ShloMosaic.Lib.ValueLayout

noncomputable section
namespace Cert.KernelIdeal.RegionValue
open Cert.KernelIdeal Cert.KernelIdeal.Gen Idealize.ShloMosaic Idealize.ShloMosaic.TcCoe Idealize.SL.Sem Idealize.ShloMosaic.ValueIdx
open Cert.Layer

variable (V : (c : Dev nD) → (b : Ref sig .tc) → Buf (Elt Ideal) ((c : Thread nD τ).loc b))

/-- The offsets of a whole-buffer access, however they are spelt, are zero on both axes. -/
theorem zero_offsets3 : (![0, 0] : Fin 2 → Nat) = fun _ => 0 := funext fun a => by fin_cases a <;> rfl

/-- The layer's number at a column depends on its nine arguments only through their values. -/
theorem sagePt_congr3 {k d : ℕ} (ε : EReal) {a a' x x' : Fin k → EReal} {Wl Wl' Wr Wr' : Fin k → Fin d → EReal}
    {bl bl' g g' β β' μ μ' σ2 σ2' : Fin d → EReal} (c : Fin d) (ha : a = a') (hx : x = x') (hWl : Wl = Wl') (hWr : Wr = Wr')
    (hbl : bl = bl') (hg : g = g') (hβ : β = β') (hμ : μ = μ') (hσ : σ2 = σ2') :
    Cert.Sage.sagePt ε a x Wl Wr bl g β μ σ2 c = Cert.Sage.sagePt ε a' x' Wl' Wr' bl' g' β' μ' σ2' c := by
  subst ha hx hWl hWr hbl hg hβ hμ hσ; rfl

/-- THE BODY AT AN ENTRY. On a tile of 5000 rows the body computes, at row p and column c, the layer's number
    for row p of the two input tiles: each of the two matrix products into the zero accumulator is the sum over
    the inner index of the products of the entries (the conversion to the narrower format is the identity on
    extended reals), the five row vectors are read at column c whatever the row, the added constant is the
    number the specification calls its small constant and the clamp's constant is zero. The body adds the
    bias after both products, as the specification writes it. -/
theorem layerPay3_apply (a x : Vec Ideal S5000x128 .f32) (wl wr : Vec Ideal S128x128 .f32)
    (bl g μ σ2 β : Vec Ideal S1x128 .f32) (p : Fin 5000) (c : Fin 128) :
    k3_pay1 (k3_pay2 a x wl wr bl g μ σ2 β) (k3_pay3 (F := Ideal)) (ix2 p c)
      = Cert.Sage.sagePt Cert.Sage.eps (rows a p) (rows x p) (mat wl) (mat wr) (fun j => bl (ix2 0 j))
          (fun j => g (ix2 0 j)) (fun j => β (ix2 0 j)) (fun j => μ (ix2 0 j)) (fun j => σ2 (ix2 0 j)) c := by
  unfold k3_pay1 k3_pay2 k3_pay3
  simp only [maximumf_apply, addf_apply, mulf_apply, subf_apply, broadcast_apply, shapeCast_self, broadcastTo_1b_ab_apply,
    Cert.LibPlainDot.matmul_zero_apply dot_S5000x128_S128x128_S5000x128_1_0_0_1_n_n rfl, truncf_apply]
  show max _ (Ideal.ofBits .f32 0x00000000#32) = _
  rw [Ideal.ofBits_zero_f32]
  rfl

/-! ## Where each window's block sits at a grid point

The two input matrices and the output are cut into 20 tiles of 5000 rows, tile t at grid point t; the two weight
matrices and the five row vectors are whole at every point. -/

theorem rowIdx3_0 : ∀ t : Fin cfg3.N, win3_0.index t (0 : Fin 2) = t.val ∧ win3_0.index t (1 : Fin 2) = 0 :=
  (by decide +kernel : ∀ t : Fin grid3.N, _)
theorem rowIdx3_1 : ∀ t : Fin cfg3.N, win3_1.index t (0 : Fin 2) = t.val ∧ win3_1.index t (1 : Fin 2) = 0 :=
  (by decide +kernel : ∀ t : Fin grid3.N, _)
theorem rowIdx3_9 : ∀ t : Fin cfg3.N, win3_9.index t (0 : Fin 2) = t.val ∧ win3_9.index t (1 : Fin 2) = 0 :=
  (by decide +kernel : ∀ t : Fin grid3.N, _)
theorem wholeIdx3_2 : ∀ t : Fin cfg3.N, win3_2.index t (0 : Fin 2) = 0 ∧ win3_2.index t (1 : Fin 2) = 0 :=
  (by decide +kernel : ∀ t : Fin grid3.N, _)
theorem wholeIdx3_3 : ∀ t : Fin cfg3.N, win3_3.index t (0 : Fin 2) = 0 ∧ win3_3.index t (1 : Fin 2) = 0 :=
  (by decide +kernel : ∀ t : Fin grid3.N, _)
theorem wholeIdx3_4 : ∀ t : Fin cfg3.N, win3_4.index t (0 : Fin 2) = 0 ∧ win3_4.index t (1 : Fin 2) = 0 :=
  (by decide +kernel : ∀ t : Fin grid3.N, _)
theorem wholeIdx3_5 : ∀ t : Fin cfg3.N, win3_5.index t (0 : Fin 2) = 0 ∧ win3_5.index t (1 : Fin 2) = 0 :=
  (by decide +kernel : ∀ t : Fin grid3.N, _)
theorem wholeIdx3_6 : ∀ t : Fin cfg3.N, win3_6.index t (0 : Fin 2) = 0 ∧ win3_6.index t (1 : Fin 2) = 0 :=
  (by decide +kernel : ∀ t : Fin grid3.N, _)
theorem wholeIdx3_7 : ∀ t : Fin cfg3.N, win3_7.index t (0 : Fin 2) = 0 ∧ win3_7.index t (1 : Fin 2) = 0 :=
  (by decide +kernel : ∀ t : Fin grid3.N, _)
theorem wholeIdx3_8 : ∀ t : Fin cfg3.N, win3_8.index t (0 : Fin 2) = 0 ∧ win3_8.index t (1 : Fin 2) = 0 :=
  (by decide +kernel : ∀ t : Fin grid3.N, _)

/-- Entry (p, q) of input 0's tile at point t is entry (5000·t + p, q) of the array. -/
theorem rowTile3_0 (c : Dev nD) (t : Fin cfg3.N) (p : Fin 5000) (q : Fin 128) (r : Fin 100000)
    (hr : r.val = 5000 * t.val + p.val) :
    (iblk3 V c 0 t : Vec Ideal S5000x128 .f32) (ix2 p q)
      = (V c (Pipeline.arrRef spec3 0) : S100000x128.Idx → EReal) (ix2 r q) := by
  obtain ⟨e0, e1⟩ := rowIdx3_0 t
  unfold iblk3
  rw [View.read_apply]
  show V c (Pipeline.arrRef spec3 0) _ = V c (Pipeline.arrRef spec3 0) _
  refine congrArg _ (funext fun a => Fin.ext ?_)
  match a with
  | ⟨0, _⟩ => show win3_0.index t 0 * 5000 + 1 * p.val = r.val; rw [e0, hr]; omega
  | ⟨1, _⟩ => show win3_0.index t 1 * 128 + 1 * q.val = q.val; rw [e1]; omega

/-- Entry (p, q) of input 1's tile at point t is entry (5000·t + p, q) of the array. -/
theorem rowTile3_1 (c : Dev nD) (t : Fin cfg3.N) (p : Fin 5000) (q : Fin 128) (r : Fin 100000)
    (hr : r.val = 5000 * t.val + p.val) :
    (iblk3 V c 1 t : Vec Ideal S5000x128 .f32) (ix2 p q)
      = (V c (Pipeline.arrRef spec3 1) : S100000x128.Idx → EReal) (ix2 r q) := by
  obtain ⟨e0, e1⟩ := rowIdx3_1 t
  unfold iblk3
  rw [View.read_apply]
  show V c (Pipeline.arrRef spec3 1) _ = V c (Pipeline.arrRef spec3 1) _
  refine congrArg _ (funext fun a => Fin.ext ?_)
  match a with
  | ⟨0, _⟩ => show win3_1.index t 0 * 5000 + 1 * p.val = r.val; rw [e0, hr]; omega
  | ⟨1, _⟩ => show win3_1.index t 1 * 128 + 1 * q.val = q.val; rw [e1]; omega

/-- Weight matrix 2's block at any point is the matrix. -/
theorem wholeMat3_2 (c : Dev nD) (t : Fin cfg3.N) (p : Fin 128) (q : Fin 128) :
    (iblk3 V c 2 t : Vec Ideal S128x128 .f32) (ix2 p q)
      = (V c (Pipeline.arrRef spec3 2) : S128x128.Idx → EReal) (ix2 p q) := by
  obtain ⟨e0, e1⟩ := wholeIdx3_2 t
  unfold iblk3
  rw [View.read_apply]
  show V c (Pipeline.arrRef spec3 2) _ = V c (Pipeline.arrRef spec3 2) _
  refine congrArg _ (funext fun a => Fin.ext ?_)
  match a with
  | ⟨0, _⟩ => show win3_2.index t 0 * 128 + 1 * p.val = p.val; rw [e0]; omega
  | ⟨1, _⟩ => show win3_2.index t 1 * 128 + 1 * q.val = q.val; rw [e1]; omega

/-- Weight matrix 4's block at any point is the matrix. -/
theorem wholeMat3_4 (c : Dev nD) (t : Fin cfg3.N) (p : Fin 128) (q : Fin 128) :
    (iblk3 V c 4 t : Vec Ideal S128x128 .f32) (ix2 p q)
      = (V c (Pipeline.arrRef spec3 4) : S128x128.Idx → EReal) (ix2 p q) := by
  obtain ⟨e0, e1⟩ := wholeIdx3_4 t
  unfold iblk3
  rw [View.read_apply]
  show V c (Pipeline.arrRef spec3 4) _ = V c (Pipeline.arrRef spec3 4) _
  refine congrArg _ (funext fun a => Fin.ext ?_)
  match a with
  | ⟨0, _⟩ => show win3_4.index t 0 * 128 + 1 * p.val = p.val; rw [e0]; omega
  | ⟨1, _⟩ => show win3_4.index t 1 * 128 + 1 * q.val = q.val; rw [e1]; omega

/-- Row vector 3's block at any point is the vector. -/
theorem wholeVec3_3 (c : Dev nD) (t : Fin cfg3.N) (q : Fin 128) :
    (iblk3 V c 3 t : Vec Ideal S1x128 .f32) (ix2 0 q)
      = (V c (Pipeline.arrRef spec3 3) : S1x128.Idx → EReal) (ix2 0 q) := by
  obtain ⟨e0, e1⟩ := wholeIdx3_3 t
  unfold iblk3
  rw [View.read_apply]
  show V c (Pipeline.arrRef spec3 3) _ = V c (Pipeline.arrRef spec3 3) _
  refine congrArg _ (funext fun a => Fin.ext ?_)
  match a with
  | ⟨0, _⟩ => show win3_3.index t 0 * 1 + 1 * 0 = 0; rw [e0]
  | ⟨1, _⟩ => show win3_3.index t 1 * 128 + 1 * q.val = q.val; rw [e1]; omega

/-- Row vector 5's block at any point is the vector. -/
theorem wholeVec3_5 (c : Dev nD) (t : Fin cfg3.N) (q : Fin 128) :
    (iblk3 V c 5 t : Vec Ideal S1x128 .f32) (ix2 0 q)
      = (V c (Pipeline.arrRef spec3 5) : S1x128.Idx → EReal) (ix2 0 q) := by
  obtain ⟨e0, e1⟩ := wholeIdx3_5 t
  unfold iblk3
  rw [View.read_apply]
  show V c (Pipeline.arrRef spec3 5) _ = V c (Pipeline.arrRef spec3 5) _
  refine congrArg _ (funext fun a => Fin.ext ?_)
  match a with
  | ⟨0, _⟩ => show win3_5.index t 0 * 1 + 1 * 0 = 0; rw [e0]
  | ⟨1, _⟩ => show win3_5.index t 1 * 128 + 1 * q.val = q.val; rw [e1]; omega

/-- Row vector 6's block at any point is the vector. -/
theorem wholeVec3_6 (c : Dev nD) (t : Fin cfg3.N) (q : Fin 128) :
    (iblk3 V c 6 t : Vec Ideal S1x128 .f32) (ix2 0 q)
      = (V c (Pipeline.arrRef spec3 6) : S1x128.Idx → EReal) (ix2 0 q) := by
  obtain ⟨e0, e1⟩ := wholeIdx3_6 t
  unfold iblk3
  rw [View.read_apply]
  show V c (Pipeline.arrRef spec3 6) _ = V c (Pipeline.arrRef spec3 6) _
  refine congrArg _ (funext fun a => Fin.ext ?_)
  match a with
  | ⟨0, _⟩ => show win3_6.index t 0 * 1 + 1 * 0 = 0; rw [e0]
  | ⟨1, _⟩ => show win3_6.index t 1 * 128 + 1 * q.val = q.val; rw [e1]; omega

/-- Row vector 7's block at any point is the vector. -/
theorem wholeVec3_7 (c : Dev nD) (t : Fin cfg3.N) (q : Fin 128) :
    (iblk3 V c 7 t : Vec Ideal S1x128 .f32) (ix2 0 q)
      = (V c (Pipeline.arrRef spec3 7) : S1x128.Idx → EReal) (ix2 0 q) := by
  obtain ⟨e0, e1⟩ := wholeIdx3_7 t
  unfold iblk3
  rw [View.read_apply]
  show V c (Pipeline.arrRef spec3 7) _ = V c (Pipeline.arrRef spec3 7) _
  refine congrArg _ (funext fun a => Fin.ext ?_)
  match a with
  | ⟨0, _⟩ => show win3_7.index t 0 * 1 + 1 * 0 = 0; rw [e0]
  | ⟨1, _⟩ => show win3_7.index t 1 * 128 + 1 * q.val = q.val; rw [e1]; omega

/-- Row vector 8's block at any point is the vector. -/
theorem wholeVec3_8 (c : Dev nD) (t : Fin cfg3.N) (q : Fin 128) :
    (iblk3 V c 8 t : Vec Ideal S1x128 .f32) (ix2 0 q)
      = (V c (Pipeline.arrRef spec3 8) : S1x128.Idx → EReal) (ix2 0 q) := by
  obtain ⟨e0, e1⟩ := wholeIdx3_8 t
  unfold iblk3
  rw [View.read_apply]
  show V c (Pipeline.arrRef spec3 8) _ = V c (Pipeline.arrRef spec3 8) _
  refine congrArg _ (funext fun a => Fin.ext ?_)
  match a with
  | ⟨0, _⟩ => show win3_8.index t 0 * 1 + 1 * 0 = 0; rw [e0]
  | ⟨1, _⟩ => show win3_8.index t 1 * 128 + 1 * q.val = q.val; rw [e1]; omega

/-! ## From tiles to the array -/

/-- The layer's function of the arrays as the region finds them. -/
def layerOut3 (c : Dev nD) : S100000x128.Idx → EReal :=
  Cert.Sage.sage Cert.Sage.eps (V c (Pipeline.arrRef spec3 0)) (V c (Pipeline.arrRef spec3 1))
      (V c (Pipeline.arrRef spec3 2)) (V c (Pipeline.arrRef spec3 4))
      (fun j => V c (Pipeline.arrRef spec3 3) (ix2 0 j)) (fun j => V c (Pipeline.arrRef spec3 5) (ix2 0 j))
      (fun j => V c (Pipeline.arrRef spec3 6) (ix2 0 j)) (fun j => V c (Pipeline.arrRef spec3 7) (ix2 0 j))
      (fun j => V c (Pipeline.arrRef spec3 8) (ix2 0 j))

/-- The body's result on the windows' blocks at point t. -/
def tileOut3 (c : Dev nD) (t : Fin cfg3.N) : S5000x128.Idx → EReal :=
  k3_pay1 (k3_pay2 (iblk3 V c 0 t) (iblk3 V c 1 t) (iblk3 V c 2 t) (iblk3 V c 4 t) (iblk3 V c 3 t) (iblk3 V c 5 t) (iblk3 V c 7 t) (iblk3 V c 8 t) (iblk3 V c 6 t)) (k3_pay3 (F := Ideal))

/-- THE BODY ON THE BLOCKS OF POINT t, at entry (p, q) of its tile, is the layer's number at entry (5000·t + p, q)
    of the whole arrays: that number depends on row 5000·t + p of the two input matrices alone, which is row p of
    their tiles at t, and on the weights and vectors, which every point sees whole. -/
theorem tileEntry3 (c : Dev nD) (t : Fin cfg3.N) (p : Fin 5000) (q : Fin 128) (r : Fin 100000)
    (hr : r.val = 5000 * t.val + p.val) : tileOut3 V c t (ix2 p q) = layerOut3 V c (ix2 r q) := by
  unfold tileOut3 layerOut3
  rw [Cert.Sage.sage_apply]
  refine (layerPay3_apply (iblk3 V c 0 t) (iblk3 V c 1 t) (iblk3 V c 2 t) (iblk3 V c 4 t) (iblk3 V c 3 t) (iblk3 V c 5 t) (iblk3 V c 7 t) (iblk3 V c 8 t) (iblk3 V c 6 t) p q).trans ?_
  exact sagePt_congr3 Cert.Sage.eps q
    (funext fun k => rowTile3_0 V c t p k r hr) (funext fun k => rowTile3_1 V c t p k r hr)
    (funext fun k => funext fun l => wholeMat3_2 V c t k l) (funext fun k => funext fun l => wholeMat3_4 V c t k l)
    (funext fun l => wholeVec3_3 V c t l) (funext fun l => wholeVec3_5 V c t l) (funext fun l => wholeVec3_6 V c t l)
    (funext fun l => wholeVec3_7 V c t l) (funext fun l => wholeVec3_8 V c t l)

/-- WHAT POINT t WRITES BACK is tile t of the layer's function of the arrays as the region finds them. -/
theorem flushed3_eq (c : Dev nD) (t : Fin cfg3.N) :
    (dat3 (F := Ideal) V c).flushed 9 t = ((cfg3.win 9).blk t).view.read (Elt Ideal) (layerOut3 V c) := by
  show (cfg3.win 9).cut (grid3.coords t) ((dat3 V c).after 9 t) = _
  rw [after3_9]
  unfold out3_9
  rw [View.canon_unit_zero zero_offsets3]
  simp only [View.ld_unit_zero (S := S5000x128) zero_offsets3, View.ld_unit_zero (S := S128x128) zero_offsets3,
    View.ld_unit_zero (S := S1x128) zero_offsets3]
  funext j
  show tileOut3 V c t ((cfg3.win 9).xinj (grid3.coords t) j) = layerOut3 V c (((cfg3.win 9).blk t).view.emb j)
  have hN : cfg3.N = 20 := N_3
  have ht : t.val < 20 := by have := t.isLt; omega
  have hp : (j 0).val < 5000 := (j 0).isLt
  have hq : (j 1).val < 128 := (j 1).isLt
  obtain ⟨e0, e1⟩ := rowIdx3_9 t
  have hx : (cfg3.win 9).xinj (grid3.coords t) j = ix2 (⟨(j 0).val, hp⟩ : Fin 5000) (⟨(j 1).val, hq⟩ : Fin 128) :=
    funext fun a => Fin.ext (by match a with | ⟨0, _⟩ => rfl | ⟨1, _⟩ => rfl)
  have hy : ((cfg3.win 9).blk t).view.emb j
      = ix2 (⟨5000 * t.val + (j 0).val, by omega⟩ : Fin 100000) (⟨(j 1).val, hq⟩ : Fin 128) :=
    funext fun a => Fin.ext (by
      match a with
      | ⟨0, _⟩ => show win3_9.index t 0 * 5000 + 1 * (j 0).val = 5000 * t.val + (j 0).val; rw [e0]; omega
      | ⟨1, _⟩ => show win3_9.index t 1 * 128 + 1 * (j 1).val = (j 1).val; rw [e1]; omega)
  exact (congrArg (tileOut3 V c t) hx).trans
    ((tileEntry3 V c t ⟨(j 0).val, hp⟩ ⟨(j 1).val, hq⟩ ⟨5000 * t.val + (j 0).val, by omega⟩ rfl).trans
      (congrArg (layerOut3 V c) hy.symm))

/-- An index of the output array is in point t's tile iff each coordinate is in the tile's range on its axis. -/
theorem mem_tile3 (t : Fin cfg3.N) (i : S100000x128.Idx) :
    i ∈ ((cfg3.win 9).blk t).view.set ↔ ∀ a : Fin 2, win3_9.index t a * S5000x128.size a ≤ (i a).val
      ∧ (i a).val < win3_9.index t a * S5000x128.size a + S5000x128.size a := by
  show i ∈ ((View.whole main_v81).slice (win3_9.rect t)).set ↔ _
  rw [View.set_slice_whole, Rect.mem_set_unit]
  exact Iff.rfl

/-- Every entry of the output array is in some point's tile: row r is in the tile of point r / 5000. -/
theorem tiles_cover3 (i : S100000x128.Idx) :
    ∃ t : Fin cfg3.N, (cfg3.win 9).flush t = true ∧ i ∈ ((cfg3.win 9).blk t).view.set := by
  have hN : cfg3.N = 20 := N_3
  have hi0 : (i 0).val < 100000 := (i 0).isLt
  have hi1 : (i 1).val < 128 := (i 1).isLt
  obtain ⟨t, ht⟩ : ∃ t : Fin cfg3.N, t.val = (i 0).val / 5000 := ⟨⟨(i 0).val / 5000, by omega⟩, rfl⟩
  obtain ⟨e0, e1⟩ := rowIdx3_9 t
  refine ⟨t, flush3_9 t, ?_⟩
  rw [mem_tile3]
  intro a
  match a with
  | ⟨0, _⟩ => show win3_9.index t 0 * 5000 ≤ (i 0).val ∧ (i 0).val < win3_9.index t 0 * 5000 + 5000; rw [e0, ht]; omega
  | ⟨1, _⟩ => show win3_9.index t 1 * 128 ≤ (i 1).val ∧ (i 1).val < win3_9.index t 1 * 128 + 128; rw [e1]; omega

/-- THE OUTPUT ARRAY after the region is the layer's function of the arrays the region found. -/
theorem final3 (c : Dev nD) :
    (dat3 (F := Ideal) V c).arrAt 9 cfg3.N
      = Cert.Sage.sage Cert.Sage.eps (V c (Pipeline.arrRef spec3 0)) (V c (Pipeline.arrRef spec3 1))
          (V c (Pipeline.arrRef spec3 2)) (V c (Pipeline.arrRef spec3 4))
          (fun j => V c (Pipeline.arrRef spec3 3) (ix2 0 j)) (fun j => V c (Pipeline.arrRef spec3 5) (ix2 0 j))
          (fun j => V c (Pipeline.arrRef spec3 6) (ix2 0 j)) (fun j => V c (Pipeline.arrRef spec3 7) (ix2 0 j))
          (fun j => V c (Pipeline.arrRef spec3 8) (ix2 0 j)) :=
  (dat3 V c).arrAt_eq_of_cover 9 (layerOut3 V c) (fun t _ => flushed3_eq V c t) tiles_cover3

end Cert.KernelIdeal.RegionValue
end
-- ==== Proof.RegionHead.lean ====
/-
  The value of the perceptron head's region: the array its write-backs leave is the head of the arrays the
  region finds, entry by entry.

  The body computes, on a tile of 5000 rows, ((max (x·W₁ + b₁, 0))·W₂ + b₂)·W₃ + b₃, each product a matrix-unit
  product into the zero accumulator of operands rounded to a narrower format — the identity over the extended
  reals — and each bias one row broadcast over the tile's rows. Read at entry (p, c) each layer is the sum over
  q of the row's q-th number times W (q, c), plus b c: three dense layers of ONE row, which is what the head is on
  that row. The 20 grid points take the 20 consecutive tiles of 5000 rows of the input and write the same tiles
  of the output; the three weight matrices and the three bias rows are whole arrays at every point. Row r of
  the output is in the tile of point r / 5000, so the tiles cover the array and the array ends holding the head
  of the inputs at every index.
-/
import proofs.«125825_j33397665694044_1_alg».proof.Proof.Gen.KernelIdeal.Frame
import proofs.«125825_j33397665694044_1_alg».proof.Proof.LibSageLayer
import proofs.«125825_j33397665694044_1_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

namespace Head

/-! ## The body at an entry -/

/-- One dense layer on a tile at entry (p, c): the product into the zero accumulator is the sum over q of the row's q-th number
    times the weight (q, c) (rounding the operands is the identity over the extended reals), and the broadcast bias row
    reads its c-th number. -/
theorem denseAt (lhs : FVec Ideal S5000x128 .f32) (w : Vec Ideal S128x128 .f32) (b : Vec Ideal S1x128 .f32)
    (p : Fin 5000) (c : Fin 128) :
    addf (matmul dot_S5000x128_S128x128_S5000x128_1_0_0_1_n_n none (truncf .bf16 lhs bitsLt_bf16_f32)
        (truncf .bf16 (w : FVec Ideal S128x128 .f32) bitsLt_bf16_f32) (constant (F := Ideal) S5000x128 .f32 0x00000000#32))
      (broadcastTo S5000x128 (shapeCast S1x128 (b : FVec Ideal S1x128 .f32) shapeCasts_S1x128_S1x128) broadcasts_S1x128_S5000x128) (ix2 p c)
      = Cert.Layer.lin (fun q => lhs (ix2 p q)) (Cert.Layer.mat w) (fun j => b (ix2 0 j)) c := by
  unfold Cert.Layer.lin
  refine congrArg₂ (· + ·) ?_ ?_
  · exact Cert.LibPlainDot.matmul_zero_apply dot_S5000x128_S128x128_S5000x128_1_0_0_1_n_n rfl none _ _ p c
  · rw [shapeCast_self]
    exact broadcastTo_1b_ab_apply _ _ p c

/-- The body's value at entry (p, c) of a tile: the head on row p of the tile — the third layer of the second layer of the
    first layer clamped at zero (the zero word denotes 0). -/
theorem headPay (x : Vec Ideal S5000x128 .f32) (w1 : Vec Ideal S128x128 .f32) (b1 : Vec Ideal S1x128 .f32)
    (w2 : Vec Ideal S128x128 .f32) (b2 : Vec Ideal S1x128 .f32) (w3 : Vec Ideal S128x128 .f32) (b3 : Vec Ideal S1x128 .f32)
    (p : Fin 5000) (c : Fin 128) :
    k4_pay1 x w1 b1 w2 b2 w3 b3 (ix2 p c)
      = Cert.Sage.headPt (Cert.Layer.rows x p) (Cert.Layer.mat w1) (fun j => b1 (ix2 0 j)) (Cert.Layer.mat w2) (fun j => b2 (ix2 0 j))
          (Cert.Layer.mat w3) (fun j => b3 (ix2 0 j)) c := by
  unfold k4_pay1 Cert.Sage.headPt
  refine (denseAt _ w3 b3 p c).trans ?_
  refine congrArg (fun f => Cert.Layer.lin f (Cert.Layer.mat w3) (fun j => b3 (ix2 0 j)) c) (funext fun q => ?_)
  refine (denseAt _ w2 b2 p q).trans ?_
  refine congrArg (fun f => Cert.Layer.lin f (Cert.Layer.mat w2) (fun j => b2 (ix2 0 j)) q) (funext fun r => ?_)
  refine congrArg₂ max ?_ Ideal.ofBits_zero_f32
  rw [shapeCast_self]
  exact denseAt _ w1 b1 p r

variable (V : (c : Dev nD) → (b : Ref sig .tc) → Buf (Elt Ideal) ((c : Thread nD τ).loc b))

/-! ## The blocks -/

/-- The zero offsets, however spelt. -/
theorem hz : (![0, 0] : Fin 2 → Nat) = fun _ => 0 := funext fun a => by fin_cases a <;> rfl

/-- The printed index maps over the 20 grid points: the input's and the output's row tiles are tile t at point t, on all
    128 columns; the weight matrices and bias rows are block (0, 0) at every point. -/
theorem headIdx : ∀ t : Fin cfg4.N,
    win4_0.index t (0 : Fin 2) = t.val ∧ win4_0.index t (1 : Fin 2) = 0
    ∧ win4_7.index t (0 : Fin 2) = t.val ∧ win4_7.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- A grid point is below 20. -/
theorem point_lt (t : Fin cfg4.N) : t.val < 20 := lt_of_lt_of_eq t.isLt N_4

/-- Row p of the input's tile at point t is row 5000·t + p of the input array. -/
theorem xTile (c : Dev nD) (t : Fin cfg4.N) (p : Fin 5000) (q : Fin 128) (r : Fin 100000) (hr : r.val = t.val * 5000 + p.val) :
    (iblk4 V c 0 t : Vec Ideal S5000x128 .f32) (ix2 p q) = (V c (Pipeline.arrRef spec4 0) : S100000x128.Idx → EReal) (ix2 r q) := by
  obtain ⟨e0, e1, -⟩ := headIdx t
  unfold iblk4
  rw [View.read_apply]
  refine congrArg (V c (Pipeline.arrRef spec4 0)) ?_
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * q.val = q.val; rw [e1]; omega

/-- Entry (p, q) of the output's tile at point t sits at (5000·t + p, q) of the output array. -/
theorem outEmb (t : Fin cfg4.N) (p : Fin 5000) (q : Fin 128) (r : Fin 100000) (hr : r.val = t.val * 5000 + p.val) :
    ((cfg4.win 7).blk t).view.emb (ix2 p q) = (ix2 r q : S100000x128.Idx) := by
  obtain ⟨-, -, e0, e1, -⟩ := headIdx t
  funext a
  apply Fin.ext
  match a with
  | ⟨0, _⟩ => show win4_7.index t (0 : Fin 2) * 5000 + 1 * p.val = r.val; rw [e0, hr]; omega
  | ⟨1, _⟩ => show win4_7.index t (1 : Fin 2) * 128 + 1 * q.val = q.val; rw [e1]; omega

/-- A whole-array window's block is its array, at every point: the first weight matrix, -/
theorem wBlk1 (c : Dev nD) (t : Fin cfg4.N) : (iblk4 V c 1 t : Vec Ideal S128x128 .f32) = V c (Pipeline.arrRef spec4 1) := by
  obtain ⟨-, -, -, -, e0, e1, -⟩ := headIdx t
  funext y
  unfold iblk4
  rw [View.read_apply]
  refine congrArg (V c (Pipeline.arrRef spec4 1)) ?_
  funext a
  apply Fin.ext
  match a with
  | ⟨0, _⟩ => show win4_1.index t (0 : Fin 2) * 128 + 1 * (y 0).val = (y 0).val; rw [e0]; omega
  | ⟨1, _⟩ => show win4_1.index t (1 : Fin 2) * 128 + 1 * (y 1).val = (y 1).val; rw [e1]; omega

/-- the first bias row, -/
theorem wBlk2 (c : Dev nD) (t : Fin cfg4.N) : (iblk4 V c 2 t : Vec Ideal S1x128 .f32) = V c (Pipeline.arrRef spec4 2) := by
  obtain ⟨-, -, -, -, -, -, e0, e1, -⟩ := headIdx t
  funext y
  unfold iblk4
  rw [View.read_apply]
  refine congrArg (V c (Pipeline.arrRef spec4 2)) ?_
  funext a
  apply Fin.ext
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- the second weight matrix, -/
theorem wBlk3 (c : Dev nD) (t : Fin cfg4.N) : (iblk4 V c 3 t : Vec Ideal S128x128 .f32) = V c (Pipeline.arrRef spec4 3) := by
  obtain ⟨-, -, -, -, -, -, -, -, e0, e1, -⟩ := headIdx t
  funext y
  unfold iblk4
  rw [View.read_apply]
  refine congrArg (V c (Pipeline.arrRef spec4 3)) ?_
  funext a
  apply Fin.ext
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- the second bias row, -/
theorem wBlk4 (c : Dev nD) (t : Fin cfg4.N) : (iblk4 V c 4 t : Vec Ideal S1x128 .f32) = V c (Pipeline.arrRef spec4 4) := by
  obtain ⟨-, -, -, -, -, -, -, -, -, -, e0, e1, -⟩ := headIdx t
  funext y
  unfold iblk4
  rw [View.read_apply]
  refine congrArg (V c (Pipeline.arrRef spec4 4)) ?_
  funext a
  apply Fin.ext
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- the third weight matrix, -/
theorem wBlk5 (c : Dev nD) (t : Fin cfg4.N) : (iblk4 V c 5 t : Vec Ideal S128x128 .f32) = V c (Pipeline.arrRef spec4 5) := by
  obtain ⟨-, -, -, -, -, -, -, -, -, -, -, -, e0, e1, -⟩ := headIdx t
  funext y
  unfold iblk4
  rw [View.read_apply]
  refine congrArg (V c (Pipeline.arrRef spec4 5)) ?_
  funext a
  apply Fin.ext
  match a with
  | ⟨0, _⟩ => show win4_5.index t (0 : Fin 2) * 128 + 1 * (y 0).val = (y 0).val; rw [e0]; omega
  | ⟨1, _⟩ => show win4_5.index t (1 : Fin 2) * 128 + 1 * (y 1).val = (y 1).val; rw [e1]; omega

/-- the third bias row. -/
theorem wBlk6 (c : Dev nD) (t : Fin cfg4.N) : (iblk4 V c 6 t : Vec Ideal S1x128 .f32) = V c (Pipeline.arrRef spec4 6) := by
  obtain ⟨-, -, -, -, -, -, -, -, -, -, -, -, -, -, e0, e1⟩ := headIdx t
  funext y
  unfold iblk4
  rw [View.read_apply]
  refine congrArg (V c (Pipeline.arrRef spec4 6)) ?_
  funext a
  apply Fin.ext
  match a with
  | ⟨0, _⟩ => show win4_6.index t (0 : Fin 2) * 1 + 1 * (y 0).val = (y 0).val; rw [e0]; omega
  | ⟨1, _⟩ => show win4_6.index t (1 : Fin 2) * 128 + 1 * (y 1).val = (y 1).val; rw [e1]; omega

/-- The head of the arrays the region finds, as one function of the output array's index. -/
abbrev headOf (c : Dev nD) : S100000x128.Idx → EReal :=
  Cert.Sage.head (V c (Pipeline.arrRef spec4 0)) (V c (Pipeline.arrRef spec4 1)) (fun j => V c (Pipeline.arrRef spec4 2) (ix2 0 j))
    (V c (Pipeline.arrRef spec4 3)) (fun j => V c (Pipeline.arrRef spec4 4) (ix2 0 j))
    (V c (Pipeline.arrRef spec4 5)) (fun j => V c (Pipeline.arrRef spec4 6) (ix2 0 j))

/-! ## From the tiles to the array -/

/-- What point t writes back is tile t of the head of the arrays the region finds: at entry (p, q) of the tile the body's
    value is the head on row p of the input's tile, which is row 5000·t + p of the input array, with the weights and
    biases the whole arrays. -/
theorem flushedHead (c : Dev nD) (t : Fin cfg4.N) :
    (dat4 (F := Ideal) V c).flushed 7 t = ((cfg4.win 7).blk t).view.read (Elt Ideal) (headOf V c) := by
  show (cfg4.win 7).cut (grid4.coords t) ((dat4 V c).after 7 t) = _
  rw [after4_7]
  unfold out4_7
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hr : t.val * 5000 + p.val < 100000 := by have := point_lt t; omega
  show k4_pay1 (iblk4 V c 0 t) (iblk4 V c 1 t) (iblk4 V c 2 t) (iblk4 V c 3 t) (iblk4 V c 4 t) (iblk4 V c 5 t) (iblk4 V c 6 t) (ix2 p q)
    = headOf V c (((cfg4.win 7).blk t).view.emb (ix2 p q))
  rw [outEmb t p q ⟨t.val * 5000 + p.val, hr⟩ rfl, wBlk1, wBlk2, wBlk3, wBlk4, wBlk5, wBlk6]
  refine (headPay _ _ _ _ _ _ _ p q).trans ?_
  refine Eq.trans ?_ (Cert.Sage.head_apply _ _ _ _ _ _ _ ⟨t.val * 5000 + p.val, hr⟩ q).symm
  refine congrArg (fun x => Cert.Sage.headPt x _ _ _ _ _ _ q) ?_
  funext s
  exact xTile V c t p s ⟨t.val * 5000 + p.val, hr⟩ rfl

/-- An index of the array is in point `t`'s block iff each coordinate is in the block's range on its axis. -/
theorem memBlk (t : Fin cfg4.N) (i : S100000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole main_v85).slice (win4_7.rect t)).set ↔ _
  rw [View.set_slice_whole, Rect.mem_set_unit]
  exact Iff.rfl

/-- Row `r` of the array lies in the block of point `r / 5000`. -/
theorem coverHead (i : S100000x128.Idx) :
    ∃ t : Fin cfg4.N, (cfg4.win 7).flush t = true ∧ i ∈ ((cfg4.win 7).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨-, -, e0, e1, -⟩ := headIdx ⟨(i 0).val / 5000, ht⟩
  have q0 : win4_7.index ⟨(i 0).val / 5000, ht⟩ (0 : Fin 2) = (i 0).val / 5000 := e0
  refine ⟨⟨(i 0).val / 5000, ht⟩, flush4_7 _, ?_⟩
  rw [memBlk]
  intro a
  match a with
  | ⟨0, _⟩ => show win4_7.index ⟨(i 0).val / 5000, ht⟩ (0 : Fin 2) * 5000 ≤ (i 0).val ∧ (i 0).val < win4_7.index ⟨(i 0).val / 5000, ht⟩ (0 : Fin 2) * 5000 + 5000; rw [q0]; omega
  | ⟨1, _⟩ => show win4_7.index ⟨(i 0).val / 5000, ht⟩ (1 : Fin 2) * 128 ≤ (i 1).val ∧ (i 1).val < win4_7.index ⟨(i 0).val / 5000, ht⟩ (1 : Fin 2) * 128 + 128; rw [e1]; omega

end Head

variable (V : (c : Dev nD) → (b : Ref sig .tc) → Buf (Elt Ideal) ((c : Thread nD τ).loc b))

/-- The head kernel's output array after its region: the head of the arrays the region finds. -/
theorem final4 (c : Dev nD) :
    (dat4 (F := Ideal) V c).arrAt 7 cfg4.N
      = Cert.Sage.head (V c (Pipeline.arrRef spec4 0)) (V c (Pipeline.arrRef spec4 1)) (fun j => V c (Pipeline.arrRef spec4 2) (ix2 0 j))
          (V c (Pipeline.arrRef spec4 3)) (fun j => V c (Pipeline.arrRef spec4 4) (ix2 0 j))
          (V c (Pipeline.arrRef spec4 5)) (fun j => V c (Pipeline.arrRef spec4 6) (ix2 0 j)) :=
  (dat4 (F := Ideal) V c).arrAt_eq_of_cover 7 (Head.headOf V c) (fun t _ => Head.flushedHead V c t) Head.coverHead

end Cert.KernelIdeal.RegionValue

end
-- ==== Proof.KernelValue.lean ====
/-
  The idealized kernel program's result as the network function of its arguments.

  The run's buffer contents are followed through the program's ten segments.  A stretch of host operations is read
  operation by operation: the edge list's rows and the node degrees are computed once, in the first stretch, and every
  later stretch reads them where they were left; each stretch ends with the neighbour average of the previous layer's
  output and with the layer's five parameter vectors laid out as single rows.  A launch leaves its output array at the
  layer map of its input arrays (the region value theorems) and every other buffer alone.  An argument array is never
  written, so wherever it is read it holds what it was launched with.  Composing the ten steps, the result buffer ends
  at the network function of the launch contents.
-/
import proofs.«125825_j33397665694044_1_alg».proof.Proof.KernelRun
import proofs.«125825_j33397665694044_1_alg».proof.Proof.Net
import proofs.«125825_j33397665694044_1_alg».proof.Proof.LibHostKeeps
import proofs.«125825_j33397665694044_1_alg».proof.Proof.RegionSage0
import proofs.«125825_j33397665694044_1_alg».proof.Proof.RegionSage1
import proofs.«125825_j33397665694044_1_alg».proof.Proof.RegionSage2
import proofs.«125825_j33397665694044_1_alg».proof.Proof.RegionSage3
import proofs.«125825_j33397665694044_1_alg».proof.Proof.RegionHead
import Idealize.ShloMosaic.Lib.StableHlo.Run
import Idealize.ShloMosaic.Lib.ValueLayout

set_option maxRecDepth 16384

noncomputable section

namespace Cert.KernelIdeal.Whole

open Cert.KernelIdeal Cert.KernelIdeal.Gen Cert.KernelIdeal.RegionValue Cert.LibHostKeeps Cert.Layer
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

/-! ## Buffers no later segment writes

  The edge list's two rows, the node degrees and the parameters of the later layers and of the head: no host operation
  after the first stretch and no launch writes them (a launch that reads one as an input array leaves it as entered). -/

/-- The buffers carried from the first stretch to their later readers. -/
abbrev carried : List (Ref sig .tc) := [main_v1, main_v3, main_v9, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35]

set_option maxHeartbeats 4000000 in
theorem keep2 : ∀ b ∈ carried, W2 m ρ c (Proc.devRef .tc b) = W1 m ρ c (Proc.devRef .tc b) := by
  intro b hb
  simp only [carried, List.mem_cons, List.mem_singleton, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals first
    | exact W2_of_ne m ρ c _ (by decide)
    | exact (W2_arr m ρ c 2).trans (((dat0 (V1 m ρ) c).arrAt_in 2 rfl _).trans (A_eq0 (V1 m ρ) c 2))
    | exact (W2_arr m ρ c 4).trans (((dat0 (V1 m ρ) c).arrAt_in 4 rfl _).trans (A_eq0 (V1 m ρ) c 4))

set_option maxHeartbeats 4000000 in
theorem keep3 : ∀ b ∈ carried, W3 m ρ c (Proc.devRef .tc b) = W2 m ρ c (Proc.devRef .tc b) := by
  intro b hb
  simp only [carried, List.mem_cons, List.mem_singleton, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals host_keeps hostOps1

set_option maxHeartbeats 4000000 in
theorem keep4 : ∀ b ∈ carried, W4 m ρ c (Proc.devRef .tc b) = W3 m ρ c (Proc.devRef .tc b) := by
  intro b hb
  simp only [carried, List.mem_cons, List.mem_singleton, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals first
    | exact W4_of_ne m ρ c _ (by decide)
    | exact (W4_arr m ρ c 2).trans (((dat1 (V3 m ρ) c).arrAt_in 2 rfl _).trans (A_eq1 (V3 m ρ) c 2))
    | exact (W4_arr m ρ c 4).trans (((dat1 (V3 m ρ) c).arrAt_in 4 rfl _).trans (A_eq1 (V3 m ρ) c 4))

set_option maxHeartbeats 4000000 in
theorem keep5 : ∀ b ∈ carried, W5 m ρ c (Proc.devRef .tc b) = W4 m ρ c (Proc.devRef .tc b) := by
  intro b hb
  simp only [carried, List.mem_cons, List.mem_singleton, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals host_keeps hostOps2

set_option maxHeartbeats 4000000 in
theorem keep6 : ∀ b ∈ carried, W6 m ρ c (Proc.devRef .tc b) = W5 m ρ c (Proc.devRef .tc b) := by
  intro b hb
  simp only [carried, List.mem_cons, List.mem_singleton, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals first
    | exact W6_of_ne m ρ c _ (by decide)
    | exact (W6_arr m ρ c 2).trans (((dat2 (V5 m ρ) c).arrAt_in 2 rfl _).trans (A_eq2 (V5 m ρ) c 2))
    | exact (W6_arr m ρ c 4).trans (((dat2 (V5 m ρ) c).arrAt_in 4 rfl _).trans (A_eq2 (V5 m ρ) c 4))

set_option maxHeartbeats 4000000 in
theorem keep7 : ∀ b ∈ carried, W7 m ρ c (Proc.devRef .tc b) = W6 m ρ c (Proc.devRef .tc b) := by
  intro b hb
  simp only [carried, List.mem_cons, List.mem_singleton, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals host_keeps hostOps3

set_option maxHeartbeats 4000000 in
theorem keep8 : ∀ b ∈ carried, W8 m ρ c (Proc.devRef .tc b) = W7 m ρ c (Proc.devRef .tc b) := by
  intro b hb
  simp only [carried, List.mem_cons, List.mem_singleton, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals first
    | exact W8_of_ne m ρ c _ (by decide)
    | exact (W8_arr m ρ c 2).trans (((dat3 (V7 m ρ) c).arrAt_in 2 rfl _).trans (A_eq3 (V7 m ρ) c 2))
    | exact (W8_arr m ρ c 4).trans (((dat3 (V7 m ρ) c).arrAt_in 4 rfl _).trans (A_eq3 (V7 m ρ) c 4))

set_option maxHeartbeats 4000000 in
theorem keep9 : ∀ b ∈ carried, W9 m ρ c (Proc.devRef .tc b) = W8 m ρ c (Proc.devRef .tc b) := by
  intro b hb
  simp only [carried, List.mem_cons, List.mem_singleton, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals host_keeps hostOps4

theorem from2 (b : Ref sig .tc) (hb : b ∈ carried) : W2 m ρ c (Proc.devRef .tc b) = W1 m ρ c (Proc.devRef .tc b) :=
  keep2 m ρ c b hb
theorem from3 (b : Ref sig .tc) (hb : b ∈ carried) : W3 m ρ c (Proc.devRef .tc b) = W1 m ρ c (Proc.devRef .tc b) :=
  (keep3 m ρ c b hb).trans (from2 m ρ c b hb)
theorem from4 (b : Ref sig .tc) (hb : b ∈ carried) : W4 m ρ c (Proc.devRef .tc b) = W1 m ρ c (Proc.devRef .tc b) :=
  (keep4 m ρ c b hb).trans (from3 m ρ c b hb)
theorem from5 (b : Ref sig .tc) (hb : b ∈ carried) : W5 m ρ c (Proc.devRef .tc b) = W1 m ρ c (Proc.devRef .tc b) :=
  (keep5 m ρ c b hb).trans (from4 m ρ c b hb)
theorem from6 (b : Ref sig .tc) (hb : b ∈ carried) : W6 m ρ c (Proc.devRef .tc b) = W1 m ρ c (Proc.devRef .tc b) :=
  (keep6 m ρ c b hb).trans (from5 m ρ c b hb)
theorem from7 (b : Ref sig .tc) (hb : b ∈ carried) : W7 m ρ c (Proc.devRef .tc b) = W1 m ρ c (Proc.devRef .tc b) :=
  (keep7 m ρ c b hb).trans (from6 m ρ c b hb)
theorem from8 (b : Ref sig .tc) (hb : b ∈ carried) : W8 m ρ c (Proc.devRef .tc b) = W1 m ρ c (Proc.devRef .tc b) :=
  (keep8 m ρ c b hb).trans (from7 m ρ c b hb)
theorem from9 (b : Ref sig .tc) (hb : b ∈ carried) : W9 m ρ c (Proc.devRef .tc b) = W1 m ρ c (Proc.devRef .tc b) :=
  (keep9 m ρ c b hb).trans (from8 m ρ c b hb)

/-! ## The first stretch of host operations -/

set_option maxHeartbeats 4000000 in
/-- An argument array is as launched when region 0 is entered. -/
theorem w1_arg (b : Ref sig .tc) (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35]) :
    W1 m ρ c (Proc.devRef .tc b) = W0 m ρ c (Proc.devRef .tc b) := by
  simp only [List.mem_cons, List.mem_singleton, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals host_keeps hostOps0

theorem w1_v1 : W1 m ρ c (Proc.devRef .tc main_v1) = Cert.Agg.src (F := Ideal) (m ((c : Thread nD τ).loc main_arg1)) := by
  show StableHlo.after hostOps0 (W0 m ρ c) (Proc.devRef .tc main_v1) = _
  after_results
  rfl

theorem w1_v3 : W1 m ρ c (Proc.devRef .tc main_v3) = Cert.Agg.dst (F := Ideal) (m ((c : Thread nD τ).loc main_arg1)) := by
  show StableHlo.after hostOps0 (W0 m ρ c) (Proc.devRef .tc main_v3) = _
  after_results
  rfl

theorem w1_v9 : W1 m ρ c (Proc.devRef .tc main_v9) = Cert.Agg.deg (F := Ideal) (m ((c : Thread nD τ).loc main_arg1)) := by
  show StableHlo.after hostOps0 (W0 m ρ c) (Proc.devRef .tc main_v9) = _
  after_results
  rfl

set_option maxHeartbeats 2000000 in
theorem w1_v21 : W1 m ρ c (Proc.devRef .tc main_v21) = Cert.Agg.agg3 (F := Ideal) (m ((c : Thread nD τ).loc main_arg1)) (m ((c : Thread nD τ).loc main_arg0)) := by
  show StableHlo.after hostOps0 (W0 m ρ c) (Proc.devRef .tc main_v21) = _
  after_results_simp
  rfl

theorem w1_v22 : W1 m ρ c (Proc.devRef .tc main_v22) = shapeCast S1x128 (m ((c : Thread nD τ).loc main_arg3)) Facts₀.shapeCasts_S128_S1x128 := by
  show StableHlo.after hostOps0 (W0 m ρ c) (Proc.devRef .tc main_v22) = _
  after_results
  rfl

theorem w1_v23 : W1 m ρ c (Proc.devRef .tc main_v23) = shapeCast S1x128 (m ((c : Thread nD τ).loc main_arg5)) Facts₀.shapeCasts_S128_S1x128 := by
  show StableHlo.after hostOps0 (W0 m ρ c) (Proc.devRef .tc main_v23) = _
  after_results
  rfl

theorem w1_v24 : W1 m ρ c (Proc.devRef .tc main_v24) = shapeCast S1x128 (m ((c : Thread nD τ).loc main_arg6)) Facts₀.shapeCasts_S128_S1x128 := by
  show StableHlo.after hostOps0 (W0 m ρ c) (Proc.devRef .tc main_v24) = _
  after_results
  rfl

theorem w1_v25 : W1 m ρ c (Proc.devRef .tc main_v25) = shapeCast S1x128 (m ((c : Thread nD τ).loc main_arg7)) Facts₀.shapeCasts_S128_S1x128 := by
  show StableHlo.after hostOps0 (W0 m ρ c) (Proc.devRef .tc main_v25) = _
  after_results
  rfl

theorem w1_v26 : W1 m ρ c (Proc.devRef .tc main_v26) = shapeCast S1x128 (m ((c : Thread nD τ).loc main_arg8)) Facts₀.shapeCasts_S128_S1x128 := by
  show StableHlo.after hostOps0 (W0 m ρ c) (Proc.devRef .tc main_v26) = _
  after_results
  rfl

/-! ## The layers -/

/-- The first layer's output, of the launch contents. -/
def L1 : (⟨S100000x128, .f32⟩ : BufTy).Contents (Elt Ideal) :=
  Cert.Net.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The second layer's output. -/
def L2 : (⟨S100000x128, .f32⟩ : BufTy).Contents (Elt Ideal) :=
  Cert.Net.layerN (m ((c : Thread nD τ).loc main_arg1)) (L1 m c) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
/-- The third layer's output. -/
def L3 : (⟨S100000x128, .f32⟩ : BufTy).Contents (Elt Ideal) :=
  Cert.Net.layerN (m ((c : Thread nD τ).loc main_arg1)) (L2 m c) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
/-- The fourth layer's output. -/
def L4 : (⟨S100000x128, .f32⟩ : BufTy).Contents (Elt Ideal) :=
  Cert.Net.layerN (m ((c : Thread nD τ).loc main_arg1)) (L3 m c) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))

/-- Region 0 leaves the first layer's output in its output array. -/
theorem w2_v27 : W2 m ρ c (Proc.devRef .tc main_v27) = L1 m c :=
  (W2_arr m ρ c 9).trans ((final0 (V1 m ρ) c).trans (Cert.Sage.sage_rows Cert.Sage.eps Facts₀.shapeCasts_S128_S1x128
    (w1_v21 m ρ c) (w1_arg m ρ c main_arg0 (by decide)) (w1_arg m ρ c main_arg2 (by decide)) (w1_arg m ρ c main_arg4 (by decide))
    (w1_v22 m ρ c) (w1_v23 m ρ c) (w1_v24 m ρ c) (w1_v25 m ρ c) (w1_v26 m ρ c)))

/-! ### Layer 2 -/

/-- The stretch does not write the previous layer's output. -/
theorem hostOps1_keeps_v27 (W : Valuation τ sig (Elt Ideal)) :
    StableHlo.after hostOps1 W (Proc.devRef .tc main_v27) = W (Proc.devRef .tc main_v27) := by
  host_keeps hostOps1

theorem w3_x : W3 m ρ c (Proc.devRef .tc main_v27) = L1 m c :=
  (hostOps1_keeps_v27 (W2 m ρ c)).trans (w2_v27 m ρ c)

set_option maxHeartbeats 2000000 in
/-- The stretch's neighbour average, from any contents that hold the edge list's rows, the degrees and the previous
    layer's output where the first stretch and the previous launch left them. -/
theorem hostOps1_average (W : Valuation τ sig (Elt Ideal)) (ei : (⟨S2x1600000, .i32⟩ : BufTy).Contents (Elt Ideal))
    (x : (⟨S100000x128, .f32⟩ : BufTy).Contents (Elt Ideal))
    (h1 : W (Proc.devRef .tc main_v1) = Cert.Agg.src (F := Ideal) ei) (h3 : W (Proc.devRef .tc main_v3) = Cert.Agg.dst (F := Ideal) ei)
    (h9 : W (Proc.devRef .tc main_v9) = Cert.Agg.deg (F := Ideal) ei) (hx : W (Proc.devRef .tc main_v27) = x) :
    StableHlo.after hostOps1 W (Proc.devRef .tc main_v39) = Cert.Agg.agg128 (F := Ideal) ei x := by
  after_results_simp
  rw [h1, h3, h9, hx]
  rfl

theorem w3_agg : W3 m ρ c (Proc.devRef .tc main_v39) = Cert.Agg.agg128 (F := Ideal) (m ((c : Thread nD τ).loc main_arg1)) (L1 m c) :=
  hostOps1_average (W2 m ρ c) _ _ ((from2 m ρ c main_v1 (by decide)).trans (w1_v1 m ρ c))
    ((from2 m ρ c main_v3 (by decide)).trans (w1_v3 m ρ c)) ((from2 m ρ c main_v9 (by decide)).trans (w1_v9 m ρ c)) (w2_v27 m ρ c)

theorem w3_arg (b : Ref sig .tc) (hb : b ∈ [main_arg9, main_arg10, main_arg11, main_arg12, main_arg13, main_arg14, main_arg15]) :
    W3 m ρ c (Proc.devRef .tc b) = W0 m ρ c (Proc.devRef .tc b) := by
  simp only [List.mem_cons, List.mem_singleton, List.not_mem_nil, or_false] at hb
  rcases hb with rfl | rfl | rfl | rfl | rfl | rfl | rfl
  all_goals exact (keep3 m ρ c _ (by decide)).trans ((from2 m ρ c _ (by decide)).trans (w1_arg m ρ c _ (by decide)))

theorem w3_v40 : W3 m ρ c (Proc.devRef .tc main_v40) = shapeCast S1x128 (m ((c : Thread nD τ).loc main_arg10)) Facts₀.shapeCasts_S128_S1x128 := by
  show StableHlo.after hostOps1 (W2 m ρ c) (Proc.devRef .tc main_v40) = _
  after_results
  rw [(from2 m ρ c main_arg10 (by decide)), w1_arg m ρ c main_arg10 (by decide)]
  rfl

theorem w3_v41 : W3 m ρ c (Proc.devRef .tc main_v41) = shapeCast S1x128 (m ((c : Thread nD τ).loc main_arg12)) Facts₀.shapeCasts_S128_S1x128 := by
  show StableHlo.after hostOps1 (W2 m ρ c) (Proc.devRef .tc main_v41) = _
  after_results
  rw [(from2 m ρ c main_arg12 (by decide)), w1_arg m ρ c main_arg12 (by decide)]
  rfl

theorem w3_v42 : W3 m ρ c (Proc.devRef .tc main_v42) = shapeCast S1x128 (m ((c : Thread nD τ).loc main_arg13)) Facts₀.shapeCasts_S128_S1x128 := by
  show StableHlo.after hostOps1 (W2 m ρ c) (Proc.devRef .tc main_v42) = _
  after_results
  rw [(from2 m ρ c main_arg13 (by decide)), w1_arg m ρ c main_arg13 (by decide)]
  rfl

theorem w3_v43 : W3 m ρ c (Proc.devRef .tc main_v43) = shapeCast S1x128 (m ((c : Thread nD τ).loc main_arg14)) Facts₀.shapeCasts_S128_S1x128 := by
  show StableHlo.after hostOps1 (W2 m ρ c) (Proc.devRef .tc main_v43) = _
  after_results
  rw [(from2 m ρ c main_arg14 (by decide)), w1_arg m ρ c main_arg14 (by decide)]
  rfl

theorem w3_v44 : W3 m ρ c (Proc.devRef .tc main_v44) = shapeCast S1x128 (m ((c : Thread nD τ).loc main_arg15)) Facts₀.shapeCasts_S128_S1x128 := by
  show StableHlo.after hostOps1 (W2 m ρ c) (Proc.devRef .tc main_v44) = _
  after_results
  rw [(from2 m ρ c main_arg15 (by decide)), w1_arg m ρ c main_arg15 (by decide)]
  rfl

/-- Region 1 leaves layer 2's output in its output array. -/
theorem w4_v45 : W4 m ρ c (Proc.devRef .tc main_v45) = L2 m c :=
  (W4_arr m ρ c 9).trans ((final1 (V3 m ρ) c).trans (Cert.Sage.sage_rows Cert.Sage.eps Facts₀.shapeCasts_S128_S1x128
    (w3_agg m ρ c) (w3_x m ρ c) (w3_arg m ρ c main_arg9 (by decide)) (w3_arg m ρ c main_arg11 (by decide))
    (w3_v40 m ρ c) (w3_v41 m ρ c) (w3_v42 m ρ c) (w3_v43 m ρ c) (w3_v44 m ρ c)))

/-! ### Layer 3 -/

/-- The stretch does not write the previous layer's output. -/
theorem hostOps2_keeps_v45 (W : Valuation τ sig (Elt Ideal)) :
    StableHlo.after hostOps2 W (Proc.devRef .tc main_v45) = W (Proc.devRef .tc main_v45) := by
  host_keeps hostOps2

theorem w5_x : W5 m ρ c (Proc.devRef .tc main_v45) = L2 m c :=
  (hostOps2_keeps_v45 (W4 m ρ c)).trans (w4_v45 m ρ c)

set_option maxHeartbeats 2000000 in
/-- The stretch's neighbour average, from any contents that hold the edge list's rows, the degrees and the previous
    layer's output where the first stretch and the previous launch left them. -/
theorem hostOps2_average (W : Valuation τ sig (Elt Ideal)) (ei : (⟨S2x1600000, .i32⟩ : BufTy).Contents (Elt Ideal))
    (x : (⟨S100000x128, .f32⟩ : BufTy).Contents (Elt Ideal))
    (h1 : W (Proc.devRef .tc main_v1) = Cert.Agg.src (F := Ideal) ei) (h3 : W (Proc.devRef .tc main_v3) = Cert.Agg.dst (F := Ideal) ei)
    (h9 : W (Proc.devRef .tc main_v9) = Cert.Agg.deg (F := Ideal) ei) (hx : W (Proc.devRef .tc main_v45) = x) :
    StableHlo.after hostOps2 W (Proc.devRef .tc main_v57) = Cert.Agg.agg128 (F := Ideal) ei x := by
  after_results_simp
  rw [h1, h3, h9, hx]
  rfl

theorem w5_agg : W5 m ρ c (Proc.devRef .tc main_v57) = Cert.Agg.agg128 (F := Ideal) (m ((c : Thread nD τ).loc main_arg1)) (L2 m c) :=
  hostOps2_average (W4 m ρ c) _ _ ((from4 m ρ c main_v1 (by decide)).trans (w1_v1 m ρ c))
    ((from4 m ρ c main_v3 (by decide)).trans (w1_v3 m ρ c)) ((from4 m ρ c main_v9 (by decide)).trans (w1_v9 m ρ c)) (w4_v45 m ρ c)

theorem w5_arg (b : Ref sig .tc) (hb : b ∈ [main_arg16, main_arg17, main_arg18, main_arg19, main_arg20, main_arg21, main_arg22]) :
    W5 m ρ c (Proc.devRef .tc b) = W0 m ρ c (Proc.devRef .tc b) := by
  simp only [List.mem_cons, List.mem_singleton, List.not_mem_nil, or_false] at hb
  rcases hb with rfl | rfl | rfl | rfl | rfl | rfl | rfl
  all_goals exact (keep5 m ρ c _ (by decide)).trans ((from4 m ρ c _ (by decide)).trans (w1_arg m ρ c _ (by decide)))

theorem w5_v58 : W5 m ρ c (Proc.devRef .tc main_v58) = shapeCast S1x128 (m ((c : Thread nD τ).loc main_arg17)) Facts₀.shapeCasts_S128_S1x128 := by
  show StableHlo.after hostOps2 (W4 m ρ c) (Proc.devRef .tc main_v58) = _
  after_results
  rw [(from4 m ρ c main_arg17 (by decide)), w1_arg m ρ c main_arg17 (by decide)]
  rfl

theorem w5_v59 : W5 m ρ c (Proc.devRef .tc main_v59) = shapeCast S1x128 (m ((c : Thread nD τ).loc main_arg19)) Facts₀.shapeCasts_S128_S1x128 := by
  show StableHlo.after hostOps2 (W4 m ρ c) (Proc.devRef .tc main_v59) = _
  after_results
  rw [(from4 m ρ c main_arg19 (by decide)), w1_arg m ρ c main_arg19 (by decide)]
  rfl

theorem w5_v60 : W5 m ρ c (Proc.devRef .tc main_v60) = shapeCast S1x128 (m ((c : Thread nD τ).loc main_arg20)) Facts₀.shapeCasts_S128_S1x128 := by
  show StableHlo.after hostOps2 (W4 m ρ c) (Proc.devRef .tc main_v60) = _
  after_results
  rw [(from4 m ρ c main_arg20 (by decide)), w1_arg m ρ c main_arg20 (by decide)]
  rfl

theorem w5_v61 : W5 m ρ c (Proc.devRef .tc main_v61) = shapeCast S1x128 (m ((c : Thread nD τ).loc main_arg21)) Facts₀.shapeCasts_S128_S1x128 := by
  show StableHlo.after hostOps2 (W4 m ρ c) (Proc.devRef .tc main_v61) = _
  after_results
  rw [(from4 m ρ c main_arg21 (by decide)), w1_arg m ρ c main_arg21 (by decide)]
  rfl

theorem w5_v62 : W5 m ρ c (Proc.devRef .tc main_v62) = shapeCast S1x128 (m ((c : Thread nD τ).loc main_arg22)) Facts₀.shapeCasts_S128_S1x128 := by
  show StableHlo.after hostOps2 (W4 m ρ c) (Proc.devRef .tc main_v62) = _
  after_results
  rw [(from4 m ρ c main_arg22 (by decide)), w1_arg m ρ c main_arg22 (by decide)]
  rfl

/-- Region 2 leaves layer 3's output in its output array. -/
theorem w6_v63 : W6 m ρ c (Proc.devRef .tc main_v63) = L3 m c :=
  (W6_arr m ρ c 9).trans ((final2 (V5 m ρ) c).trans (Cert.Sage.sage_rows Cert.Sage.eps Facts₀.shapeCasts_S128_S1x128
    (w5_agg m ρ c) (w5_x m ρ c) (w5_arg m ρ c main_arg16 (by decide)) (w5_arg m ρ c main_arg18 (by decide))
    (w5_v58 m ρ c) (w5_v59 m ρ c) (w5_v60 m ρ c) (w5_v61 m ρ c) (w5_v62 m ρ c)))

/-! ### Layer 4 -/

/-- The stretch does not write the previous layer's output. -/
theorem hostOps3_keeps_v63 (W : Valuation τ sig (Elt Ideal)) :
    StableHlo.after hostOps3 W (Proc.devRef .tc main_v63) = W (Proc.devRef .tc main_v63) := by
  host_keeps hostOps3

theorem w7_x : W7 m ρ c (Proc.devRef .tc main_v63) = L3 m c :=
  (hostOps3_keeps_v63 (W6 m ρ c)).trans (w6_v63 m ρ c)

set_option maxHeartbeats 2000000 in
/-- The stretch's neighbour average, from any contents that hold the edge list's rows, the degrees and the previous
    layer's output where the first stretch and the previous launch left them. -/
theorem hostOps3_average (W : Valuation τ sig (Elt Ideal)) (ei : (⟨S2x1600000, .i32⟩ : BufTy).Contents (Elt Ideal))
    (x : (⟨S100000x128, .f32⟩ : BufTy).Contents (Elt Ideal))
    (h1 : W (Proc.devRef .tc main_v1) = Cert.Agg.src (F := Ideal) ei) (h3 : W (Proc.devRef .tc main_v3) = Cert.Agg.dst (F := Ideal) ei)
    (h9 : W (Proc.devRef .tc main_v9) = Cert.Agg.deg (F := Ideal) ei) (hx : W (Proc.devRef .tc main_v63) = x) :
    StableHlo.after hostOps3 W (Proc.devRef .tc main_v75) = Cert.Agg.agg128 (F := Ideal) ei x := by
  after_results_simp
  rw [h1, h3, h9, hx]
  rfl

theorem w7_agg : W7 m ρ c (Proc.devRef .tc main_v75) = Cert.Agg.agg128 (F := Ideal) (m ((c : Thread nD τ).loc main_arg1)) (L3 m c) :=
  hostOps3_average (W6 m ρ c) _ _ ((from6 m ρ c main_v1 (by decide)).trans (w1_v1 m ρ c))
    ((from6 m ρ c main_v3 (by decide)).trans (w1_v3 m ρ c)) ((from6 m ρ c main_v9 (by decide)).trans (w1_v9 m ρ c)) (w6_v63 m ρ c)

theorem w7_arg (b : Ref sig .tc) (hb : b ∈ [main_arg23, main_arg24, main_arg25, main_arg26, main_arg27, main_arg28, main_arg29]) :
    W7 m ρ c (Proc.devRef .tc b) = W0 m ρ c (Proc.devRef .tc b) := by
  simp only [List.mem_cons, List.mem_singleton, List.not_mem_nil, or_false] at hb
  rcases hb with rfl | rfl | rfl | rfl | rfl | rfl | rfl
  all_goals exact (keep7 m ρ c _ (by decide)).trans ((from6 m ρ c _ (by decide)).trans (w1_arg m ρ c _ (by decide)))

theorem w7_v76 : W7 m ρ c (Proc.devRef .tc main_v76) = shapeCast S1x128 (m ((c : Thread nD τ).loc main_arg24)) Facts₀.shapeCasts_S128_S1x128 := by
  show StableHlo.after hostOps3 (W6 m ρ c) (Proc.devRef .tc main_v76) = _
  after_results
  rw [(from6 m ρ c main_arg24 (by decide)), w1_arg m ρ c main_arg24 (by decide)]
  rfl

theorem w7_v77 : W7 m ρ c (Proc.devRef .tc main_v77) = shapeCast S1x128 (m ((c : Thread nD τ).loc main_arg26)) Facts₀.shapeCasts_S128_S1x128 := by
  show StableHlo.after hostOps3 (W6 m ρ c) (Proc.devRef .tc main_v77) = _
  after_results
  rw [(from6 m ρ c main_arg26 (by decide)), w1_arg m ρ c main_arg26 (by decide)]
  rfl

theorem w7_v78 : W7 m ρ c (Proc.devRef .tc main_v78) = shapeCast S1x128 (m ((c : Thread nD τ).loc main_arg27)) Facts₀.shapeCasts_S128_S1x128 := by
  show StableHlo.after hostOps3 (W6 m ρ c) (Proc.devRef .tc main_v78) = _
  after_results
  rw [(from6 m ρ c main_arg27 (by decide)), w1_arg m ρ c main_arg27 (by decide)]
  rfl

theorem w7_v79 : W7 m ρ c (Proc.devRef .tc main_v79) = shapeCast S1x128 (m ((c : Thread nD τ).loc main_arg28)) Facts₀.shapeCasts_S128_S1x128 := by
  show StableHlo.after hostOps3 (W6 m ρ c) (Proc.devRef .tc main_v79) = _
  after_results
  rw [(from6 m ρ c main_arg28 (by decide)), w1_arg m ρ c main_arg28 (by decide)]
  rfl

theorem w7_v80 : W7 m ρ c (Proc.devRef .tc main_v80) = shapeCast S1x128 (m ((c : Thread nD τ).loc main_arg29)) Facts₀.shapeCasts_S128_S1x128 := by
  show StableHlo.after hostOps3 (W6 m ρ c) (Proc.devRef .tc main_v80) = _
  after_results
  rw [(from6 m ρ c main_arg29 (by decide)), w1_arg m ρ c main_arg29 (by decide)]
  rfl

/-- Region 3 leaves layer 4's output in its output array. -/
theorem w8_v81 : W8 m ρ c (Proc.devRef .tc main_v81) = L4 m c :=
  (W8_arr m ρ c 9).trans ((final3 (V7 m ρ) c).trans (Cert.Sage.sage_rows Cert.Sage.eps Facts₀.shapeCasts_S128_S1x128
    (w7_agg m ρ c) (w7_x m ρ c) (w7_arg m ρ c main_arg23 (by decide)) (w7_arg m ρ c main_arg25 (by decide))
    (w7_v76 m ρ c) (w7_v77 m ρ c) (w7_v78 m ρ c) (w7_v79 m ρ c) (w7_v80 m ρ c)))

/-! ### The head -/

/-- The stretch does not write the previous layer's output. -/
theorem hostOps4_keeps_v81 (W : Valuation τ sig (Elt Ideal)) :
    StableHlo.after hostOps4 W (Proc.devRef .tc main_v81) = W (Proc.devRef .tc main_v81) := by
  host_keeps hostOps4

theorem w9_x : W9 m ρ c (Proc.devRef .tc main_v81) = L4 m c :=
  (hostOps4_keeps_v81 (W8 m ρ c)).trans (w8_v81 m ρ c)

theorem w9_arg (b : Ref sig .tc) (hb : b ∈ [main_arg30, main_arg31, main_arg32, main_arg33, main_arg34, main_arg35]) :
    W9 m ρ c (Proc.devRef .tc b) = W0 m ρ c (Proc.devRef .tc b) := by
  simp only [List.mem_cons, List.mem_singleton, List.not_mem_nil, or_false] at hb
  rcases hb with rfl | rfl | rfl | rfl | rfl | rfl
  all_goals exact (from9 m ρ c _ (by decide)).trans (w1_arg m ρ c _ (by decide))

theorem w9_v82 : W9 m ρ c (Proc.devRef .tc main_v82) = shapeCast S1x128 (m ((c : Thread nD τ).loc main_arg31)) Facts₀.shapeCasts_S128_S1x128 := by
  show StableHlo.after hostOps4 (W8 m ρ c) (Proc.devRef .tc main_v82) = _
  after_results
  rw [from8 m ρ c main_arg31 (by decide), w1_arg m ρ c main_arg31 (by decide)]
  rfl

theorem w9_v83 : W9 m ρ c (Proc.devRef .tc main_v83) = shapeCast S1x128 (m ((c : Thread nD τ).loc main_arg33)) Facts₀.shapeCasts_S128_S1x128 := by
  show StableHlo.after hostOps4 (W8 m ρ c) (Proc.devRef .tc main_v83) = _
  after_results
  rw [from8 m ρ c main_arg33 (by decide), w1_arg m ρ c main_arg33 (by decide)]
  rfl

theorem w9_v84 : W9 m ρ c (Proc.devRef .tc main_v84) = shapeCast S1x128 (m ((c : Thread nD τ).loc main_arg35)) Facts₀.shapeCasts_S128_S1x128 := by
  show StableHlo.after hostOps4 (W8 m ρ c) (Proc.devRef .tc main_v84) = _
  after_results
  rw [from8 m ρ c main_arg35 (by decide), w1_arg m ρ c main_arg35 (by decide)]
  rfl

/-- The network of the launch contents is the head of the fourth layer's output. -/
theorem net_eq : Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))
    = Cert.Net.headOf (L4 m c) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := rfl

/-- THE RESULT BUFFER after the run: the network function of the argument arrays as launched. -/
theorem kernel_value : W10 m ρ c (Proc.devRef .tc main_v85) = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) :=
  (W10_arr m ρ c 7).trans ((final4 (V9 m ρ) c).trans ((Cert.Sage.head_rows Facts₀.shapeCasts_S128_S1x128 Facts₀.shapeCasts_S128_S1x128 Facts₀.shapeCasts_S128_S1x128
    (w9_x m ρ c) (w9_arg m ρ c main_arg30 (by decide)) (w9_arg m ρ c main_arg32 (by decide)) (w9_arg m ρ c main_arg34 (by decide))
    (w9_v82 m ρ c) (w9_v83 m ρ c) (w9_v84 m ρ c)).trans (net_eq m c).symm))

/-- Every weakly fair execution of the idealized kernel program terminates, nothing faulting, with the result buffer at
    the network function of the argument arrays and the argument arrays unchanged. -/
theorem run_value : θ_run defs (onTc (τ := τ) (main (F := Ideal))) ⟨m, fun _ => 0, ρ⟩ (fun r => ∀ c : Dev nD,
      r.2.mem ((c : Thread nD τ).loc main_v85) = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)) :=
  (θ_run defs _ _).mono (fun r h c =>
    ⟨(h c _ (mem_uc main_v85 (by decide))).trans (kernel_value m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c),
     (h c _ (mem_uc main_arg12 (by decide))).trans (W10_main_arg12 m ρ c),
     (h c _ (mem_uc main_arg13 (by decide))).trans (W10_main_arg13 m ρ c),
     (h c _ (mem_uc main_arg14 (by decide))).trans (W10_main_arg14 m ρ c),
     (h c _ (mem_uc main_arg15 (by decide))).trans (W10_main_arg15 m ρ c),
     (h c _ (mem_uc main_arg16 (by decide))).trans (W10_main_arg16 m ρ c),
     (h c _ (mem_uc main_arg17 (by decide))).trans (W10_main_arg17 m ρ c),
     (h c _ (mem_uc main_arg18 (by decide))).trans (W10_main_arg18 m ρ c),
     (h c _ (mem_uc main_arg19 (by decide))).trans (W10_main_arg19 m ρ c),
     (h c _ (mem_uc main_arg20 (by decide))).trans (W10_main_arg20 m ρ c),
     (h c _ (mem_uc main_arg21 (by decide))).trans (W10_main_arg21 m ρ c),
     (h c _ (mem_uc main_arg22 (by decide))).trans (W10_main_arg22 m ρ c),
     (h c _ (mem_uc main_arg23 (by decide))).trans (W10_main_arg23 m ρ c),
     (h c _ (mem_uc main_arg24 (by decide))).trans (W10_main_arg24 m ρ c),
     (h c _ (mem_uc main_arg25 (by decide))).trans (W10_main_arg25 m ρ c),
     (h c _ (mem_uc main_arg26 (by decide))).trans (W10_main_arg26 m ρ c),
     (h c _ (mem_uc main_arg27 (by decide))).trans (W10_main_arg27 m ρ c),
     (h c _ (mem_uc main_arg28 (by decide))).trans (W10_main_arg28 m ρ c),
     (h c _ (mem_uc main_arg29 (by decide))).trans (W10_main_arg29 m ρ c),
     (h c _ (mem_uc main_arg30 (by decide))).trans (W10_main_arg30 m ρ c),
     (h c _ (mem_uc main_arg31 (by decide))).trans (W10_main_arg31 m ρ c),
     (h c _ (mem_uc main_arg32 (by decide))).trans (W10_main_arg32 m ρ c),
     (h c _ (mem_uc main_arg33 (by decide))).trans (W10_main_arg33 m ρ c),
     (h c _ (mem_uc main_arg34 (by decide))).trans (W10_main_arg34 m ρ c),
     (h c _ (mem_uc main_arg35 (by decide))).trans (W10_main_arg35 m ρ c)⟩)
    (run_all m ρ)

end Cert.KernelIdeal.Whole

end
-- ==== Proof.RefValue.lean ====
/-
  The reference program computes the network function.

  Read one operation at a time, the reference is: for each of the four layers a neighbour average (a chain of host
  operations carried as one opaque function of the edge list and the features), two matrix products, a bias, the
  stored-statistics normalisation and a clamp at zero; then three matrix products with biases and one clamp, the
  perceptron head.  Each layer's result is shown entry by entry to be the layer map of the specification — every entry
  (p, c) reads row p of the two inputs and column c of the parameters — using only that the sum of the two products
  and the bias does not depend on the order of its terms; the head likewise, with no law at all.  The averages are the
  shared chain by unfolding both texts.  Composing the four layers and the head gives the network function.
-/
import proofs.«125825_j33397665694044_1_alg».proof.Proof.Gen.ReferenceIdeal.Read
import proofs.«125825_j33397665694044_1_alg».proof.Proof.LibSageLayer
import proofs.«125825_j33397665694044_1_alg».proof.Proof.LibPlainDot
import proofs.«125825_j33397665694044_1_alg».proof.Proof.Aggregate
import proofs.«125825_j33397665694044_1_alg».proof.Proof.Net

noncomputable section

open scoped BigOperators

namespace Cert.ReferenceIdeal.RefValue

open Cert.ReferenceIdeal Cert.ReferenceIdeal.Read Cert.Layer Idealize.ShloMosaic Idealize.ShloMosaic.ValueIdx

/-! ## The first layer (three features in) -/

theorem layer1_dotA (x0 : (⟨S100000x3, .f32⟩ : BufTy).Contents (Elt Ideal)) (x1 : (⟨S2x1600000, .i32⟩ : BufTy).Contents (Elt Ideal)) (x2 : (⟨S3x128, .f32⟩ : BufTy).Contents (Elt Ideal)) (p : Fin 100000) (c : Fin 128) :
    val_main_v22 (F := Ideal) x0 x1 x2 (ix2 p c) = ∑ q : Fin 3, rows (val_main_v21 (F := Ideal) x0 x1) p q * mat x2 q c :=
  Cert.LibPlainDot.dotGeneral_apply dot_S100000x3_S3x128_S100000x128_1_0_0_1_n_n rfl none .single (val_main_v21 (F := Ideal) x0 x1) x2 p c

theorem layer1_dotX (x0 : (⟨S100000x3, .f32⟩ : BufTy).Contents (Elt Ideal)) (x4 : (⟨S3x128, .f32⟩ : BufTy).Contents (Elt Ideal)) (p : Fin 100000) (c : Fin 128) :
    val_main_v26 (F := Ideal) x0 x4 (ix2 p c) = ∑ q : Fin 3, rows (x0) p q * mat x4 q c :=
  Cert.LibPlainDot.dotGeneral_apply dot_S100000x3_S3x128_S100000x128_1_0_0_1_n_n rfl none .single (x0) x4 p c

theorem layer1_bl (x3 : (⟨S128, .f32⟩ : BufTy).Contents (Elt Ideal)) (p : Fin 100000) (c : Fin 128) :
    val_main_v24 (F := Ideal) x3 (ix2 p c) = vec x3 c := by
  rw [val_main_v24_apply, val_main_v23_apply]
  exact congrArg x3 (funext fun a => Fin.ext (by match a with | ⟨0, _⟩ => rfl))

theorem layer1_mu (x7 : (⟨S128, .f32⟩ : BufTy).Contents (Elt Ideal)) (p : Fin 100000) (c : Fin 128) :
    val_main_v29 (F := Ideal) x7 (ix2 p c) = vec x7 c := by
  rw [val_main_v29_apply, val_main_v28_apply]
  exact congrArg x7 (funext fun a => Fin.ext (by match a with | ⟨0, _⟩ => rfl))

theorem layer1_g (x5 : (⟨S128, .f32⟩ : BufTy).Contents (Elt Ideal)) (p : Fin 100000) (c : Fin 128) :
    val_main_v32 (F := Ideal) x5 (ix2 p c) = vec x5 c := by
  rw [val_main_v32_apply, val_main_v31_apply]
  exact congrArg x5 (funext fun a => Fin.ext (by match a with | ⟨0, _⟩ => rfl))

theorem layer1_beta (x6 : (⟨S128, .f32⟩ : BufTy).Contents (Elt Ideal)) (p : Fin 100000) (c : Fin 128) :
    val_main_v41 (F := Ideal) x6 (ix2 p c) = vec x6 c := by
  rw [val_main_v41_apply, val_main_v40_apply]
  exact congrArg x6 (funext fun a => Fin.ext (by match a with | ⟨0, _⟩ => rfl))

theorem layer1_rs (x8 : (⟨S128, .f32⟩ : BufTy).Contents (Elt Ideal)) (p : Fin 100000) (c : Fin 128) :
    val_main_v38 (F := Ideal) x8 (ix2 p c) = Ideal.rsqrt (vec x8 c + Cert.Sage.eps) := by
  rw [val_main_v38_apply, val_main_v37_apply, val_main_v36_apply, val_main_v35_apply, val_main_v34_apply, val_main_cst_4_apply]
  exact congrArg (fun j => Ideal.rsqrt (x8 j + Ideal.ofBits .f32 0x3727C5AC#32)) (funext fun a => Fin.ext (by match a with | ⟨0, _⟩ => rfl))

theorem layer1_zero (p : Fin 100000) (c : Fin 128) : val_main_call0_v0 (F := Ideal) (ix2 p c) = 0 := by
  rw [val_main_call0_v0_apply, val_main_call0_cst_apply]
  exact Ideal.ofBits_zero_f32

/-- Layer 1 of the reference, entry by entry: the affine map of the averaged row and the node's own row (the bias added before the second product, which the order-free sum of three extended reals absorbs), the stored-statistics normalisation and the clamp at zero. -/
theorem layer1 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) :
    val_main_v43 (F := Ideal) x0 x1 x2 x3 x4 x5 x6 x7 x8
      = Cert.Sage.sage Cert.Sage.eps (val_main_v21 (F := Ideal) x0 x1) (x0) x2 x4 (vec x3) (vec x5) (vec x6) (vec x7) (vec x8) := by
  funext i
  obtain ⟨p, c, rfl⟩ : ∃ (p : Fin 100000) (c : Fin 128), i = ix2 p c := ⟨i 0, i 1, eq_ix2 i⟩
  rw [Cert.Sage.sage_apply, ← Cert.Sage.sagePt_bias_first]
  rw [val_main_v43_apply, val_main_v42_apply, val_main_v39_apply, val_main_v33_apply, val_main_v30_apply, val_main_v27_apply, val_main_v25_apply, layer1_dotA, layer1_dotX, layer1_bl, layer1_mu, layer1_g,
    layer1_rs, layer1_beta, layer1_zero]
  rfl

/-! ## The second layer -/

theorem layer2_dotA (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (p : Fin 100000) (c : Fin 128) :
    val_main_v62 (F := Ideal) x0 x1 x2 x3 x4 x5 x6 x7 x8 x9 (ix2 p c) = ∑ q : Fin 128, rows (val_main_v61 (F := Ideal) x0 x1 x2 x3 x4 x5 x6 x7 x8) p q * mat x9 q c :=
  Cert.LibPlainDot.dotGeneral_apply dot_S100000x128_S128x128_S100000x128_1_0_0_1_n_n rfl none .single (val_main_v61 (F := Ideal) x0 x1 x2 x3 x4 x5 x6 x7 x8) x9 p c

theorem layer2_dotX (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x11 : (⟨S128x128, .f32⟩ : BufTy).Contents (Elt Ideal)) (p : Fin 100000) (c : Fin 128) :
    val_main_v66 (F := Ideal) x0 x1 x2 x3 x4 x5 x6 x7 x8 x11 (ix2 p c) = ∑ q : Fin 128, rows (val_main_v43 (F := Ideal) x0 x1 x2 x3 x4 x5 x6 x7 x8) p q * mat x11 q c :=
  Cert.LibPlainDot.dotGeneral_apply dot_S100000x128_S128x128_S100000x128_1_0_0_1_n_n rfl none .single (val_main_v43 (F := Ideal) x0 x1 x2 x3 x4 x5 x6 x7 x8) x11 p c

theorem layer2_bl (x10 : (⟨S128, .f32⟩ : BufTy).Contents (Elt Ideal)) (p : Fin 100000) (c : Fin 128) :
    val_main_v64 (F := Ideal) x10 (ix2 p c) = vec x10 c := by
  rw [val_main_v64_apply, val_main_v63_apply]
  exact congrArg x10 (funext fun a => Fin.ext (by match a with | ⟨0, _⟩ => rfl))

theorem layer2_mu (x14 : (⟨S128, .f32⟩ : BufTy).Contents (Elt Ideal)) (p : Fin 100000) (c : Fin 128) :
    val_main_v69 (F := Ideal) x14 (ix2 p c) = vec x14 c := by
  rw [val_main_v69_apply, val_main_v68_apply]
  exact congrArg x14 (funext fun a => Fin.ext (by match a with | ⟨0, _⟩ => rfl))

theorem layer2_g (x12 : (⟨S128, .f32⟩ : BufTy).Contents (Elt Ideal)) (p : Fin 100000) (c : Fin 128) :
    val_main_v72 (F := Ideal) x12 (ix2 p c) = vec x12 c := by
  rw [val_main_v72_apply, val_main_v71_apply]
  exact congrArg x12 (funext fun a => Fin.ext (by match a with | ⟨0, _⟩ => rfl))

theorem layer2_beta (x13 : (⟨S128, .f32⟩ : BufTy).Contents (Elt Ideal)) (p : Fin 100000) (c : Fin 128) :
    val_main_v81 (F := Ideal) x13 (ix2 p c) = vec x13 c := by
  rw [val_main_v81_apply, val_main_v80_apply]
  exact congrArg x13 (funext fun a => Fin.ext (by match a with | ⟨0, _⟩ => rfl))

theorem layer2_rs (x15 : (⟨S128, .f32⟩ : BufTy).Contents (Elt Ideal)) (p : Fin 100000) (c : Fin 128) :
    val_main_v78 (F := Ideal) x15 (ix2 p c) = Ideal.rsqrt (vec x15 c + Cert.Sage.eps) := by
  rw [val_main_v78_apply, val_main_v77_apply, val_main_v76_apply, val_main_v75_apply, val_main_v74_apply, val_main_cst_11_apply]
  exact congrArg (fun j => Ideal.rsqrt (x15 j + Ideal.ofBits .f32 0x3727C5AC#32)) (funext fun a => Fin.ext (by match a with | ⟨0, _⟩ => rfl))

theorem layer2_zero (p : Fin 100000) (c : Fin 128) : val_main_call1_v0 (F := Ideal) (ix2 p c) = 0 := by
  rw [val_main_call1_v0_apply, val_main_call1_cst_apply]
  exact Ideal.ofBits_zero_f32

/-- Layer 2 of the reference, entry by entry: the affine map of the averaged row and the node's own row (the bias added before the second product, which the order-free sum of three extended reals absorbs), the stored-statistics normalisation and the clamp at zero. -/
theorem layer2 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) :
    val_main_v83 (F := Ideal) x0 x1 x2 x3 x4 x5 x6 x7 x8 x9 x10 x11 x12 x13 x14 x15
      = Cert.Sage.sage Cert.Sage.eps (val_main_v61 (F := Ideal) x0 x1 x2 x3 x4 x5 x6 x7 x8) (val_main_v43 (F := Ideal) x0 x1 x2 x3 x4 x5 x6 x7 x8) x9 x11 (vec x10) (vec x12) (vec x13) (vec x14) (vec x15) := by
  funext i
  obtain ⟨p, c, rfl⟩ : ∃ (p : Fin 100000) (c : Fin 128), i = ix2 p c := ⟨i 0, i 1, eq_ix2 i⟩
  rw [Cert.Sage.sage_apply, ← Cert.Sage.sagePt_bias_first]
  rw [val_main_v83_apply, val_main_v82_apply, val_main_v79_apply, val_main_v73_apply, val_main_v70_apply, val_main_v67_apply, val_main_v65_apply, layer2_dotA, layer2_dotX, layer2_bl, layer2_mu, layer2_g,
    layer2_rs, layer2_beta, layer2_zero]
  rfl

/-! ## The third layer -/

theorem layer3_dotA (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (p : Fin 100000) (c : Fin 128) :
    val_main_v102 (F := Ideal) x0 x1 x2 x3 x4 x5 x6 x7 x8 x9 x10 x11 x12 x13 x14 x15 x16 (ix2 p c) = ∑ q : Fin 128, rows (val_main_v101 (F := Ideal) x0 x1 x2 x3 x4 x5 x6 x7 x8 x9 x10 x11 x12 x13 x14 x15) p q * mat x16 q c :=
  Cert.LibPlainDot.dotGeneral_apply dot_S100000x128_S128x128_S100000x128_1_0_0_1_n_n rfl none .single (val_main_v101 (F := Ideal) x0 x1 x2 x3 x4 x5 x6 x7 x8 x9 x10 x11 x12 x13 x14 x15) x16 p c

theorem layer3_dotX (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x18 : (⟨S128x128, .f32⟩ : BufTy).Contents (Elt Ideal)) (p : Fin 100000) (c : Fin 128) :
    val_main_v106 (F := Ideal) x0 x1 x2 x3 x4 x5 x6 x7 x8 x9 x10 x11 x12 x13 x14 x15 x18 (ix2 p c) = ∑ q : Fin 128, rows (val_main_v83 (F := Ideal) x0 x1 x2 x3 x4 x5 x6 x7 x8 x9 x10 x11 x12 x13 x14 x15) p q * mat x18 q c :=
  Cert.LibPlainDot.dotGeneral_apply dot_S100000x128_S128x128_S100000x128_1_0_0_1_n_n rfl none .single (val_main_v83 (F := Ideal) x0 x1 x2 x3 x4 x5 x6 x7 x8 x9 x10 x11 x12 x13 x14 x15) x18 p c

theorem layer3_bl (x17 : (⟨S128, .f32⟩ : BufTy).Contents (Elt Ideal)) (p : Fin 100000) (c : Fin 128) :
    val_main_v104 (F := Ideal) x17 (ix2 p c) = vec x17 c := by
  rw [val_main_v104_apply, val_main_v103_apply]
  exact congrArg x17 (funext fun a => Fin.ext (by match a with | ⟨0, _⟩ => rfl))

theorem layer3_mu (x21 : (⟨S128, .f32⟩ : BufTy).Contents (Elt Ideal)) (p : Fin 100000) (c : Fin 128) :
    val_main_v109 (F := Ideal) x21 (ix2 p c) = vec x21 c := by
  rw [val_main_v109_apply, val_main_v108_apply]
  exact congrArg x21 (funext fun a => Fin.ext (by match a with | ⟨0, _⟩ => rfl))

theorem layer3_g (x19 : (⟨S128, .f32⟩ : BufTy).Contents (Elt Ideal)) (p : Fin 100000) (c : Fin 128) :
    val_main_v112 (F := Ideal) x19 (ix2 p c) = vec x19 c := by
  rw [val_main_v112_apply, val_main_v111_apply]
  exact congrArg x19 (funext fun a => Fin.ext (by match a with | ⟨0, _⟩ => rfl))

theorem layer3_beta (x20 : (⟨S128, .f32⟩ : BufTy).Contents (Elt Ideal)) (p : Fin 100000) (c : Fin 128) :
    val_main_v121 (F := Ideal) x20 (ix2 p c) = vec x20 c := by
  rw [val_main_v121_apply, val_main_v120_apply]
  exact congrArg x20 (funext fun a => Fin.ext (by match a with | ⟨0, _⟩ => rfl))

theorem layer3_rs (x22 : (⟨S128, .f32⟩ : BufTy).Contents (Elt Ideal)) (p : Fin 100000) (c : Fin 128) :
    val_main_v118 (F := Ideal) x22 (ix2 p c) = Ideal.rsqrt (vec x22 c + Cert.Sage.eps) := by
  rw [val_main_v118_apply, val_main_v117_apply, val_main_v116_apply, val_main_v115_apply, val_main_v114_apply, val_main_cst_18_apply]
  exact congrArg (fun j => Ideal.rsqrt (x22 j + Ideal.ofBits .f32 0x3727C5AC#32)) (funext fun a => Fin.ext (by match a with | ⟨0, _⟩ => rfl))

theorem layer3_zero (p : Fin 100000) (c : Fin 128) : val_main_call2_v0 (F := Ideal) (ix2 p c) = 0 := by
  rw [val_main_call2_v0_apply, val_main_call2_cst_apply]
  exact Ideal.ofBits_zero_f32

/-- Layer 3 of the reference, entry by entry: the affine map of the averaged row and the node's own row (the bias added before the second product, which the order-free sum of three extended reals absorbs), the stored-statistics normalisation and the clamp at zero. -/
theorem layer3 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) :
    val_main_v123 (F := Ideal) x0 x1 x2 x3 x4 x5 x6 x7 x8 x9 x10 x11 x12 x13 x14 x15 x16 x17 x18 x19 x20 x21 x22
      = Cert.Sage.sage Cert.Sage.eps (val_main_v101 (F := Ideal) x0 x1 x2 x3 x4 x5 x6 x7 x8 x9 x10 x11 x12 x13 x14 x15) (val_main_v83 (F := Ideal) x0 x1 x2 x3 x4 x5 x6 x7 x8 x9 x10 x11 x12 x13 x14 x15) x16 x18 (vec x17) (vec x19) (vec x20) (vec x21) (vec x22) := by
  funext i
  obtain ⟨p, c, rfl⟩ : ∃ (p : Fin 100000) (c : Fin 128), i = ix2 p c := ⟨i 0, i 1, eq_ix2 i⟩
  rw [Cert.Sage.sage_apply, ← Cert.Sage.sagePt_bias_first]
  rw [val_main_v123_apply, val_main_v122_apply, val_main_v119_apply, val_main_v113_apply, val_main_v110_apply, val_main_v107_apply, val_main_v105_apply, layer3_dotA, layer3_dotX, layer3_bl, layer3_mu, layer3_g,
    layer3_rs, layer3_beta, layer3_zero]
  rfl

/-! ## The fourth layer -/

theorem layer4_dotA (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (p : Fin 100000) (c : Fin 128) :
    val_main_v142 (F := Ideal) x0 x1 x2 x3 x4 x5 x6 x7 x8 x9 x10 x11 x12 x13 x14 x15 x16 x17 x18 x19 x20 x21 x22 x23 (ix2 p c) = ∑ q : Fin 128, rows (val_main_v141 (F := Ideal) x0 x1 x2 x3 x4 x5 x6 x7 x8 x9 x10 x11 x12 x13 x14 x15 x16 x17 x18 x19 x20 x21 x22) p q * mat x23 q c :=
  Cert.LibPlainDot.dotGeneral_apply dot_S100000x128_S128x128_S100000x128_1_0_0_1_n_n rfl none .single (val_main_v141 (F := Ideal) x0 x1 x2 x3 x4 x5 x6 x7 x8 x9 x10 x11 x12 x13 x14 x15 x16 x17 x18 x19 x20 x21 x22) x23 p c

theorem layer4_dotX (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x25 : (⟨S128x128, .f32⟩ : BufTy).Contents (Elt Ideal)) (p : Fin 100000) (c : Fin 128) :
    val_main_v146 (F := Ideal) x0 x1 x2 x3 x4 x5 x6 x7 x8 x9 x10 x11 x12 x13 x14 x15 x16 x17 x18 x19 x20 x21 x22 x25 (ix2 p c) = ∑ q : Fin 128, rows (val_main_v123 (F := Ideal) x0 x1 x2 x3 x4 x5 x6 x7 x8 x9 x10 x11 x12 x13 x14 x15 x16 x17 x18 x19 x20 x21 x22) p q * mat x25 q c :=
  Cert.LibPlainDot.dotGeneral_apply dot_S100000x128_S128x128_S100000x128_1_0_0_1_n_n rfl none .single (val_main_v123 (F := Ideal) x0 x1 x2 x3 x4 x5 x6 x7 x8 x9 x10 x11 x12 x13 x14 x15 x16 x17 x18 x19 x20 x21 x22) x25 p c

theorem layer4_bl (x24 : (⟨S128, .f32⟩ : BufTy).Contents (Elt Ideal)) (p : Fin 100000) (c : Fin 128) :
    val_main_v144 (F := Ideal) x24 (ix2 p c) = vec x24 c := by
  rw [val_main_v144_apply, val_main_v143_apply]
  exact congrArg x24 (funext fun a => Fin.ext (by match a with | ⟨0, _⟩ => rfl))

theorem layer4_mu (x28 : (⟨S128, .f32⟩ : BufTy).Contents (Elt Ideal)) (p : Fin 100000) (c : Fin 128) :
    val_main_v149 (F := Ideal) x28 (ix2 p c) = vec x28 c := by
  rw [val_main_v149_apply, val_main_v148_apply]
  exact congrArg x28 (funext fun a => Fin.ext (by match a with | ⟨0, _⟩ => rfl))

theorem layer4_g (x26 : (⟨S128, .f32⟩ : BufTy).Contents (Elt Ideal)) (p : Fin 100000) (c : Fin 128) :
    val_main_v152 (F := Ideal) x26 (ix2 p c) = vec x26 c := by
  rw [val_main_v152_apply, val_main_v151_apply]
  exact congrArg x26 (funext fun a => Fin.ext (by match a with | ⟨0, _⟩ => rfl))

theorem layer4_beta (x27 : (⟨S128, .f32⟩ : BufTy).Contents (Elt Ideal)) (p : Fin 100000) (c : Fin 128) :
    val_main_v161 (F := Ideal) x27 (ix2 p c) = vec x27 c := by
  rw [val_main_v161_apply, val_main_v160_apply]
  exact congrArg x27 (funext fun a => Fin.ext (by match a with | ⟨0, _⟩ => rfl))

theorem layer4_rs (x29 : (⟨S128, .f32⟩ : BufTy).Contents (Elt Ideal)) (p : Fin 100000) (c : Fin 128) :
    val_main_v158 (F := Ideal) x29 (ix2 p c) = Ideal.rsqrt (vec x29 c + Cert.Sage.eps) := by
  rw [val_main_v158_apply, val_main_v157_apply, val_main_v156_apply, val_main_v155_apply, val_main_v154_apply, val_main_cst_25_apply]
  exact congrArg (fun j => Ideal.rsqrt (x29 j + Ideal.ofBits .f32 0x3727C5AC#32)) (funext fun a => Fin.ext (by match a with | ⟨0, _⟩ => rfl))

theorem layer4_zero (p : Fin 100000) (c : Fin 128) : val_main_call3_v0 (F := Ideal) (ix2 p c) = 0 := by
  rw [val_main_call3_v0_apply, val_main_call3_cst_apply]
  exact Ideal.ofBits_zero_f32

/-- Layer 4 of the reference, entry by entry: the affine map of the averaged row and the node's own row (the bias added before the second product, which the order-free sum of three extended reals absorbs), the stored-statistics normalisation and the clamp at zero. -/
theorem layer4 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal)) :
    val_main_v163 (F := Ideal) x0 x1 x2 x3 x4 x5 x6 x7 x8 x9 x10 x11 x12 x13 x14 x15 x16 x17 x18 x19 x20 x21 x22 x23 x24 x25 x26 x27 x28 x29
      = Cert.Sage.sage Cert.Sage.eps (val_main_v141 (F := Ideal) x0 x1 x2 x3 x4 x5 x6 x7 x8 x9 x10 x11 x12 x13 x14 x15 x16 x17 x18 x19 x20 x21 x22) (val_main_v123 (F := Ideal) x0 x1 x2 x3 x4 x5 x6 x7 x8 x9 x10 x11 x12 x13 x14 x15 x16 x17 x18 x19 x20 x21 x22) x23 x25 (vec x24) (vec x26) (vec x27) (vec x28) (vec x29) := by
  funext i
  obtain ⟨p, c, rfl⟩ : ∃ (p : Fin 100000) (c : Fin 128), i = ix2 p c := ⟨i 0, i 1, eq_ix2 i⟩
  rw [Cert.Sage.sage_apply, ← Cert.Sage.sagePt_bias_first]
  rw [val_main_v163_apply, val_main_v162_apply, val_main_v159_apply, val_main_v153_apply, val_main_v150_apply, val_main_v147_apply, val_main_v145_apply, layer4_dotA, layer4_dotX, layer4_bl, layer4_mu, layer4_g,
    layer4_rs, layer4_beta, layer4_zero]
  rfl

/-! ## The head -/

theorem head_dot1 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal)) (x30 : (⟨S128x128, .f32⟩ : BufTy).Contents (Elt Ideal)) (p : Fin 100000) (c : Fin 128) :
    val_main_v164 (F := Ideal) x0 x1 x2 x3 x4 x5 x6 x7 x8 x9 x10 x11 x12 x13 x14 x15 x16 x17 x18 x19 x20 x21 x22 x23 x24 x25 x26 x27 x28 x29 x30 (ix2 p c) = ∑ q : Fin 128, rows (val_main_v163 (F := Ideal) x0 x1 x2 x3 x4 x5 x6 x7 x8 x9 x10 x11 x12 x13 x14 x15 x16 x17 x18 x19 x20 x21 x22 x23 x24 x25 x26 x27 x28 x29) p q * mat x30 q c :=
  Cert.LibPlainDot.dotGeneral_apply dot_S100000x128_S128x128_S100000x128_1_0_0_1_n_n rfl none .single (val_main_v163 (F := Ideal) x0 x1 x2 x3 x4 x5 x6 x7 x8 x9 x10 x11 x12 x13 x14 x15 x16 x17 x18 x19 x20 x21 x22 x23 x24 x25 x26 x27 x28 x29) x30 p c

theorem head_b1 (x31 : (⟨S128, .f32⟩ : BufTy).Contents (Elt Ideal)) (p : Fin 100000) (c : Fin 128) :
    val_main_v166 (F := Ideal) x31 (ix2 p c) = vec x31 c := by
  rw [val_main_v166_apply, val_main_v165_apply]
  exact congrArg x31 (funext fun a => Fin.ext (by match a with | ⟨0, _⟩ => rfl))

theorem head_zero (p : Fin 100000) (c : Fin 128) : val_main_call4_v0 (F := Ideal) (ix2 p c) = 0 := by
  rw [val_main_call4_v0_apply, val_main_call4_cst_apply]
  exact Ideal.ofBits_zero_f32

/-- The first hidden row of the head, clamped at zero. -/
theorem head_hidden1 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (p : Fin 100000) (r : Fin 128) :
    val_main_v168 (F := Ideal) x0 x1 x2 x3 x4 x5 x6 x7 x8 x9 x10 x11 x12 x13 x14 x15 x16 x17 x18 x19 x20 x21 x22 x23 x24 x25 x26 x27 x28 x29 x30 x31 (ix2 p r) = max (lin (rows (val_main_v163 (F := Ideal) x0 x1 x2 x3 x4 x5 x6 x7 x8 x9 x10 x11 x12 x13 x14 x15 x16 x17 x18 x19 x20 x21 x22 x23 x24 x25 x26 x27 x28 x29) p) (mat x30) (vec x31) r) 0 := by
  rw [val_main_v168_apply, val_main_v167_apply, head_dot1, head_b1, head_zero]
  rfl

theorem head_dot2 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x128, .f32⟩ : BufTy).Contents (Elt Ideal)) (p : Fin 100000) (c : Fin 128) :
    val_main_v169 (F := Ideal) x0 x1 x2 x3 x4 x5 x6 x7 x8 x9 x10 x11 x12 x13 x14 x15 x16 x17 x18 x19 x20 x21 x22 x23 x24 x25 x26 x27 x28 x29 x30 x31 x32 (ix2 p c)
      = ∑ q : Fin 128, rows (val_main_v168 (F := Ideal) x0 x1 x2 x3 x4 x5 x6 x7 x8 x9 x10 x11 x12 x13 x14 x15 x16 x17 x18 x19 x20 x21 x22 x23 x24 x25 x26 x27 x28 x29 x30 x31) p q * mat x32 q c :=
  Cert.LibPlainDot.dotGeneral_apply dot_S100000x128_S128x128_S100000x128_1_0_0_1_n_n rfl none .single (val_main_v168 (F := Ideal) x0 x1 x2 x3 x4 x5 x6 x7 x8 x9 x10 x11 x12 x13 x14 x15 x16 x17 x18 x19 x20 x21 x22 x23 x24 x25 x26 x27 x28 x29 x30 x31) x32 p c

theorem head_b2 (x33 : (⟨S128, .f32⟩ : BufTy).Contents (Elt Ideal)) (p : Fin 100000) (c : Fin 128) :
    val_main_v171 (F := Ideal) x33 (ix2 p c) = vec x33 c := by
  rw [val_main_v171_apply, val_main_v170_apply]
  exact congrArg x33 (funext fun a => Fin.ext (by match a with | ⟨0, _⟩ => rfl))

/-- The second hidden row of the head. -/
theorem head_hidden2 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x128, .f32⟩ : BufTy).Contents (Elt Ideal)) (x33 : (⟨S128, .f32⟩ : BufTy).Contents (Elt Ideal)) (p : Fin 100000) (j : Fin 128) :
    val_main_v172 (F := Ideal) x0 x1 x2 x3 x4 x5 x6 x7 x8 x9 x10 x11 x12 x13 x14 x15 x16 x17 x18 x19 x20 x21 x22 x23 x24 x25 x26 x27 x28 x29 x30 x31 x32 x33 (ix2 p j)
      = lin (fun r => max (lin (rows (val_main_v163 (F := Ideal) x0 x1 x2 x3 x4 x5 x6 x7 x8 x9 x10 x11 x12 x13 x14 x15 x16 x17 x18 x19 x20 x21 x22 x23 x24 x25 x26 x27 x28 x29) p) (mat x30) (vec x31) r) 0) (mat x32) (vec x33) j := by
  rw [val_main_v172_apply, head_dot2, head_b2]
  have h : rows (val_main_v168 (F := Ideal) x0 x1 x2 x3 x4 x5 x6 x7 x8 x9 x10 x11 x12 x13 x14 x15 x16 x17 x18 x19 x20 x21 x22 x23 x24 x25 x26 x27 x28 x29 x30 x31) p = fun r => max (lin (rows (val_main_v163 (F := Ideal) x0 x1 x2 x3 x4 x5 x6 x7 x8 x9 x10 x11 x12 x13 x14 x15 x16 x17 x18 x19 x20 x21 x22 x23 x24 x25 x26 x27 x28 x29) p) (mat x30) (vec x31) r) 0 :=
    funext fun r => head_hidden1 x0 x1 x2 x3 x4 x5 x6 x7 x8 x9 x10 x11 x12 x13 x14 x15 x16 x17 x18 x19 x20 x21 x22 x23 x24 x25 x26 x27 x28 x29 x30 x31 p r
  rw [h]
  rfl

theorem head_dot3 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x128, .f32⟩ : BufTy).Contents (Elt Ideal)) (x33 : (⟨S128, .f32⟩ : BufTy).Contents (Elt Ideal)) (x34 : (⟨S128x128, .f32⟩ : BufTy).Contents (Elt Ideal)) (p : Fin 100000) (c : Fin 128) :
    val_main_v173 (F := Ideal) x0 x1 x2 x3 x4 x5 x6 x7 x8 x9 x10 x11 x12 x13 x14 x15 x16 x17 x18 x19 x20 x21 x22 x23 x24 x25 x26 x27 x28 x29 x30 x31 x32 x33 x34 (ix2 p c)
      = ∑ q : Fin 128, rows (val_main_v172 (F := Ideal) x0 x1 x2 x3 x4 x5 x6 x7 x8 x9 x10 x11 x12 x13 x14 x15 x16 x17 x18 x19 x20 x21 x22 x23 x24 x25 x26 x27 x28 x29 x30 x31 x32 x33) p q * mat x34 q c :=
  Cert.LibPlainDot.dotGeneral_apply dot_S100000x128_S128x128_S100000x128_1_0_0_1_n_n rfl none .single (val_main_v172 (F := Ideal) x0 x1 x2 x3 x4 x5 x6 x7 x8 x9 x10 x11 x12 x13 x14 x15 x16 x17 x18 x19 x20 x21 x22 x23 x24 x25 x26 x27 x28 x29 x30 x31 x32 x33) x34 p c

theorem head_b3 (x35 : (⟨S128, .f32⟩ : BufTy).Contents (Elt Ideal)) (p : Fin 100000) (c : Fin 128) :
    val_main_v175 (F := Ideal) x35 (ix2 p c) = vec x35 c := by
  rw [val_main_v175_apply, val_main_v174_apply]
  exact congrArg x35 (funext fun a => Fin.ext (by match a with | ⟨0, _⟩ => rfl))

/-- The reference's last thirteen operations are the perceptron head of the fourth layer's output, entry by entry. -/
theorem head_value (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x128, .f32⟩ : BufTy).Contents (Elt Ideal)) (x33 : (⟨S128, .f32⟩ : BufTy).Contents (Elt Ideal)) (x34 : (⟨S128x128, .f32⟩ : BufTy).Contents (Elt Ideal)) (x35 : (⟨S128, .f32⟩ : BufTy).Contents (Elt Ideal)) :
    val_main_v176 (F := Ideal) x0 x1 x2 x3 x4 x5 x6 x7 x8 x9 x10 x11 x12 x13 x14 x15 x16 x17 x18 x19 x20 x21 x22 x23 x24 x25 x26 x27 x28 x29 x30 x31 x32 x33 x34 x35
      = Cert.Sage.head (val_main_v163 (F := Ideal) x0 x1 x2 x3 x4 x5 x6 x7 x8 x9 x10 x11 x12 x13 x14 x15 x16 x17 x18 x19 x20 x21 x22 x23 x24 x25 x26 x27 x28 x29) x30 (vec x31) x32 (vec x33) x34 (vec x35) := by
  funext i
  obtain ⟨p, c, rfl⟩ : ∃ (p : Fin 100000) (c : Fin 128), i = ix2 p c := ⟨i 0, i 1, eq_ix2 i⟩
  rw [Cert.Sage.head_apply, val_main_v176_apply, head_dot3, head_b3]
  have h : rows (val_main_v172 (F := Ideal) x0 x1 x2 x3 x4 x5 x6 x7 x8 x9 x10 x11 x12 x13 x14 x15 x16 x17 x18 x19 x20 x21 x22 x23 x24 x25 x26 x27 x28 x29 x30 x31 x32 x33) p = fun j => lin (fun r => max (lin (rows (val_main_v163 (F := Ideal) x0 x1 x2 x3 x4 x5 x6 x7 x8 x9 x10 x11 x12 x13 x14 x15 x16 x17 x18 x19 x20 x21 x22 x23 x24 x25 x26 x27 x28 x29) p) (mat x30) (vec x31) r) 0) (mat x32) (vec x33) j :=
    funext fun j => head_hidden2 x0 x1 x2 x3 x4 x5 x6 x7 x8 x9 x10 x11 x12 x13 x14 x15 x16 x17 x18 x19 x20 x21 x22 x23 x24 x25 x26 x27 x28 x29 x30 x31 x32 x33 p j
  rw [h]
  rfl

/-! ## The neighbour averages

The reference's gather, scatter-adds and division are the same host operations on the same operands as the chain the
other program applies; the two programs state them over equal shape and dimension records, which differ in their proof fields only. -/

variable [Cert.KernelIdeal.Facts₀]

/-- The first layer's neighbour average in the reference is the shared chain of host operations applied to the edge list and the positions. -/
theorem avg1 (x0 : (⟨S100000x3, .f32⟩ : BufTy).Contents (Elt Ideal)) (x1 : (⟨S2x1600000, .i32⟩ : BufTy).Contents (Elt Ideal)) :
    val_main_v21 (F := Ideal) x0 x1 = Cert.Agg.agg3 (F := Ideal) x1 x0 := by
  unfold val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_c val_main_c_0 val_main_cst val_main_cst_1 val_main_cst_2 val_main_cst_3
  unfold Cert.Agg.agg3 Cert.Agg.deg Cert.Agg.srcIdx Cert.Agg.src Cert.Agg.dst
  rfl

/-- The second layer's neighbour average in the reference is the shared chain of host operations applied to the edge list and the previous layer's output. -/
theorem avg2 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) :
    val_main_v61 (F := Ideal) x0 x1 x2 x3 x4 x5 x6 x7 x8 = Cert.Agg.agg128 (F := Ideal) x1 (val_main_v43 (F := Ideal) x0 x1 x2 x3 x4 x5 x6 x7 x8) := by
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v3 val_main_v2 val_main_v1 val_main_v0 val_main_c_5 val_main_c_6 val_main_cst_7 val_main_cst_8 val_main_cst_9 val_main_cst_10
  unfold Cert.Agg.agg128 Cert.Agg.deg Cert.Agg.srcIdx Cert.Agg.src Cert.Agg.dst
  rfl

/-- The third layer's neighbour average in the reference is the shared chain of host operations applied to the edge list and the previous layer's output. -/
theorem avg3 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) :
    val_main_v101 (F := Ideal) x0 x1 x2 x3 x4 x5 x6 x7 x8 x9 x10 x11 x12 x13 x14 x15 = Cert.Agg.agg128 (F := Ideal) x1 (val_main_v83 (F := Ideal) x0 x1 x2 x3 x4 x5 x6 x7 x8 x9 x10 x11 x12 x13 x14 x15) := by
  unfold val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v3 val_main_v2 val_main_v1 val_main_v0 val_main_c_12 val_main_c_13 val_main_cst_14 val_main_cst_15 val_main_cst_16 val_main_cst_17
  unfold Cert.Agg.agg128 Cert.Agg.deg Cert.Agg.srcIdx Cert.Agg.src Cert.Agg.dst
  rfl

/-- The fourth layer's neighbour average in the reference is the shared chain of host operations applied to the edge list and the previous layer's output. -/
theorem avg4 (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) :
    val_main_v141 (F := Ideal) x0 x1 x2 x3 x4 x5 x6 x7 x8 x9 x10 x11 x12 x13 x14 x15 x16 x17 x18 x19 x20 x21 x22 = Cert.Agg.agg128 (F := Ideal) x1 (val_main_v123 (F := Ideal) x0 x1 x2 x3 x4 x5 x6 x7 x8 x9 x10 x11 x12 x13 x14 x15 x16 x17 x18 x19 x20 x21 x22) := by
  unfold val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v3 val_main_v2 val_main_v1 val_main_v0 val_main_c_19 val_main_c_20 val_main_cst_21 val_main_cst_22 val_main_cst_23 val_main_cst_24
  unfold Cert.Agg.agg128 Cert.Agg.deg Cert.Agg.srcIdx Cert.Agg.src Cert.Agg.dst
  rfl

/-! ## The whole reference -/

/-- The reference's result array is the network function of its arguments: the head of the fourth layer, each layer the
    layer map of the neighbour average of the layer before and of that layer itself. -/
theorem ref_value (x0 : (⟨S100000x3, .f32⟩ : BufTy).Contents (Elt Ideal)) (x1 : (⟨S2x1600000, .i32⟩ : BufTy).Contents (Elt Ideal)) (x2 : (⟨S3x128, .f32⟩ : BufTy).Contents (Elt Ideal)) (x3 : (⟨S128, .f32⟩ : BufTy).Contents (Elt Ideal)) (x4 : (⟨S3x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x128, .f32⟩ : BufTy).Contents (Elt Ideal)) (x33 : (⟨S128, .f32⟩ : BufTy).Contents (Elt Ideal)) (x34 : (⟨S128x128, .f32⟩ : BufTy).Contents (Elt Ideal)) (x35 : (⟨S128, .f32⟩ : BufTy).Contents (Elt Ideal)) :
    val_main_v176 (F := Ideal) x0 x1 x2 x3 x4 x5 x6 x7 x8 x9 x10 x11 x12 x13 x14 x15 x16 x17 x18 x19 x20 x21 x22 x23 x24 x25 x26 x27 x28 x29 x30 x31 x32 x33 x34 x35 = Cert.Net.net x0 x1 x2 x3 x4 x5 x6 x7 x8 x9 x10 x11 x12 x13 x14 x15 x16 x17 x18 x19 x20 x21 x22 x23 x24 x25 x26 x27 x28 x29 x30 x31 x32 x33 x34 x35 := by
  rw [head_value, layer4, avg4, layer3, avg3, layer2, avg2, layer1, avg1]
  rfl

end Cert.ReferenceIdeal.RefValue

end
-- ==== Proof.lean ====
/-
  The certificate's claims.

  The two programs are one network: four graph-convolution layers — the average of each node's neighbours' features and
  the node's own features through two dense maps, a bias, a normalisation by stored statistics and a clamp at zero — and a
  three-layer perceptron head.  The kernel program computes each layer's dense part in a pipelined launch over tiles of
  5,000 rows and the head in a fifth launch; the reference computes them with whole-array host operations.  Over the
  extended reals a change of float format is the identity, a tile of rows computed alone is the same rows of the whole
  matrix, and the one difference in arithmetic — the reference adds the layer's bias before the node's own product, the
  kernel after — is the commutativity of a three-term sum.  So both result arrays are the same function of the arguments
  (Net.lean): the kernel's by following its run through its ten segments (KernelRun.lean, KernelValue.lean, the region
  value modules), the reference's by reading its generated run one operation at a time (RefValue.lean).  The neighbour
  average itself, a gather and a scatter-add driven by the edge list, is the same chain of host operations in both
  programs and is carried unopened.  The frames of the two kernel programs are the generated ones; the reference's frame
  is its generated run with the result dropped; the idealization's ledger is empty.
-/
import proofs.«125825_j33397665694044_1_alg».proof.Defs
import proofs.«125825_j33397665694044_1_alg».proof.Proof.Gen.Kernel
import proofs.«125825_j33397665694044_1_alg».proof.Proof.Gen.Kernel.Frame
import proofs.«125825_j33397665694044_1_alg».proof.Proof.Gen.KernelIdeal
import proofs.«125825_j33397665694044_1_alg».proof.Proof.Gen.KernelIdeal.Frame
import proofs.«125825_j33397665694044_1_alg».proof.Proof.Gen.ReferenceIdeal
import proofs.«125825_j33397665694044_1_alg».proof.Proof.Gen.ReferenceIdeal.Run
import proofs.«125825_j33397665694044_1_alg».proof.Proof.Gen.ReferenceIdeal.Read
import proofs.«125825_j33397665694044_1_alg».proof.Proof.Gen.Pre_finite_inputs
import proofs.«125825_j33397665694044_1_alg».proof.Proof.KernelValue
import proofs.«125825_j33397665694044_1_alg».proof.Proof.RefValue
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- From memories agreeing on the arguments both programs end with the network function of the arguments in their result
    array: the kernel program by its run followed segment by segment, the reference by its generated run read one operation
    at a time. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35⟩ := hagree c
  rw [Cert.ReferenceIdeal.Read.val_main_v176_eq, Cert.ReferenceIdeal.RefValue.ref_value,
    h0, h1, h2, h3, h4, h5, h6, h7, h8, h9, h10, h11, h12, h13, h14, h15, h16, h17, h18, h19, h20, h21, h22, h23, h24, h25, h26, h27, h28, h29, h30, h31, h32, h33, h34, h35]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
